-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x2048 : Shape := ⟨3, ![4, 2, 2048]⟩
abbrev S4x1 : Shape := ⟨2, ![4, 1]⟩
abbrev S4x3x2048 : Shape := ⟨3, ![4, 3, 2048]⟩
abbrev S4x16x2048 : Shape := ⟨3, ![4, 16, 2048]⟩
abbrev S4x1x2048 : Shape := ⟨3, ![4, 1, 2048]⟩
abbrev S_ : Shape := ⟨0, ![]⟩

class Facts : Prop where
  bcast_S_S4x2x2048 : S_.BroadcastsInDim S4x2x2048 (![] : Fin 0 → Fin S4x2x2048.rank)
  reducesTo_S4x2x2048_S_d0_1_2 : S4x2x2048.ReducesTo [0, 1, 2] S_
  h_S_ : 0 < S_.numel
  bcast_S_S4x1 : S_.BroadcastsInDim S4x1 (![] : Fin 0 → Fin S4x1.rank)
  reducesTo_S4x1_S_d0_1 : S4x1.ReducesTo [0, 1] S_
  bcast_S_S4x3x2048 : S_.BroadcastsInDim S4x3x2048 (![] : Fin 0 → Fin S4x3x2048.rank)
  reducesTo_S4x3x2048_S_d0_1_2 : S4x3x2048.ReducesTo [0, 1, 2] S_
  bcast_S_S4x16x2048 : S_.BroadcastsInDim S4x16x2048 (![] : Fin 0 → Fin S4x16x2048.rank)
  reducesTo_S4x16x2048_S_d0_1_2 : S4x16x2048.ReducesTo [0, 1, 2] S_
  bcast_S_S4x1x2048 : S_.BroadcastsInDim S4x1x2048 (![] : Fin 0 → Fin S4x1x2048.rank)
  reducesTo_S4x1x2048_S_d0_1_2 : S4x1x2048.ReducesTo [0, 1, 2] S_

variable [Facts]

def fn_part1 {F : FTy → Type} [FloatOps F] (main_arg4 : FVec F S4x1x2048 .f32) (main_v13 : IVec S_ 1) (main_v16 : IVec S4x16x2048 1) : IVec S_ 1 :=
  let main_c_5 : IVec S_ 1 := constantI S_ 1 1#1
  let main_v17 : IVec S_ 1 := (fun x v => Host.reduce IntOp.andi x v reducesTo_S4x16x2048_S_d0_1_2 h_S_) main_v16 main_c_5
  let main_v18 : IVec S_ 1 := andi main_v13 main_v17
  let main_v19 : FVec F S4x1x2048 .f32 := Host.absf main_arg4
  let main_cst_6 : FVec F S_ .f32 := constant S_ .f32 0x7F800000#32
  let main_v20 : FVec F S4x1x2048 .f32 := broadcastInDim S4x1x2048 ![] bcast_S_S4x1x2048 main_cst_6
  let main_v21 : IVec S4x1x2048 1 := cmpf .olt main_v19 main_v20
  let main_c_7 : IVec S_ 1 := constantI S_ 1 1#1
  let main_v22 : IVec S_ 1 := (fun x v => Host.reduce IntOp.andi x v reducesTo_S4x1x2048_S_d0_1_2 h_S_) main_v21 main_c_7
  let main_v23 : IVec S_ 1 := andi main_v18 main_v22
  main_v23

def fn {F : FTy → Type} [FloatOps F] (main_arg0 : FVec F S4x2x2048 .f32) (main_arg1 : FVec F S4x1 .f32) (main_arg2 : FVec F S4x3x2048 .f32) (main_arg3 : FVec F S4x16x2048 .f32) (main_arg4 : FVec F S4x1x2048 .f32) : IVec S_ 1 :=
  let main_v0 : FVec F S4x2x2048 .f32 := Host.absf main_arg0
  let main_cst : FVec F S_ .f32 := constant S_ .f32 0x7F800000#32
  let main_v1 : FVec F S4x2x2048 .f32 := broadcastInDim S4x2x2048 ![] bcast_S_S4x2x2048 main_cst
  let main_v2 : IVec S4x2x2048 1 := cmpf .olt main_v0 main_v1
  let main_c : IVec S_ 1 := constantI S_ 1 1#1
  let main_v3 : IVec S_ 1 := (fun x v => Host.reduce IntOp.andi x v reducesTo_S4x2x2048_S_d0_1_2 h_S_) main_v2 main_c
  let main_v4 : FVec F S4x1 .f32 := Host.absf main_arg1
  let main_cst_0 : FVec F S_ .f32 := constant S_ .f32 0x7F800000#32
  let main_v5 : FVec F S4x1 .f32 := broadcastInDim S4x1 ![] bcast_S_S4x1 main_cst_0
  let main_v6 : IVec S4x1 1 := cmpf .olt main_v4 main_v5
  let main_c_1 : IVec S_ 1 := constantI S_ 1 1#1
  let main_v7 : IVec S_ 1 := (fun x v => Host.reduce IntOp.andi x v reducesTo_S4x1_S_d0_1 h_S_) main_v6 main_c_1
  let main_v8 : IVec S_ 1 := andi main_v3 main_v7
  let main_v9 : FVec F S4x3x2048 .f32 := Host.absf main_arg2
  let main_cst_2 : FVec F S_ .f32 := constant S_ .f32 0x7F800000#32
  let main_v10 : FVec F S4x3x2048 .f32 := broadcastInDim S4x3x2048 ![] bcast_S_S4x3x2048 main_cst_2
  let main_v11 : IVec S4x3x2048 1 := cmpf .olt main_v9 main_v10
  let main_c_3 : IVec S_ 1 := constantI S_ 1 1#1
  let main_v12 : IVec S_ 1 := (fun x v => Host.reduce IntOp.andi x v reducesTo_S4x3x2048_S_d0_1_2 h_S_) main_v11 main_c_3
  let main_v13 : IVec S_ 1 := andi main_v8 main_v12
  let main_v14 : FVec F S4x16x2048 .f32 := Host.absf main_arg3
  let main_cst_4 : FVec F S_ .f32 := constant S_ .f32 0x7F800000#32
  let main_v15 : FVec F S4x16x2048 .f32 := broadcastInDim S4x16x2048 ![] bcast_S_S4x16x2048 main_cst_4
  let main_v16 : IVec S4x16x2048 1 := cmpf .olt main_v14 main_v15
  fn_part1 (F := F) main_arg4 main_v13 main_v16
-- ==== Kernel.lean ====
abbrev S4x2x2048 : Shape := ⟨3, ![4, 2, 2048]⟩
abbrev S4x1 : Shape := ⟨2, ![4, 1]⟩
abbrev S4x3x2048 : Shape := ⟨3, ![4, 3, 2048]⟩
abbrev S4x16x2048 : Shape := ⟨3, ![4, 16, 2048]⟩
abbrev S4x1x2048 : Shape := ⟨3, ![4, 1, 2048]⟩
abbrev S4x2048 : Shape := ⟨2, ![4, 2048]⟩
abbrev S_ : Shape := ⟨0, ![]⟩
abbrev S4x16 : Shape := ⟨2, ![4, 16]⟩
abbrev S4x1x16 : Shape := ⟨3, ![4, 1, 16]⟩
abbrev S1x3x2048 : Shape := ⟨3, ![1, 3, 2048]⟩
abbrev S1x3x512 : Shape := ⟨3, ![1, 3, 512]⟩
abbrev S1x16x512 : Shape := ⟨3, ![1, 16, 512]⟩
abbrev S1x1x16 : Shape := ⟨3, ![1, 1, 16]⟩
abbrev S1x1x2048 : Shape := ⟨3, ![1, 1, 2048]⟩
abbrev S16x2048 : Shape := ⟨2, ![16, 2048]⟩
abbrev S3x2048 : Shape := ⟨2, ![3, 2048]⟩
abbrev S3x512 : Shape := ⟨2, ![3, 512]⟩
abbrev S2048x512 : Shape := ⟨2, ![2048, 512]⟩
abbrev S2048 : Shape := ⟨1, ![2048]⟩
abbrev S512 : Shape := ⟨1, ![512]⟩
abbrev S2048x1 : Shape := ⟨2, ![2048, 1]⟩
abbrev S1x512 : Shape := ⟨2, ![1, 512]⟩
abbrev S16x512 : Shape := ⟨2, ![16, 512]⟩
abbrev S1x2048 : Shape := ⟨2, ![1, 2048]⟩
abbrev S16 : Shape := ⟨1, ![16]⟩
abbrev S16x1 : Shape := ⟨2, ![16, 1]⟩
abbrev S4 : Shape := ⟨1, ![4]⟩

abbrev nBuf : Space → Nat
  | .hbm => 86
  | .vmem => 11
  | .smem => 0
  | _ => 0

abbrev bufTy : (tb : Table) → Fin (tcTables nBuf tb) → BufTy
  | .hbm, ⟨0, _⟩ => ⟨S4x2x2048, .f32⟩
  | .hbm, ⟨1, _⟩ => ⟨S4x1, .f32⟩
  | .hbm, ⟨2, _⟩ => ⟨S4x3x2048, .f32⟩
  | .hbm, ⟨3, _⟩ => ⟨S4x16x2048, .f32⟩
  | .hbm, ⟨4, _⟩ => ⟨S4x1x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S4x2048, .f32⟩
  | .hbm, ⟨9, _⟩ => ⟨S_, .f32⟩
  | .hbm, ⟨10, _⟩ => ⟨S4x1x2048, .f32⟩
  | .hbm, ⟨11, _⟩ => ⟨S4x1x2048, .i1⟩
  | .hbm, ⟨12, _⟩ => ⟨S4x1x2048, .f32⟩
  | .hbm, ⟨13, _⟩ => ⟨S_, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .i1⟩
  | .hbm, ⟨18, _⟩ => ⟨S4x16, .f32⟩
  | .hbm, ⟨19, _⟩ => ⟨S4x1x16, .f32⟩
  | .hbm, ⟨20, _⟩ => ⟨S4x1x2048, .f32⟩
  | .hbm, ⟨21, _⟩ => ⟨S4x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x16x2048, .f32⟩
  | .hbm, ⟨26, _⟩ => ⟨S4x16x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4, .f32⟩
  | .hbm, ⟨34, _⟩ => ⟨S4x1, .f32⟩
  | .hbm, ⟨35, _⟩ => ⟨S_, .f32⟩
  | .hbm, ⟨36, _⟩ => ⟨S4x1, .f32⟩
  | .hbm, ⟨37, _⟩ => ⟨S4x1, .f32⟩
  | .hbm, ⟨38, _⟩ => ⟨S4x2048, .f32⟩
  | .hbm, ⟨39, _⟩ => ⟨S4x2048, .f32⟩
  | .hbm, ⟨40, _⟩ => ⟨S4x2048, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1, .f32⟩
  | .hbm, ⟨47, _⟩ => ⟨S4x2048, .f32⟩
  | .hbm, ⟨48, _⟩ => ⟨S4x2048, .f32⟩
  | .hbm, ⟨49, _⟩ => ⟨S4x2048, .f32⟩
  | .hbm, ⟨50, _⟩ => ⟨S_, .f32⟩
  | .hbm, ⟨51, _⟩ => ⟨S4, .f32⟩
  | .hbm, ⟨52, _⟩ => ⟨S4x1, .f32⟩
  | .hbm, ⟨53, _⟩ => ⟨S4x1, .f32⟩
  | .hbm, ⟨54, _⟩ => ⟨S4x2048, .f32⟩
  | .hbm, ⟨55, _⟩ => ⟨S4x2048, .f32⟩
  | .hbm, ⟨56, _⟩ => ⟨S4x2048, .f32⟩
  | .hbm, ⟨57, _⟩ => ⟨S_, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x512, .f32⟩
  | .local _ .vmem, ⟨3, _⟩ => ⟨S1x3x512, .f32⟩
  | .local _ .vmem, ⟨4, _⟩ => ⟨S1x16x512, .f32⟩
  | .local _ .vmem, ⟨5, _⟩ => ⟨S1x16x512, .f32⟩
  | .local _ .vmem, ⟨6, _⟩ => ⟨S1x1x16, .f32⟩
  | .local _ .vmem, ⟨7, _⟩ => ⟨S1x1x16, .f32⟩
  | .local _ .vmem, ⟨8, _⟩ => ⟨S1x1x2048, .f32⟩
  | .local _ .vmem, ⟨9, _⟩ => ⟨S1x1x2048, .f32⟩
  | .local _ .vmem, ⟨10, _⟩ => ⟨S16x2048, .f32⟩
  | _, _ => ⟨S4x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_cst_13 : Ref sig .tc := ⟨.hbm, 82, rfl⟩
abbrev main_v49 : Ref sig .tc := ⟨.hbm, 83, rfl⟩
abbrev main_cst_14 : Ref sig .tc := ⟨.hbm, 84, rfl⟩
abbrev main_v50 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v216 : BitVec 1 := Scalar.cmpi .eq arg1 c3_i32
  let v217 : BitVec 32 := Scalar.extui v216
  let c0_i32_77 : BitVec 32 := 0#32
  let v218 : BitVec 1 := Scalar.cmpi .ne v217 c0_i32_77
  v218

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4x2x2048_S4x1x2048_0_0_0 : S4x2x2048.Slices ![0, 0, 0] S4x1x2048
  shapeCasts_S4x1x2048_S4x2048 : S4x1x2048.ShapeCasts S4x2048
  slices_S4x2x2048_S4x1x2048_0_1_0 : S4x2x2048.Slices ![0, 1, 0] S4x1x2048
  bcast_S_S4x1x2048 : S_.BroadcastsInDim S4x1x2048 (![] : Fin 0 → Fin S4x1x2048.rank)
  reducesTo_S4x16x2048_S4x16_d2 : S4x16x2048.ReducesTo [2] S4x16
  h_S_ : 0 < S_.numel
  bcast_S_S4x16 : S_.BroadcastsInDim S4x16 (![] : Fin 0 → Fin S4x16.rank)
  shapeCasts_S4x16_S4x1x16 : S4x16.ShapeCasts S4x1x16
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  bitsLt_bf16_f32 : FTy.bits .bf16 < FTy.bits .f32
  reduces_S3x2048_S2048 : S3x2048.Reduces [0] S2048
  reduces_S3x512_S512 : S3x512.Reduces [0] S512
  shapeCasts_S2048_S2048x1 : S2048.ShapeCasts S2048x1
  shapeCasts_S512_S1x512 : S512.ShapeCasts S1x512
  broadcasts_S2048x1_S2048x512 : S2048x1.Broadcasts S2048x512
  broadcasts_S1x512_S2048x512 : S1x512.Broadcasts S2048x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  slices_S16x512_o0_0_S1x512 : S16x512.Slices ![0, 0] S1x512
  shapeCasts_S1x512_S512 : S1x512.ShapeCasts S512
  reduces_S2048x512_S2048 : S2048x512.Reduces [1] S2048
  inb_S16x2048_S1x2048_0_0 : ∀ a, (![0, 0] : Fin 2 → Nat) a + S1x2048.size a ≤ S16x2048.size a
  h_S1x2048 : 0 < S1x2048.numel
  shapeCasts_S1x2048_S2048 : S1x2048.ShapeCasts S2048
  shapeCasts_S2048_S1x2048 : S2048.ShapeCasts S1x2048
  slices_S16x512_o1_0_S1x512 : S16x512.Slices ![1, 0] S1x512
  inb_S16x2048_S1x2048_1_0 : ∀ a, (![1, 0] : Fin 2 → Nat) a + S1x2048.size a ≤ S16x2048.size a
  slices_S16x512_o2_0_S1x512 : S16x512.Slices ![2, 0] S1x512
  inb_S16x2048_S1x2048_2_0 : ∀ a, (![2, 0] : Fin 2 → Nat) a + S1x2048.size a ≤ S16x2048.size a
  slices_S16x512_o3_0_S1x512 : S16x512.Slices ![3, 0] S1x512
  inb_S16x2048_S1x2048_3_0 : ∀ a, (![3, 0] : Fin 2 → Nat) a + S1x2048.size a ≤ S16x2048.size a
  slices_S16x512_o4_0_S1x512 : S16x512.Slices ![4, 0] S1x512
  inb_S16x2048_S1x2048_4_0 : ∀ a, (![4, 0] : Fin 2 → Nat) a + S1x2048.size a ≤ S16x2048.size a
  slices_S16x512_o5_0_S1x512 : S16x512.Slices ![5, 0] S1x512
  inb_S16x2048_S1x2048_5_0 : ∀ a, (![5, 0] : Fin 2 → Nat) a + S1x2048.size a ≤ S16x2048.size a
  slices_S16x512_o6_0_S1x512 : S16x512.Slices ![6, 0] S1x512
  inb_S16x2048_S1x2048_6_0 : ∀ a, (![6, 0] : Fin 2 → Nat) a + S1x2048.size a ≤ S16x2048.size a
  slices_S16x512_o7_0_S1x512 : S16x512.Slices ![7, 0] S1x512
  inb_S16x2048_S1x2048_7_0 : ∀ a, (![7, 0] : Fin 2 → Nat) a + S1x2048.size a ≤ S16x2048.size a
  slices_S16x512_o8_0_S1x512 : S16x512.Slices ![8, 0] S1x512
  inb_S16x2048_S1x2048_8_0 : ∀ a, (![8, 0] : Fin 2 → Nat) a + S1x2048.size a ≤ S16x2048.size a
  slices_S16x512_o9_0_S1x512 : S16x512.Slices ![9, 0] S1x512
  inb_S16x2048_S1x2048_9_0 : ∀ a, (![9, 0] : Fin 2 → Nat) a + S1x2048.size a ≤ S16x2048.size a
  slices_S16x512_o10_0_S1x512 : S16x512.Slices ![10, 0] S1x512
  inb_S16x2048_S1x2048_10_0 : ∀ a, (![10, 0] : Fin 2 → Nat) a + S1x2048.size a ≤ S16x2048.size a
  slices_S16x512_o11_0_S1x512 : S16x512.Slices ![11, 0] S1x512
  inb_S16x2048_S1x2048_11_0 : ∀ a, (![11, 0] : Fin 2 → Nat) a + S1x2048.size a ≤ S16x2048.size a
  slices_S16x512_o12_0_S1x512 : S16x512.Slices ![12, 0] S1x512
  inb_S16x2048_S1x2048_12_0 : ∀ a, (![12, 0] : Fin 2 → Nat) a + S1x2048.size a ≤ S16x2048.size a
  slices_S16x512_o13_0_S1x512 : S16x512.Slices ![13, 0] S1x512
  inb_S16x2048_S1x2048_13_0 : ∀ a, (![13, 0] : Fin 2 → Nat) a + S1x2048.size a ≤ S16x2048.size a
  slices_S16x512_o14_0_S1x512 : S16x512.Slices ![14, 0] S1x512
  inb_S16x2048_S1x2048_14_0 : ∀ a, (![14, 0] : Fin 2 → Nat) a + S1x2048.size a ≤ S16x2048.size a
  slices_S16x512_o15_0_S1x512 : S16x512.Slices ![15, 0] S1x512
  inb_S16x2048_S1x2048_15_0 : ∀ a, (![15, 0] : Fin 2 → Nat) a + S1x2048.size a ≤ S16x2048.size a
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  shapeCasts_S16_S16x1 : S16.ShapeCasts S16x1
  broadcasts_S16x1_S16x2048 : S16x1.Broadcasts S16x2048
  reduces_S16x2048_S2048 : S16x2048.Reduces [0] S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  bcast_S4x1x2048_S4x16x2048_0_1_2 : S4x1x2048.BroadcastsInDim S4x16x2048 (![0, 1, 2] : Fin 3 → Fin S4x16x2048.rank)
  reducesTo_S4x16x2048_S4x2048_d1 : S4x16x2048.ReducesTo [1] S4x2048
  reducesTo_S4x2048_S4_d1 : S4x2048.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x2048_0_1 : S4x1.BroadcastsInDim S4x2048 (![0, 1] : Fin 2 → Fin S4x2048.rank)
  bcast_S_S4 : S_.BroadcastsInDim S4 (![] : Fin 0 → Fin S4.rank)
  shapeCasts_S4x1_S4 : S4x1.ShapeCasts S4
  reducesTo_S4_S_d0 : S4.ReducesTo [0] S_
  reducesTo_S4x2048_S_d0_1 : S4x2048.ReducesTo [0, 1] S_
  dot_S3x2048_S3x512_S2048x512_0_0_1_1_n_n_wf : DotDims.WF S3x2048 S3x512 S2048x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S4x3x2048.size a
  hwx0_0 : ∀ i : grid0.Coords, EltTy.bits .f32 = 32 ∨ (Rect.block (s := S4x3x2048) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S4x3x2048.size a
  hwx0_1 : ∀ i : grid0.Coords, EltTy.bits .f32 = 32 ∨ (Rect.block (s := S4x3x2048) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S4x16x2048.size a
  hwx0_2 : ∀ i : grid0.Coords, EltTy.bits .f32 = 32 ∨ (Rect.block (s := S4x16x2048) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S4x1x16.size a
  hwx0_3 : ∀ i : grid0.Coords, EltTy.bits .f32 = 32 ∨ (Rect.block (s := S4x1x16) S1x1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)

variable [Facts₀]

def dot_S3x2048_S3x512_S2048x512_0_0_1_1_n_n : DotDims S3x2048 S3x512 S2048x512 where
  lhsContracting := [0]
  rhsContracting := [0]
  lhsNonContracting := [1]
  rhsNonContracting := [1]
  lhsBatch := []
  rhsBatch := []
  wf := dot_S3x2048_S3x512_S2048x512_0_0_1_1_n_n_wf

abbrev win0_0 : Pipeline.Window sig grid0 :=
  Pipeline.Window.ofSpec (Memref.whole main_arg2) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2x2048 : Shape := ⟨3, ![4, 2, 2048]⟩
abbrev S4x1 : Shape := ⟨2, ![4, 1]⟩
abbrev S4x3x2048 : Shape := ⟨3, ![4, 3, 2048]⟩
abbrev S4x16x2048 : Shape := ⟨3, ![4, 16, 2048]⟩
abbrev S4x1x2048 : Shape := ⟨3, ![4, 1, 2048]⟩
abbrev S4x2048 : Shape := ⟨2, ![4, 2048]⟩
abbrev S_ : Shape := ⟨0, ![]⟩
abbrev S4x2048x2048 : Shape := ⟨3, ![4, 2048, 2048]⟩
abbrev S4x2048x1 : Shape := ⟨3, ![4, 2048, 1]⟩
abbrev S4x1x2048x2048 : Shape := ⟨4, ![4, 1, 2048, 2048]⟩
abbrev S4x16x1x2048 : Shape := ⟨4, ![4, 16, 1, 2048]⟩
abbrev S4x16x2048x2048 : Shape := ⟨4, ![4, 16, 2048, 2048]⟩
abbrev S4x16 : Shape := ⟨2, ![4, 16]⟩
abbrev S4x16x1 : Shape := ⟨3, ![4, 16, 1]⟩
abbrev S4 : Shape := ⟨1, ![4]⟩

abbrev nBuf : Space → Nat
  | .hbm => 114
  | .vmem => 0
  | .smem => 0
  | _ => 0

abbrev bufTy : (tb : Table) → Fin (tcTables nBuf tb) → BufTy
  | .hbm, ⟨0, _⟩ => ⟨S4x2x2048, .f32⟩
  | .hbm, ⟨1, _⟩ => ⟨S4x1, .f32⟩
  | .hbm, ⟨2, _⟩ => ⟨S4x3x2048, .f32⟩
  | .hbm, ⟨3, _⟩ => ⟨S4x16x2048, .f32⟩
  | .hbm, ⟨4, _⟩ => ⟨S4x1x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S4x2048, .f32⟩
  | .hbm, ⟨9, _⟩ => ⟨S_, .f32⟩
  | .hbm, ⟨10, _⟩ => ⟨S4x1x2048, .f32⟩
  | .hbm, ⟨11, _⟩ => ⟨S4x1x2048, .i1⟩
  | .hbm, ⟨12, _⟩ => ⟨S4x1x2048, .f32⟩
  | .hbm, ⟨13, _⟩ => ⟨S4x3x2048, .f32⟩
  | .hbm, ⟨14, _⟩ => ⟨S_, .f32⟩
  | .hbm, ⟨15, _⟩ => ⟨S4x2048, .f32⟩
  | .hbm, ⟨16, _⟩ => ⟨S4x2048x2048, .f32⟩
  | .hbm, ⟨17, _⟩ => ⟨S4x2048x1, .f32⟩
  | .hbm, ⟨18, _⟩ => ⟨S4x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x1x2048x2048, .f32⟩
  | .hbm, ⟨27, _⟩ => ⟨S4x16x1x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16, .f32⟩
  | .hbm, ⟨35, _⟩ => ⟨S4x16x1, .f32⟩
  | .hbm, ⟨36, _⟩ => ⟨S_, .f32⟩
  | .hbm, ⟨37, _⟩ => ⟨S4x16x1, .f32⟩
  | .hbm, ⟨38, _⟩ => ⟨S4x16x1, .i1⟩
  | .hbm, ⟨39, _⟩ => ⟨S4x16x1, .f32⟩
  | .hbm, ⟨40, _⟩ => ⟨S_, .f32⟩
  | .hbm, ⟨41, _⟩ => ⟨S4x16x2048, .f32⟩
  | .hbm, ⟨42, _⟩ => ⟨S4x16x2048, .f32⟩
  | .hbm, ⟨43, _⟩ => ⟨S_, .f32⟩
  | .hbm, ⟨44, _⟩ => ⟨S4x16x1, .f32⟩
  | .hbm, ⟨45, _⟩ => ⟨S4x16x1, .f32⟩
  | .hbm, ⟨46, _⟩ => ⟨S4x16x2048, .f32⟩
  | .hbm, ⟨47, _⟩ => ⟨S4x16x2048, .f32⟩
  | .hbm, ⟨48, _⟩ => ⟨S_, .f32⟩
  | .hbm, ⟨49, _⟩ => ⟨S4x2048, .f32⟩
  | .hbm, ⟨50, _⟩ => ⟨S_, .f32⟩
  | .hbm, ⟨51, _⟩ => ⟨S4x1x2048, .f32⟩
  | .hbm, ⟨52, _⟩ => ⟨S4x1x2048, .f32⟩
  | .hbm, ⟨53, _⟩ => ⟨S4x16x2048, .f32⟩
  | .hbm, ⟨54, _⟩ => ⟨S4x16x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S4x2048, .f32⟩
  | .hbm, ⟨59, _⟩ => ⟨S4x2048, .f32⟩
  | .hbm, ⟨60, _⟩ => ⟨S_, .f32⟩
  | .hbm, ⟨61, _⟩ => ⟨S4, .f32⟩
  | .hbm, ⟨62, _⟩ => ⟨S4x1, .f32⟩
  | .hbm, ⟨63, _⟩ => ⟨S_, .f32⟩
  | .hbm, ⟨64, _⟩ => ⟨S4x1, .f32⟩
  | .hbm, ⟨65, _⟩ => ⟨S4x1, .f32⟩
  | .hbm, ⟨66, _⟩ => ⟨S4x2048, .f32⟩
  | .hbm, ⟨67, _⟩ => ⟨S4x2048, .f32⟩
  | .hbm, ⟨68, _⟩ => ⟨S4x2048, .f32⟩
  | .hbm, ⟨69, _⟩ => ⟨S_, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4x1, .f32⟩
  | .hbm, ⟨75, _⟩ => ⟨S4x2048, .f32⟩
  | .hbm, ⟨76, _⟩ => ⟨S4x2048, .f32⟩
  | .hbm, ⟨77, _⟩ => ⟨S4x2048, .f32⟩
  | .hbm, ⟨78, _⟩ => ⟨S_, .f32⟩
  | .hbm, ⟨79, _⟩ => ⟨S4, .f32⟩
  | .hbm, ⟨80, _⟩ => ⟨S4x1, .f32⟩
  | .hbm, ⟨81, _⟩ => ⟨S4x1, .f32⟩
  | .hbm, ⟨82, _⟩ => ⟨S4x2048, .f32⟩
  | .hbm, ⟨83, _⟩ => ⟨S4x2048, .f32⟩
  | .hbm, ⟨84, _⟩ => ⟨S4x2048, .f32⟩
  | .hbm, ⟨85, _⟩ => ⟨S_, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S4x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_cst_0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_cst_1 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩

abbrev nD : Nat := 1
abbrev τ : Topo := Topo.v7x

variable {F : FTy → Type} [FloatOps F]

class Facts₀ : Prop where
  slices_S4x2x2048_S4x1x2048_0_0_0 : S4x2x2048.Slices ![0, 0, 0] S4x1x2048
  shapeCasts_S4x1x2048_S4x2048 : S4x1x2048.ShapeCasts S4x2048
  slices_S4x2x2048_S4x1x2048_0_1_0 : S4x2x2048.Slices ![0, 1, 0] S4x1x2048
  bcast_S_S4x1x2048 : S_.BroadcastsInDim S4x1x2048 (![] : Fin 0 → Fin S4x1x2048.rank)
  reducesTo_S4x3x2048_S4x2048_d1 : S4x3x2048.ReducesTo [1] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S4x2048x2048_S4x1x2048x2048_0_2_3 : S4x2048x2048.BroadcastsInDim S4x1x2048x2048 (![0, 2, 3] : Fin 3 → Fin S4x1x2048x2048.rank)
  bcast_S4x16x2048_S4x16x1x2048_0_1_3 : S4x16x2048.BroadcastsInDim S4x16x1x2048 (![0, 1, 3] : Fin 3 → Fin S4x16x1x2048.rank)
  bcast_S4x1x2048x2048_S4x16x2048x2048_0_1_2_3 : S4x1x2048x2048.BroadcastsInDim S4x16x2048x2048 (![0, 1, 2, 3] : Fin 4 → Fin S4x16x2048x2048.rank)
  bcast_S4x16x1x2048_S4x16x2048x2048_0_1_2_3 : S4x16x1x2048.BroadcastsInDim S4x16x2048x2048 (![0, 1, 2, 3] : Fin 4 → Fin S4x16x2048x2048.rank)
  reducesTo_S4x16x2048x2048_S4x16x2048_d3 : S4x16x2048x2048.ReducesTo [3] S4x16x2048
  reducesTo_S4x16x2048_S4x16_d2 : S4x16x2048.ReducesTo [2] S4x16
  bcast_S4x16_S4x16x1_0_1 : S4x16.BroadcastsInDim S4x16x1 (![0, 1] : Fin 2 → Fin S4x16x1.rank)
  bcast_S_S4x16x1 : S_.BroadcastsInDim S4x16x1 (![] : Fin 0 → Fin S4x16x1.rank)
  bcast_S_S4x16x2048 : S_.BroadcastsInDim S4x16x2048 (![] : Fin 0 → Fin S4x16x2048.rank)
  bcast_S4x16x1_S4x16x2048_0_1_2 : S4x16x1.BroadcastsInDim S4x16x2048 (![0, 1, 2] : Fin 3 → Fin S4x16x2048.rank)
  reducesTo_S4x16x2048_S4x2048_d1 : S4x16x2048.ReducesTo [1] S4x2048
  bcast_S4x1x2048_S4x16x2048_0_1_2 : S4x1x2048.BroadcastsInDim S4x16x2048 (![0, 1, 2] : Fin 3 → Fin S4x16x2048.rank)
  reducesTo_S4x2048_S4_d1 : S4x2048.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x2048_0_1 : S4x1.BroadcastsInDim S4x2048 (![0, 1] : Fin 2 → Fin S4x2048.rank)
  bcast_S_S4 : S_.BroadcastsInDim S4 (![] : Fin 0 → Fin S4.rank)
  shapeCasts_S4x1_S4 : S4x1.ShapeCasts S4
  reducesTo_S4_S_d0 : S4.ReducesTo [0] S_
  reducesTo_S4x2048_S_d0_1 : S4x2048.ReducesTo [0, 1] S_
  dot_S4x3x2048_S4x3x2048_S4x2048x2048_1_1_2_2_0_0_wf : DotDims.WF S4x3x2048 S4x3x2048 S4x2048x2048 [1] [1] [2] [2] [0] [0]

variable [Facts₀]

def dot_S4x3x2048_S4x3x2048_S4x2048x2048_1_1_2_2_0_0 : DotDims S4x3x2048 S4x3x2048 S4x2048x2048 where
  lhsContracting := [1]
  rhsContracting := [1]
  lhsNonContracting := [2]
  rhsNonContracting := [2]
  lhsBatch := [0]
  rhsBatch := [0]
  wf := dot_S4x3x2048_S4x3x2048_S4x2048x2048_1_1_2_2_0_0_wf

class Facts : Prop extends Facts₀ where

variable [Facts]
-- ==== Proof.K.Setup.lean ====
import proofs.«107422_j42563125903952_1_alg».proof.Proof.Gen.Kernel.Launch
import proofs.«107422_j42563125903952_1_alg».proof.Proof.Gen.Kernel.Skeleton
import proofs.«107422_j42563125903952_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region's entry contents and the windows' blocks -/

/-- buffer contents when the region is entered: after the 15 host operations before it -/
abbrev V0 (c : Dev nD) : Valuation τ sig (Elt F) := StableHlo.after (List.flatten [hostOps0]) (fun b => m (c, b))
/-- the same contents read at one TensorCore reference -/
abbrev V (c : Dev nD) (b : Ref sig .tc) : Buf (Elt F) ((c : Thread nD τ).loc b) := V0 m c (Proc.devRef .tc b)

/-- The block of window `w` that grid point `t` works on, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### An input's staging buffer holds its block at every point

The four inputs are never idle and their blocks tile their arrays, so whenever the body is called the current staging
buffer of an input holds the block of the point: a point that does not fetch (windows 0 and 3 are fetched once per
batch row, at `j = 0`) has the same block index as the point before it. This holds for any proof data whose array is
the entry contents and whose body leaves the block where it found it. -/

theorem held0_of {c : Dev nD} (dat : Dat τ (Elt F) Unit ℕ (UR sig nD τ) ℕ cfg0 c) (hA : dat.A 0 = V m c (Pipeline.arrRef spec0 0))
    (hkept : ∀ t, dat.after 0 t = iblk m c 0 t) (t : Fin cfg0.N) (d) : dat.before 0 t d = iblk m c 0 t :=
  (dat.before_in_eq_fetched 0 rfl (fun _ => rfl) (fun _ _ _ => rfl)
      (fun t => by rw [hkept]; unfold Dat.blockOf iblk; rw [hA]; try rfl) t d).trans
    (by unfold Dat.fetched Dat.blockOf iblk; rw [hA]; try rfl)

theorem held1_of {c : Dev nD} (dat : Dat τ (Elt F) Unit ℕ (UR sig nD τ) ℕ cfg0 c) (hA : dat.A 1 = V m c (Pipeline.arrRef spec0 1))
    (hkept : ∀ t, dat.after 1 t = iblk m c 1 t) (t : Fin cfg0.N) (d) : dat.before 1 t d = iblk m c 1 t :=
  (dat.before_in_eq_fetched 1 rfl (fun _ => rfl) (fun _ _ _ => rfl)
      (fun t => by rw [hkept]; unfold Dat.blockOf iblk; rw [hA]; try rfl) t d).trans
    (by unfold Dat.fetched Dat.blockOf iblk; rw [hA]; try rfl)

theorem held2_of {c : Dev nD} (dat : Dat τ (Elt F) Unit ℕ (UR sig nD τ) ℕ cfg0 c) (hA : dat.A 2 = V m c (Pipeline.arrRef spec0 2))
    (hkept : ∀ t, dat.after 2 t = iblk m c 2 t) (t : Fin cfg0.N) (d) : dat.before 2 t d = iblk m c 2 t :=
  (dat.before_in_eq_fetched 2 rfl (fun _ => rfl) (fun _ _ _ => rfl)
      (fun t => by rw [hkept]; unfold Dat.blockOf iblk; rw [hA]; try rfl) t d).trans
    (by unfold Dat.fetched Dat.blockOf iblk; rw [hA]; try rfl)

theorem held3_of {c : Dev nD} (dat : Dat τ (Elt F) Unit ℕ (UR sig nD τ) ℕ cfg0 c) (hA : dat.A 3 = V m c (Pipeline.arrRef spec0 3))
    (hkept : ∀ t, dat.after 3 t = iblk m c 3 t) (t : Fin cfg0.N) (d) : dat.before 3 t d = iblk m c 3 t :=
  (dat.before_in_eq_fetched 3 rfl (fun _ => rfl) (fun _ _ _ => rfl)
      (fun t => by rw [hkept]; unfold Dat.blockOf iblk; rw [hA]; try rfl) t d).trans
    (by unfold Dat.fetched Dat.blockOf iblk; rw [hA]; try rfl)

/-! ## The two conditions of the body, as functions of the grid point

The grid is `4 × 4`: point `t` has batch row `t / 4` and key tile `j = t % 4`. The body tests `j = 0` (reset the running
maxima) and `j = 3` (emit the distances). -/

/-- `j = 0`, spelt as the body computes it from the coordinates. -/
abbrev firstTile (i : grid0.Coords) : Prop :=
  (Scalar.cmpi .ne (Scalar.extui (Scalar.cmpi .eq (BitVec.ofNat 32 (i 1).val) 0#32)) 0#32) = 1#1
/-- It holds exactly at the points `≡ 0 (mod 4)`: checked at each of the 16 points. -/
theorem firstTile_iff : ∀ t : Fin cfg0.N, firstTile (grid0.coords t) ↔ t.val % 4 = 0 :=
  (by decide +kernel : ∀ t : Fin grid0.N, firstTile (grid0.coords t) ↔ t.val % 4 = 0)

/-- `j = 3`, the last key tile, spelt as the body computes it. -/
abbrev lastTile (i : grid0.Coords) : Prop := k0_cond2 i = 1#1
/-- It holds exactly at the points `≡ 3 (mod 4)`. -/
theorem lastTile_iff : ∀ t : Fin cfg0.N, lastTile (grid0.coords t) ↔ t.val % 4 = 3 :=
  (by decide +kernel : ∀ t : Fin grid0.N, lastTile (grid0.coords t) ↔ t.val % 4 = 3)

/-! ## Where a window is idle -/

/-- Input 0 is read at every point. -/
theorem live0 : ∀ t : Fin cfg0.N, cfg0.idle 0 (grid0.coords t) = false := by decide +kernel
/-- Input 1 is read at every point. -/
theorem live1 : ∀ t : Fin cfg0.N, cfg0.idle 1 (grid0.coords t) = false := by decide +kernel
/-- Input 2 is read at every point. -/
theorem live2 : ∀ t : Fin cfg0.N, cfg0.idle 2 (grid0.coords t) = false := by decide +kernel
/-- Input 3 is read at every point. -/
theorem live3 : ∀ t : Fin cfg0.N, cfg0.idle 3 (grid0.coords t) = false := by decide +kernel
/-- Away from the last key tile nothing is stored into the distances' buffer: the window is idle there, -/
theorem dist_idle : ∀ t : Fin cfg0.N, ¬lastTile (grid0.coords t) → cfg0.idle 4 (grid0.coords t) = true := by decide +kernel
/-- and its block is not written back there. -/
theorem dist_unflushed : ∀ t : Fin cfg0.N, ¬lastTile (grid0.coords t) → (cfg0.win 4).flush t = false := by decide +kernel
/-- At the last key tile the window is live: the body stores the whole block. -/
theorem dist_live : ∀ t : Fin cfg0.N, lastTile (grid0.coords t) → cfg0.idle 4 (grid0.coords t) = false := by decide +kernel

/-! ## The memrefs the body is called with at a point -/

/-- window 0's current staging memref at point `t`, and that it is a whole buffer -/
abbrev stg0 (t : Fin cfg0.N) : Memref sig .tc .vmem S1x3x2048 .f32 := win0_0.stage (cfg0.slots t 0)
abbrev stg0_whole (t : Fin cfg0.N) : (stg0 t).IsWhole := hstage0_0 ((cfg0.slots t 0).cast nbuf0_0)
/-- window 1's current staging memref at point `t`, and that it is a whole buffer -/
abbrev stg1 (t : Fin cfg0.N) : Memref sig .tc .vmem S1x3x512 .f32 := win0_1.stage (cfg0.slots t 1)
abbrev stg1_whole (t : Fin cfg0.N) : (stg1 t).IsWhole := hstage0_1 ((cfg0.slots t 1).cast nbuf0_1)
/-- window 2's current staging memref at point `t`, and that it is a whole buffer -/
abbrev stg2 (t : Fin cfg0.N) : Memref sig .tc .vmem S1x16x512 .f32 := win0_2.stage (cfg0.slots t 2)
abbrev stg2_whole (t : Fin cfg0.N) : (stg2 t).IsWhole := hstage0_2 ((cfg0.slots t 2).cast nbuf0_2)
/-- window 3's current staging memref at point `t`, and that it is a whole buffer -/
abbrev stg3 (t : Fin cfg0.N) : Memref sig .tc .vmem S1x1x16 .f32 := win0_3.stage (cfg0.slots t 3)
abbrev stg3_whole (t : Fin cfg0.N) : (stg3 t).IsWhole := hstage0_3 ((cfg0.slots t 3).cast nbuf0_3)
/-- window 4's current staging memref at point `t`, and that it is a whole buffer -/
abbrev stg4 (t : Fin cfg0.N) : Memref sig .tc .vmem S1x1x2048 .f32 := win0_4.stage (cfg0.slots t 4)
abbrev stg4_whole (t : Fin cfg0.N) : (stg4 t).IsWhole := hstage0_4 ((cfg0.slots t 4).cast nbuf0_4)
/-- The running maxima: a `16 × 2048` buffer of the kernel's own (row `g` for label group `g`), not staged by the
    pipeline and kept from one grid point to the next. -/
abbrev accM : Memref sig .tc .vmem S16x2048 .f32 := Memref.whole cc0_scratch0
/-- the view through which its contents are stated -/
abbrev accV : View sig .tc .vmem S16x2048 .f32 := accM.view
/-- A view of the distances' block shape, through which the contents of window 4's staging buffer are stated (both
    staging buffers read the same through their whole views). -/
abbrev distV : View sig .tc .vmem S1x1x2048 .f32 := (Memref.whole cc0_stg4_0 : Memref sig .tc .vmem S1x1x2048 .f32).view

/-- What the launch hands the region besides the windows: the running-maxima buffer, whole, at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunReset.lean ====
import proofs.«107422_j42563125903952_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT THE FIRST KEY TILE (`j = 0`: the reset condition holds, the emit condition does not). On whole memrefs —
    the four inputs at contents `xP xJ xL xA`, the distances' buffer at any contents `xD`, the running maxima at ANY
    contents — the body runs to a continuation that gets the inputs and the distances' buffer back as they were and the
    running maxima with one whole store of `-∞` and then 16 row stores written: row `g` becomes the maximum of `-∞` and
    the row maxima of the pairwise squared distances masked by label row `g` of this tile, so nothing of the contents
    found is left. The stores are the witness the symbolic run finds (the second component; the first, the stores into
    the distances' buffer, is empty). -/
noncomputable def runReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) :
    Σ' (LD : List (View.Piece (Elt F) S1x1x2048 .f32)), { LA : List (View.Piece (Elt F) S16x2048 .f32) //
      ∀ (xD : Vec F S1x1x2048 .f32) (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ d, owns (c : Thread nD τ) acc fullShare d)
            ∗ (iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨[], ?_, fun xD E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%fD, %hfD, HD⟩, ⟨%dAcc, %fAcc, -, HAcc⟩, Hk⟩
    obtain rfl := hpts.eq_unread hfP; obtain rfl := hptsJ.eq_unread hfJ; obtain rfl := hlab.eq_unread hfL
    obtain rfl := hact.eq_unread hfA; obtain rfl := hdist.eq_unread hfD
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]
    · iexists _; isplitr; · ipureintro; exact hdist.read_unread _
      iexact HD
    iexists _; iexact HAcc

end Cert.Kernel.Hand

end
-- ==== Proof.K.RunFold.lean ====
import proofs.«107422_j42563125903952_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT A MIDDLE KEY TILE (`j = 1, 2`: neither condition holds). On whole memrefs — the four inputs at contents
    `xP xJ xL xA`, the distances' buffer at any contents `xD`, the running maxima at the contents `xAcc` the point before
    left — the body runs to a continuation that gets the inputs and the distances' buffer back as they were and the running
    maxima with 16 row stores written: row `g` becomes the maximum of its old value and the row maxima of the pairwise
    squared distances masked by label row `g` of this tile. The stores are the witness the symbolic run finds (the second
    component; the first, the stores into the distances' buffer, is empty). -/
noncomputable def runFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) :
    Σ' (LD : List (View.Piece (Elt F) S1x1x2048 .f32)), { LA : List (View.Piece (Elt F) S16x2048 .f32) //
      ∀ (xD : Vec F S1x1x2048 .f32) (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ owns (c : Thread nD τ) acc fullShare xAcc
            ∗ (iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨[], ?_, fun xD E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%fD, %hfD, HD⟩, ⟨%fAcc, %hfAcc, HAcc⟩, Hk⟩
    obtain rfl := hpts.eq_unread hfP; obtain rfl := hptsJ.eq_unread hfJ; obtain rfl := hlab.eq_unread hfL
    obtain rfl := hact.eq_unread hfA; obtain rfl := hdist.eq_unread hfD; obtain rfl := hacc.eq_unread hfAcc
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]
    · iexists _; isplitr; · ipureintro; exact hdist.read_unread _
      iexact HD
    iexists _; iexact HAcc

end Cert.Kernel.Hand

end
-- ==== Proof.K.RunEmit.lean ====
import proofs.«107422_j42563125903952_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT THE LAST KEY TILE (`j = 3`: the emit condition holds, the reset condition does not). On whole memrefs —
    the four inputs at contents `xP xJ xL xA`, the distances' buffer at ANY contents, the running maxima at the contents
    `xAcc` the point before left — the body runs to a continuation that gets the inputs back as they were, the running
    maxima with 16 row stores written (as at a middle tile) and the distances' buffer with ONE store of its whole block
    written: for each of the 2048 points the minimum over the 16 label groups of
    `(running maximum + 1e-4) / (active + 1e-8)`, read from the 16 rows just stored. Both lists of stores are the
    witnesses the symbolic run finds. -/
noncomputable def runEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) :
    Σ' (LD : List (View.Piece (Elt F) S1x1x2048 .f32)), { LA : List (View.Piece (Elt F) S16x2048 .f32) //
      ∀ (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ (∃ d, owns (c : Thread nD τ) dist fullShare d) ∗ owns (c : Thread nD τ) acc fullShare xAcc
            ∗ (iprop(owns (c : Thread nD τ) pts fullShare xP ∗ owns (c : Thread nD τ) ptsJ fullShare xJ ∗ owns (c : Thread nD τ) lab fullShare xL ∗ owns (c : Thread nD τ) act fullShare xA ∗ (∃ f, dist.view.loc (c : Thread nD τ) ↦[dist.view.set]{fullShare} dist.view.writes (Elt F) f LD) ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨?_, ?_, fun E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%dD, %fD, -, HD⟩, ⟨%fAcc, %hfAcc, HAcc⟩, Hk⟩
    obtain rfl := hpts.eq_unread hfP; obtain rfl := hptsJ.eq_unread hfJ; obtain rfl := hlab.eq_unread hfL
    obtain rfl := hact.eq_unread hfA; obtain rfl := hacc.eq_unread hfAcc
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]; · iexists _; iexact HD
    iexists _; iexact HAcc

end Cert.Kernel.Hand

end
-- ==== Proof.K.Carried.lean ====
import proofs.«107422_j42563125903952_1_alg».proof.Proof.K.RunReset
import proofs.«107422_j42563125903952_1_alg».proof.Proof.K.RunFold
import proofs.«107422_j42563125903952_1_alg».proof.Proof.K.RunEmit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the two buffers it may write

The running maxima are a `16 × 2048` buffer; every case ends with 16 stores of one row each (rows 0 … 15 in order), which
tile it, so what the buffer holds afterwards is those stores read back and does not depend on what it held before. The
distances' buffer is stored only at the last key tile, whole. -/

/-- The first key tile stores nothing into the distances' buffer; its empty list of stores read back is a value nothing
    consults (at these points the window is neither written back nor read at the next point). -/
def distReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) : Vec F S1x1x2048 .f32 :=
  distV.read (Elt F) (distV.writes (Elt F) distV.junk (runReset c i pts hpts ptsJ hptsJ lab hlab act hact dist hdist acc hacc hFirst hLast xP xJ xL xA).1)

/-- The 16 row stores of the first key tile (after its whole store of `-∞`) tile the running maxima: every index lies in one of them. -/
theorem accReset_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) (y : S16x2048.Idx) :
    ∃ pc ∈ (runReset c i pts hpts ptsJ hptsJ lab hlab act hact dist hdist acc hacc hFirst hLast xP xJ xL xA).2.1, y ∈ pc.1.set :=
  View.cover_of_tiledL (runReset c i pts hpts ptsJ hptsJ lab hlab act hact dist hdist acc hacc hFirst hLast xP xJ xL xA).2.1 S1x2048.size (by sl_kernel_rfl) y

/-- THE RUNNING MAXIMA after the first key tile: row `g` is `max(-∞, row maxima of this tile's masked distances)` — its stores read back. -/
def accReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) : Vec F S16x2048 .f32 :=
  accV.read (Elt F) (accV.writes (Elt F) accV.junk (runReset c i pts hpts ptsJ hptsJ lab hlab act hact dist hdist acc hacc hFirst hLast xP xJ xL xA).2.1)

/-- A middle key tile stores nothing into the distances' buffer; its empty list of stores read back is a value nothing
    consults (at these points the window is neither written back nor read at the next point). -/
def distFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) : Vec F S1x1x2048 .f32 :=
  distV.read (Elt F) (distV.writes (Elt F) distV.junk (runFold c i pts hpts ptsJ hptsJ lab hlab act hact dist hdist acc hacc hFirst hLast xP xJ xL xA xAcc).1)

/-- The 16 row stores of a middle key tile tile the running maxima: every index lies in one of them. -/
theorem accFold_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) (y : S16x2048.Idx) :
    ∃ pc ∈ (runFold c i pts hpts ptsJ hptsJ lab hlab act hact dist hdist acc hacc hFirst hLast xP xJ xL xA xAcc).2.1, y ∈ pc.1.set :=
  View.cover_of_tiledL (runFold c i pts hpts ptsJ hptsJ lab hlab act hact dist hdist acc hacc hFirst hLast xP xJ xL xA xAcc).2.1 S1x2048.size (by sl_kernel_rfl) y

/-- THE RUNNING MAXIMA after a middle key tile: row `g` is `max(xAcc row g, row maxima of this tile's masked distances)` — its stores read back. -/
def accFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) : Vec F S16x2048 .f32 :=
  accV.read (Elt F) (accV.writes (Elt F) accV.junk (runFold c i pts hpts ptsJ hptsJ lab hlab act hact dist hdist acc hacc hFirst hLast xP xJ xL xA xAcc).2.1)

/-- At the last key tile the one store into the distances' buffer is of its whole block: it covers it. -/
theorem distEmit_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) (y : S1x1x2048.Idx) :
    ∃ pc ∈ (runEmit c i pts hpts ptsJ hptsJ lab hlab act hact dist hdist acc hacc hFirst hLast xP xJ xL xA xAcc).1, y ∈ pc.1.set :=
  View.cover_of_tiledL (runEmit c i pts hpts ptsJ hptsJ lab hlab act hact dist hdist acc hacc hFirst hLast xP xJ xL xA xAcc).1 S1x1x2048.size (by sl_kernel_rfl) y

/-- THE DISTANCES of a batch row, as the last key tile leaves them in the staging buffer: its store read back. -/
def distEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) : Vec F S1x1x2048 .f32 :=
  distV.read (Elt F) (distV.writes (Elt F) distV.junk (runEmit c i pts hpts ptsJ hptsJ lab hlab act hact dist hdist acc hacc hFirst hLast xP xJ xL xA xAcc).1)

/-- The 16 row stores of the last key tile tile the running maxima: every index lies in one of them. -/
theorem accEmit_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) (y : S16x2048.Idx) :
    ∃ pc ∈ (runEmit c i pts hpts ptsJ hptsJ lab hlab act hact dist hdist acc hacc hFirst hLast xP xJ xL xA xAcc).2.1, y ∈ pc.1.set :=
  View.cover_of_tiledL (runEmit c i pts hpts ptsJ hptsJ lab hlab act hact dist hdist acc hacc hFirst hLast xP xJ xL xA xAcc).2.1 S1x2048.size (by sl_kernel_rfl) y

/-- THE RUNNING MAXIMA after the last key tile: updated as at a middle tile — its stores read back. -/
def accEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) : Vec F S16x2048 .f32 :=
  accV.read (Elt F) (accV.writes (Elt F) accV.junk (runEmit c i pts hpts ptsJ hptsJ lab hlab act hact dist hdist acc hacc hFirst hLast xP xJ xL xA xAcc).2.1)

/-! ## The two buffers after each grid point

Within a batch row the running maxima are reset at `j = 0` and folded over the four key tiles; the distances are emitted
at `j = 3`. Point by point: -/

/-- what point `t` leaves (distances' buffer, running maxima) when it is a first key tile -/
def leftReset (c : Dev nD) (t : Fin cfg0.N) (h0 : t.val % 4 = 0) : Vec F S1x1x2048 .f32 × Vec F S16x2048 .f32 :=
  (distReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t), accReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t))

/-- what point `t` leaves when it is a middle key tile and the point before left `xAcc` in the running maxima -/
def leftFold (c : Dev nD) (t : Fin cfg0.N) (h0 : ¬t.val % 4 = 0) (h3 : ¬t.val % 4 = 3) (xAcc : Vec F S16x2048 .f32) : Vec F S1x1x2048 .f32 × Vec F S16x2048 .f32 :=
  (distFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) xAcc, accFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) xAcc)

/-- what point `t` leaves when it is a last key tile and the point before left `xAcc` in the running maxima -/
def leftEmit (c : Dev nD) (t : Fin cfg0.N) (h3 : t.val % 4 = 3) (xAcc : Vec F S16x2048 .f32) : Vec F S1x1x2048 .f32 × Vec F S16x2048 .f32 :=
  (distEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) xAcc, accEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) xAcc)

/-- THE RECURSION OVER THE GRID. What the distances' staging buffer and the running maxima hold after the body at point
    `n`: at `n ≡ 0 (mod 4)` what the reset case leaves, whatever came before; otherwise the fold (or, at `n ≡ 3`, the
    emit) case run on what point `n - 1` left in the running maxima. -/
def carried (c : Dev nD) : (n : ℕ) → n < cfg0.N → Vec F S1x1x2048 .f32 × Vec F S16x2048 .f32
  | 0, hn => leftReset m c ⟨0, hn⟩ (Nat.zero_mod 4)
  | n + 1, hn =>
    if h0 : (n + 1) % 4 = 0 then leftReset m c ⟨n + 1, hn⟩ h0
    else if h3 : (n + 1) % 4 = 3 then leftEmit m c ⟨n + 1, hn⟩ h3 (carried c n (Nat.lt_of_succ_lt hn)).2
    else leftFold m c ⟨n + 1, hn⟩ h0 h3 (carried c n (Nat.lt_of_succ_lt hn)).2

/-- the recursion at a first key tile -/
theorem carried_reset (c : Dev nD) (t : Fin cfg0.N) (h0 : t.val % 4 = 0) : carried m c t.val t.isLt = leftReset m c t h0 := by
  obtain ⟨n, hn⟩ := t
  cases n with
  | zero => rfl
  | succ n => exact dif_pos h0

/-- the recursion at a middle key tile: the fold of what the point before left -/
theorem carried_fold (c : Dev nD) (t : Fin cfg0.N) (h0 : ¬t.val % 4 = 0) (h3 : ¬t.val % 4 = 3) :
    carried m c t.val t.isLt = leftFold m c t h0 h3 (carried m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

/-- the recursion at a last key tile: the emit case on what the point before left -/
theorem carried_emit (c : Dev nD) (t : Fin cfg0.N) (h3 : t.val % 4 = 3) :
    carried m c t.val t.isLt = leftEmit m c t h3 (carried m c (t.val - 1) (Nat.lt_of_le_of_lt (Nat.sub_le _ _) t.isLt)).2 := by
  obtain ⟨n, hn⟩ := t
  cases n with
  | zero => exact absurd (show (0 : ℕ) % 4 = 3 from h3) (by decide)
  | succ n =>
    have h0 : ¬(n + 1) % 4 = 0 := by have h3' : (n + 1) % 4 = 3 := h3; omega
    exact (dif_neg h0).trans ((dif_pos h3).trans rfl)

/-- The running maxima after a first key tile, -/
theorem carried_reset_acc (c : Dev nD) (t : Fin cfg0.N) (h0 : t.val % 4 = 0) :
    (carried m c t.val t.isLt).2 = accReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t) := by
  rw [carried_reset m c t h0]; unfold leftReset; (try dsimp only); first | done | rfl
/-- after a middle key tile, -/
theorem carried_fold_acc (c : Dev nD) (t : Fin cfg0.N) (h0 : ¬t.val % 4 = 0) (h3 : ¬t.val % 4 = 3) :
    (carried m c t.val t.isLt).2 = accFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) (carried m c (t.val - 1) (Nat.lt_of_le_of_lt (Nat.sub_le _ _) t.isLt)).2 := by
  rw [carried_fold m c t h0 h3]; unfold leftFold; (try dsimp only); first | done | rfl
/-- after a last key tile, -/
theorem carried_emit_acc (c : Dev nD) (t : Fin cfg0.N) (h3 : t.val % 4 = 3) :
    (carried m c t.val t.isLt).2 = accEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) (carried m c (t.val - 1) (Nat.lt_of_le_of_lt (Nat.sub_le _ _) t.isLt)).2 := by
  rw [carried_emit m c t h3]; unfold leftEmit; (try dsimp only); first | done | rfl
/-- and the distances a last key tile emits. -/
theorem carried_emit_dist (c : Dev nD) (t : Fin cfg0.N) (h3 : t.val % 4 = 3) :
    (carried m c t.val t.isLt).1 = distEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) (carried m c (t.val - 1) (Nat.lt_of_le_of_lt (Nat.sub_le _ _) t.isLt)).2 := by
  rw [carried_emit m c t h3]; unfold leftEmit; (try dsimp only); first | done | rfl

end Cert.Kernel.Hand

end
-- ==== Proof.K.Body.lean ====
import proofs.«107422_j42563125903952_1_alg».proof.Proof.K.Carried

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant between points -/

/-- What the region holds besides the windows before point `n`: before the first point what the launch hands over (the
    running maxima at anything); afterwards the running maxima at what point `n - 1` left, and the generator register at
    some state. -/
def Inv (c : Dev nD) : (n : ℕ) → n ≤ cfg0.N → sProp 𝕄
  | 0, _ => Pipeline.ΦA spec0 c
  | n + 1, hn => iprop(iprop(owns (c : Thread nD τ) accM fullShare ((carried m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare ((carried m c n hn).2)) ∗ (∃ r, prngReg c r)) := rfl

theorem Inv_pos (c : Dev nD) (n : ℕ) (h : n ≤ cfg0.N) (hz : n ≠ 0) :
    Inv m c n h = iprop(iprop(owns (c : Thread nD τ) accM fullShare ((carried m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer still at its block and the distances' buffer at the recursion's first component; between points the
    invariant above; nothing owed. Windows 0 and 1 read one array (the points), each through half of it; the other
    windows hold their arrays outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (carried m c t.val t.isLt).1
  Φ t := Inv m c t.val (Nat.le_of_lt_succ t.isLt)
  q := fun
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

/-- the invariant at a point's start, at the point's number -/
theorem Inv_castSucc (c : Dev nD) (t : Fin cfg0.N) :
    (dats m 0 c).Φ t.castSucc = Inv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_dist (c : Dev nD) (t : Fin cfg0.N) : (dats m 0 c).after 4 t = (carried m c t.val t.isLt).1 := by dsimp only [dats]

/-- input 0's current staging buffer holds the point's block -/
theorem held0 (c : Dev nD) (t : Fin cfg0.N) (d) : (dats m 0 c).before 0 t d = iblk m c 0 t :=
  held0_of m (dats m 0 c) (A_eq m c 0) (after_in0 m c) t d
/-- input 1's current staging buffer holds the point's block -/
theorem held1 (c : Dev nD) (t : Fin cfg0.N) (d) : (dats m 0 c).before 1 t d = iblk m c 1 t :=
  held1_of m (dats m 0 c) (A_eq m c 1) (after_in1 m c) t d
/-- input 2's current staging buffer holds the point's block -/
theorem held2 (c : Dev nD) (t : Fin cfg0.N) (d) : (dats m 0 c).before 2 t d = iblk m c 2 t :=
  held2_of m (dats m 0 c) (A_eq m c 2) (after_in2 m c) t d
/-- input 3's current staging buffer holds the point's block -/
theorem held3 (c : Dev nD) (t : Fin cfg0.N) (d) : (dats m 0 c).before 3 t d = iblk m c 3 t :=
  held3_of m (dats m 0 c) (A_eq m c 3) (after_in3 m c) t d

/-- input 0 is handed back holding its block -/
theorem leaves_in0 (c : Dev nD) (t : Fin cfg0.N) :
    (dats m 0 c).leavesExact 0 t = owns (c : Thread nD τ) (stg0 t) fullShare (iblk m c 0 t) := by
  unfold Dat.leavesExact; rw [live0 t]; (try dsimp only); rw [after_in0]
/-- input 1 is handed back holding its block -/
theorem leaves_in1 (c : Dev nD) (t : Fin cfg0.N) :
    (dats m 0 c).leavesExact 1 t = owns (c : Thread nD τ) (stg1 t) fullShare (iblk m c 1 t) := by
  unfold Dat.leavesExact; rw [live1 t]; (try dsimp only); rw [after_in1]
/-- input 2 is handed back holding its block -/
theorem leaves_in2 (c : Dev nD) (t : Fin cfg0.N) :
    (dats m 0 c).leavesExact 2 t = owns (c : Thread nD τ) (stg2 t) fullShare (iblk m c 2 t) := by
  unfold Dat.leavesExact; rw [live2 t]; (try dsimp only); rw [after_in2]
/-- input 3 is handed back holding its block -/
theorem leaves_in3 (c : Dev nD) (t : Fin cfg0.N) :
    (dats m 0 c).leavesExact 3 t = owns (c : Thread nD τ) (stg3 t) fullShare (iblk m c 3 t) := by
  unfold Dat.leavesExact; rw [live3 t]; (try dsimp only); rw [after_in3]

/-! ## The body obligation at a generic point -/

/-- what the body is called with at point `t`: the invariant, nothing owed, and the five windows' current staging
    buffers at what the pipeline left in them -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it must return -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- THE BODY AT ANY POINT. The inputs' buffers hold their blocks; `t % 4` says which of the three cases the point is in.
    At a first key tile the running maxima may hold anything (they are overwritten before being read for a value), so
    the invariant's buffer is passed as it is, named or not; at the other tiles the invariant names what the point
    before left, which is what the fold starts from. Each case's row stores tile the running maxima, so afterwards
    the buffer holds the recursion's second component; at the last key tile the whole-block store gives the distances'
    buffer the recursion's first component, elsewhere that buffer comes back untouched (idle, not written back). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3]
  rw [show (dats m 0 c).owesAt () t.succ = (dats m 0 c).owesAt () t.castSucc from rfl]
  rw [show (dats m 0 c).Φ t.succ = Inv m c (t.val + 1) t.isLt from rfl, Inv_succ]
  rw [leaves_in0, leaves_in1, leaves_in2, leaves_in3]
  have hN : t.val < 16 := lt_of_lt_of_eq t.isLt (show cfg0.N = 16 from N_0)
  by_cases h0 : t.val % 4 = 0
  · -- a first key tile
    have hF : firstTile (grid0.coords t) := (firstTile_iff t).mpr h0
    have hL : ¬lastTile (grid0.coords t) := fun h => by have := (lastTile_iff t).mp h; omega
    rw [Dat.leavesExact_idle (dats m 0 c) 4 t (dist_idle t hL) (dist_unflushed t hL)]
    rw [carried_reset_acc m c t h0]
    unfold accReset
    by_cases hz : t.val = 0
    · rw [Inv_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hF hL (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accReset_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hF hL (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accReset_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hF : ¬firstTile (grid0.coords t) := fun h => h0 ((firstTile_iff t).mp h)
    by_cases h3 : t.val % 4 = 3
    · -- a last key tile
      have hL : lastTile (grid0.coords t) := (lastTile_iff t).mpr h3
      rw [show (dats m 0 c).leavesExact 4 t = owns (c : Thread nD τ) (stg4 t) fullShare ((dats m 0 c).after 4 t) from by
        unfold Dat.leavesExact; rw [dist_live t hL], after_dist]
      rw [carried_emit_acc m c t h3, carried_emit_dist m c t h3]
      unfold accEmit distEmit
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runEmit c (grid0.coords t) _ _ _ _ _ _ _ _ _ _ _ _ hF hL (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accEmit_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (distEmit_cover c _ _ _ _ _ _ _ _ _ _ _ _ _ _ _ _ _ _ _ _)
    · -- a middle key tile
      have hL : ¬lastTile (grid0.coords t) := fun h => h3 ((lastTile_iff t).mp h)
      rw [Dat.leavesExact_idle (dats m 0 c) 4 t (dist_idle t hL) (dist_unflushed t hL)]
      rw [carried_fold_acc m c t h0 h3]
      unfold accFold
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runFold c (grid0.coords t) _ _ _ _ _ _ _ _ _ _ _ _ hF hL (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accFold_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives back what the launch handed over: the name of the running maxima's contents is
    forgotten. -/
theorem Inv_forget (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA_eq]
  iintro ⟨HS, Hg⟩
  isplitl [HS]
  · iexists _; iexact HS
  iexact Hg

/-- in particular after the last point -/
theorem hout (c : Dev nD) : (dats m 0 c).Φ (Fin.last cfg0.N) ⊢ Pipeline.ΦA spec0 c :=
  Inv_forget m c _ (by rw [Fin.val_last]; have : cfg0.N = 16 := N_0; omega)

end Cert.Kernel.Hand

end
-- ==== Proof.LibSharedLaunch.lean ====
/-
  A launch theorem for a pipelined kernel region whose INPUT windows may share an array, with host
  operations before and after the region.

  When two input windows read one array, the windows' arrays are not pairwise distinct, and the
  full share of the array's buffer cannot be handed to each window. Instead the buffer's full share
  is split among the windows that read it (each window's proof data names its part), and joined
  again when the region ends. This module takes those two steps as hypotheses of the certificate:

  * at ENTRY, the distinct buffers behind the windows' arrays, each whole at the full share at the
    entry contents, make the proof data's arrays at their entry contents (`hsplit`);
  * at EXIT, the proof data's arrays at their final contents ARE those distinct buffers, each whole
    at the full share, at some contents `V₁` (`hexit`, both directions) — `V₁` agreeing with the
    entry contents on every buffer that is no window's array (`hrest`);
  * the host operations after the region leave every window's array as the region left it (`hkeep`).

  The conclusion is the run of @main to a state in which every unscoped buffer holds what the
  host operations after the region compute from `V₁`.
-/
import Idealize.ShloMosaic.Lib.Pipeline.FrameSuffix

noncomputable section

namespace Cert.Lib.SharedLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The run of @main — host operations, the region, host operations — for a region whose input
    windows may share arrays. -/
theorem θ_run_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ c w, StableHlo.after opss.flatten (V₁ c) (Proc.devRef .tc (arrRef (cfg).spec w)) = V₁ c (Proc.devRef .tc (arrRef (cfg).spec w)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hexit : ∀ c, ((dats p c).arrays ((dats p c).arrAt · (cfg).N) : sProp 𝕄) ⊣⊢ arrBufs (cfg).spec c (fun b => V₁ c (Proc.devRef .tc b)))
    (hrest : ∀ c b, b ∈ restRefs sig (cfg).spec → V₁ c (Proc.devRef .tc b) = V₀ c (Proc.devRef .tc b))
    (harrN : ∀ c w, V₁ c (Proc.devRef .tc (arrRef (cfg).spec w)) = (dats p c).arrAt w (cfg).N)
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD, ∀ b : Ref sig .tc, b.isScoped = false →
      r.2.mem ((c.tc : Thread nD τ).loc b) = StableHlo.after opss.flatten (V₁ c) (Proc.devRef .tc b)) := by
  classical
  -- the buffers that are no window's array hold the entry contents when the region ends
  have hrestEq : ∀ c, (unscopedRest (Ix := Unit) (Name := ℕ) (U := UR sig nD τ) (Lvl := ℕ) (cfg).spec c (fun b => V₀ c (Proc.devRef .tc b)) : sProp 𝕄)
      = unscopedRest (cfg).spec c (fun b => V₁ c (Proc.devRef .tc b)) := fun c => by
    unfold unscopedRest
    exact bigSep_congr fun b hb => by dsimp only; rw [hrest c b hb]
  -- all unscoped buffers at the exit contents, from the proof data's arrays and the bypassing buffers
  have hjoin : ∀ c, iprop(((dats p c).arrays ((dats p c).arrAt · (cfg).N) : sProp 𝕄)
        ∗ unscopedRest (cfg).spec c (fun b => V₀ c (Proc.devRef .tc b)))
      ⊢ (StableHlo.held (c.tc : Thread nD τ) (ucRefs τ sig) (V₁ c) : sProp 𝕄) := fun c => by
    rw [← unscopedBufs_held (Ix := Unit) (Name := ℕ) (U := UR sig nD τ) (Lvl := ℕ) c (V₁ c),
      Pipeline.unscopedBufs_split₀ cfgs p hw.arr_unscoped c, hrestEq c]
    iintro ⟨Ha, Hr⟩
    isplitl [Ha]; · iapply (hexit c).1; iexact Ha
    iexact Hr
  -- and back, after the host operations
  have hsplitN : ∀ c, (StableHlo.held (c.tc : Thread nD τ) (ucRefs τ sig) (StableHlo.after opss.flatten (V₁ c)) : sProp 𝕄)
      ⊢ iprop(((dats p c).arrays ((dats p c).arrAt · (cfg).N) : sProp 𝕄)
        ∗ unscopedRest (cfg).spec c (fun b => StableHlo.after opss.flatten (V₁ c) (Proc.devRef .tc b))) := fun c => by
    rw [← unscopedBufs_held (Ix := Unit) (Name := ℕ) (U := UR sig nD τ) (Lvl := ℕ) c (StableHlo.after opss.flatten (V₁ c)),
      Pipeline.unscopedBufs_split₀ cfgs p hw.arr_unscoped c]
    have e : (arrBufs (Ix := Unit) (Name := ℕ) (U := UR sig nD τ) (Lvl := ℕ) (cfg).spec c (fun b => StableHlo.after opss.flatten (V₁ c) (Proc.devRef .tc b)) : sProp 𝕄)
        = arrBufs (cfg).spec c (fun b => V₁ c (Proc.devRef .tc b)) := by
      unfold arrBufs
      exact bigSep_congr fun b hb => by
        obtain ⟨w, -, rfl⟩ := Finset.mem_image.mp hb
        dsimp only; rw [hkeep c w]
    rw [e]
    iintro ⟨Ha, Hr⟩
    isplitl [Ha]; · iapply (hexit c).2; iexact Ha
    iexact Hr
  exact θ_run_region_pf_tail (fun q => (cfgs q).toPCfg (Val := Val)) (fun q => (cfgs q).toPCfg_adm) dats () hcell p hw
      (OwnSemFacts.none (cfg).spec) (PreFacts.none _) emb₁ defs₀ 𝒱₀ m g main
      (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (V₁ c) (Proc.devRef .tc b)))
    (hX := fun c => by
      rw [show (unscopedRestP (Ix := Unit) (Name := ℕ) (U := UR sig nD τ) (Lvl := ℕ) ((cfgs p).toPCfg (Val := Val)).pre (cfg).spec c (fun b => V₀ c (Proc.devRef .tc b)) : sProp 𝕄)
          = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [← List.append_nil (opss.map StableHlo.seq)]
      have aux : iprop((boundary (c.tc : Thread nD τ) : sProp 𝕄) ∗ ((dats p c).arrays ((dats p c).arrAt · (cfg).N) : sProp 𝕄)
          ∗ unscopedRest (cfg).spec c (fun b => V₀ c (Proc.devRef .tc b)))
        ⊢ iprop((boundary (c.tc : Thread nD τ) : sProp 𝕄) ∗ (StableHlo.held (c.tc : Thread nD τ) (ucRefs τ sig) (V₁ c) : sProp 𝕄)) :=
        sep_mono_right (hjoin c)
      iintro ⟨Hk, Hb⟩
      ihave Hb' := aux $$ Hb
      iapply (wp_seqs_then (fun q => (cfgs q).toPCfg (Val := Val)) defs₀ 𝒱₀ c (ucRefs τ sig) [] opss hsub hfresh (V₁ c)) $$ Hb'
      iintro Hb
      rw [chain_nil, wp_pure]
      imodintro
      iapply Hk
      icases Hb with ⟨-, H⟩
      iapply (hsplitN c); iexact H)
    (QY := fun c s => ∀ b ∈ restRefs sig (cfg).spec, s.mem ((c.tc : Thread nD τ).loc b) = StableHlo.after opss.flatten (V₁ c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (V₁ c) (Proc.devRef .tc b)) s')
      isplitl [HU] <;> iassumption)
    (hQ := fun s h c b hb => by
      by_cases hi : b ∈ Finset.univ.image (arrRef (cfg).spec)
      · obtain ⟨w, -, rfl⟩ := Finset.mem_image.mp hi
        rw [hkeep c w, harrN c w]; exact (h c).1 w
      · exact (h c).2.2 b (Finset.mem_sdiff.mpr ⟨Finset.mem_filter.mpr ⟨Finset.mem_univ _, by simp [hb]⟩, hi⟩))

end Cert.Lib.SharedLaunch

end
-- ==== Proof.K.Shares.lean ====
/-
  The five windows of the distance kernel stand on FOUR arrays: the whole-row window and the
  column-tile window both read the point array. At the region's entry the point array's buffer,
  held whole at the full share, is split into a left and a right half, one per window; when the
  region ends the halves — both still at the entry contents, an input being never written — are
  joined again. The other three arrays (labels, active flags, the output) are each held by one
  window at the full share.
-/
import proofs.«107422_j42563125903952_1_alg».proof.Proof.K.Setup
import proofs.«107422_j42563125903952_1_alg».proof.Proof.LibSharedLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct arrays behind the windows: points, labels, active flags, the output. -/
theorem arrRefs_eq : Finset.univ.image (Pipeline.arrRef spec0)
    = ([main_arg2, main_arg3, main_v11, main_v12] : List (Ref sig .tc)).toFinset := by decide

/-- Those four buffers, each whole at the full share, one by one. -/
theorem arrBufs_chain (c : Dev nD) (W : (b : Ref sig .tc) → Buf (Elt F) ((c : Thread nD τ).loc b)) :
    (Pipeline.arrBufs spec0 c W : sProp 𝕄)
      = iprop((((c : Thread nD τ).loc main_arg2) ↦{fullShare} W main_arg2) ∗ (((c : Thread nD τ).loc main_arg3) ↦{fullShare} W main_arg3)
          ∗ (((c : Thread nD τ).loc main_v11) ↦{fullShare} W main_v11) ∗ (((c : Thread nD τ).loc main_v12) ↦{fullShare} W main_v12)) := by
  unfold Pipeline.arrBufs
  exact bigSep_eq_bigSepL_of_eq [main_arg2, main_arg3, main_v11, main_v12] arrRefs_eq (by decide) _

variable {c : Dev nD} (dat : Dat τ (Elt F) Unit ℕ (UR sig nD τ) ℕ cfg0 c)

/-- The windows' arrays of a proof datum, window by window, each whole at the window's share. -/
theorem arrays_chain (G : (w : Fin cfg0.W) → Buf (Elt F) ((cfg0.win w).arr.view.loc (c : Thread nD τ))) :
    (dat.arrays G : sProp 𝕄)
      = iprop((((c : Thread nD τ).loc main_arg2) ↦{dat.share 0} G 0) ∗ (((c : Thread nD τ).loc main_arg2) ↦{dat.share 1} G 1)
          ∗ (((c : Thread nD τ).loc main_arg3) ↦{dat.share 2} G 2) ∗ (((c : Thread nD τ).loc main_v11) ↦{dat.share 3} G 3)
          ∗ (((c : Thread nD τ).loc main_v12) ↦{dat.share 4} G 4)) := by
  unfold Pipeline.Dat.arrays
  rw [bigSep_W0, (arr_whole0 0).set_eq_univ, (arr_whole0 2).set_eq_univ, (arr_whole0 3).set_eq_univ, (arr_whole0 4).set_eq_univ]

/-- The proof datum's arrays at contents `G` ARE the four buffers whole at the full share at contents `W`, when the
    two windows on the point array hold its left and right halves, the other windows hold their arrays outright,
    and `G` is `W` window by window: the point array's halves join to the full share, and split back. -/
theorem arrays_iff_arrBufs (hs0 : dat.share 0 = fullShare.left) (hs1 : dat.share 1 = fullShare.right)
    (hs2 : dat.share 2 = fullShare) (hs3 : dat.share 3 = fullShare) (hs4 : dat.share 4 = fullShare)
    (G : (w : Fin cfg0.W) → Buf (Elt F) ((cfg0.win w).arr.view.loc (c : Thread nD τ)))
    (W : (b : Ref sig .tc) → Buf (Elt F) ((c : Thread nD τ).loc b))
    (h0 : G 0 = W main_arg2) (h1 : G 1 = W main_arg2) (h2 : G 2 = W main_arg3) (h3 : G 3 = W main_v11) (h4 : G 4 = W main_v12) :
    (dat.arrays G : sProp 𝕄) ⊣⊢ Pipeline.arrBufs spec0 c W := by
  rw [arrays_chain, arrBufs_chain, hs0, hs1, hs2, hs3, hs4, h0, h1, h2, h3, h4]
  have hsh : ((((c : Thread nD τ).loc main_arg2) ↦{fullShare} W main_arg2) : sProp 𝕄)
      ⊣⊢ iprop((((c : Thread nD τ).loc main_arg2) ↦{fullShare.left} W main_arg2) ∗ (((c : Thread nD τ).loc main_arg2) ↦{fullShare.right} W main_arg2)) :=
    pointsTo_share (PosShare.mem_left_op_right fullShare)
  have hsplit := hsh.1
  have hjoin := hsh.2
  constructor
  · iintro ⟨Hl, Hr, HR⟩
    isplitl [Hl Hr]
    · iapply hjoin
      isplitl [Hl]; · iexact Hl
      iexact Hr
    iexact HR
  · iintro ⟨H, HR⟩
    ihave H' := hsplit $$ H
    icases H' with ⟨Hl, Hr⟩
    isplitl [Hl]; · iexact Hl
    isplitl [Hr]; · iexact Hr
    iexact HR

end Cert.Kernel.Hand

end
-- ==== Proof.K.Run.lean ====
/-
  The run of the distance program as printed (word level), assembled: the fifteen host operations before the
  region compute the windows' arrays; the region runs the kernel over its sixteen grid points, its
  body obligation discharged point by point; the host operations after the region read the output
  array. The launch is the one for windows that share an input array: the point array's buffer is
  split between the row window and the column-tile window at entry and joined at exit.

  The post says what EVERY unscoped buffer holds at the end: the host operations after the region
  applied to the contents the region leaves — the entry contents with the output array replaced by
  what the write-backs made of it.
-/
import proofs.«107422_j42563125903952_1_alg».proof.Proof.K.Body
import proofs.«107422_j42563125903952_1_alg».proof.Proof.K.Shares

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The three stretches of host operations after the region (the middle one is the log-softmax). -/
abbrev tailOps : List (List (HloOp τ sig (Elt F))) := [hostOps1, hostOps1_1, hostOps1_2]

/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the region leaves -/

/-- The buffers' contents when the region ends: the entry contents, the output array at what the write-backs made of it. -/
def V1 (c : Dev nD) : Valuation τ sig (Elt F) :=
  Function.update (V0 m c) (Proc.devRef .tc main_v12) ((dats m 0 c).arrAt 4 cfg0.N)

theorem V1_out (c : Dev nD) : V1 m c (Proc.devRef .tc main_v12) = (dats m 0 c).arrAt 4 cfg0.N := Function.update_self ..

theorem V1_of_ne (c : Dev nD) (b : Ref sig .tc) (hb : b ≠ main_v12) : V1 m c (Proc.devRef .tc b) = V0 m c (Proc.devRef .tc b) :=
  Function.update_of_ne (fun e => hb (Proc.devRef_injective _ e)) _ _

/-- Every window's array at the end: an input as the region found it, the output as written back. -/
theorem V1_arr (c : Dev nD) : ∀ w : Fin cfg0.W, V1 m c (Proc.devRef .tc (Pipeline.arrRef spec0 w)) = (dats m 0 c).arrAt w cfg0.N
  | ⟨0, _⟩ => (V1_of_ne m c main_arg2 (by decide)).trans (((dats m 0 c).arrAt_in 0 rfl _).trans (A_eq m c 0)).symm
  | ⟨1, _⟩ => (V1_of_ne m c main_arg2 (by decide)).trans (((dats m 0 c).arrAt_in 1 rfl _).trans (A_eq m c 1)).symm
  | ⟨2, _⟩ => (V1_of_ne m c main_arg3 (by decide)).trans (((dats m 0 c).arrAt_in 2 rfl _).trans (A_eq m c 2)).symm
  | ⟨3, _⟩ => (V1_of_ne m c main_v11 (by decide)).trans (((dats m 0 c).arrAt_in 3 rfl _).trans (A_eq m c 3)).symm
  | ⟨4, _⟩ => V1_out m c
  | ⟨_ + 5, h⟩ => absurd h (Nat.not_lt.2 (Nat.le_add_left _ _))

theorem V1_rest (c : Dev nD) (b : Ref sig .tc) (hb : b ∈ Pipeline.restRefs sig spec0) : V1 m c (Proc.devRef .tc b) = V0 m c (Proc.devRef .tc b) :=
  V1_of_ne m c b fun e => (Finset.mem_sdiff.mp hb).2 (Finset.mem_image.mpr ⟨4, Finset.mem_univ _, e.symm⟩)

/-! ## The shares -/

theorem share_0 (c : Dev nD) : (dats m 0 c).share 0 = fullShare.left := by unfold Pipeline.Dat.share; rw [q_0]; rfl
theorem share_1 (c : Dev nD) : (dats m 0 c).share 1 = fullShare.right := by unfold Pipeline.Dat.share; rw [q_1]; rfl
theorem share_2 (c : Dev nD) : (dats m 0 c).share 2 = fullShare := by unfold Pipeline.Dat.share; rw [q_2]; rfl
theorem share_3 (c : Dev nD) : (dats m 0 c).share 3 = fullShare := by unfold Pipeline.Dat.share; rw [q_3]; rfl
theorem share_4 (c : Dev nD) : (dats m 0 c).share 4 = fullShare := rfl

/-- At entry the four buffers, whole, make the windows' arrays: the point array split between its two windows. -/
theorem entry_split (c : Dev nD) :
    (Pipeline.arrBufs spec0 c (fun b => V0 m c (Proc.devRef .tc b)) : sProp 𝕄) ⊢ (dats m 0 c).arrays ((dats m 0 c).arrAt · 0) :=
  (arrays_iff_arrBufs (dats m 0 c) (share_0 m c) (share_1 m c) (share_2 m c) (share_3 m c) (share_4 m c)
    (fun w => (dats m 0 c).arrAt w 0) (fun b => V0 m c (Proc.devRef .tc b))
    (A_eq m c 0) (A_eq m c 1) (A_eq m c 2) (A_eq m c 3) (A_eq m c 4)).2

/-- At exit the windows' arrays ARE the four buffers, whole, at the exit contents: the point array's halves joined. -/
theorem exit_join (c : Dev nD) :
    ((dats m 0 c).arrays ((dats m 0 c).arrAt · cfg0.N) : sProp 𝕄) ⊣⊢ Pipeline.arrBufs spec0 c (fun b => V1 m c (Proc.devRef .tc b)) :=
  arrays_iff_arrBufs (dats m 0 c) (share_0 m c) (share_1 m c) (share_2 m c) (share_3 m c) (share_4 m c)
    (fun w => (dats m 0 c).arrAt w cfg0.N) (fun b => V1 m c (Proc.devRef .tc b))
    (V1_arr m c 0).symm (V1_arr m c 1).symm (V1_arr m c 2).symm (V1_arr m c 3).symm (V1_arr m c 4).symm

/-! ## Buffers no host operation after the region writes -/

section Kept
variable (W : Valuation τ sig (Elt F))

theorem tail_arg0 : StableHlo.after (tailOps (F := F)).flatten W (Proc.devRef .tc main_arg0) = W (Proc.devRef .tc main_arg0) := by
  simp only [tailOps, hostOps1, hostOps1_1, hostOps1_2, List.flatten_cons, List.flatten_nil, List.append_nil, List.cons_append, List.nil_append]
  after_results
theorem tail_arg1 : StableHlo.after (tailOps (F := F)).flatten W (Proc.devRef .tc main_arg1) = W (Proc.devRef .tc main_arg1) := by
  simp only [tailOps, hostOps1, hostOps1_1, hostOps1_2, List.flatten_cons, List.flatten_nil, List.append_nil, List.cons_append, List.nil_append]
  after_results
theorem tail_arg2 : StableHlo.after (tailOps (F := F)).flatten W (Proc.devRef .tc main_arg2) = W (Proc.devRef .tc main_arg2) := by
  simp only [tailOps, hostOps1, hostOps1_1, hostOps1_2, List.flatten_cons, List.flatten_nil, List.append_nil, List.cons_append, List.nil_append]
  after_results
theorem tail_arg3 : StableHlo.after (tailOps (F := F)).flatten W (Proc.devRef .tc main_arg3) = W (Proc.devRef .tc main_arg3) := by
  simp only [tailOps, hostOps1, hostOps1_1, hostOps1_2, List.flatten_cons, List.flatten_nil, List.append_nil, List.cons_append, List.nil_append]
  after_results
theorem tail_arg4 : StableHlo.after (tailOps (F := F)).flatten W (Proc.devRef .tc main_arg4) = W (Proc.devRef .tc main_arg4) := by
  simp only [tailOps, hostOps1, hostOps1_1, hostOps1_2, List.flatten_cons, List.flatten_nil, List.append_nil, List.cons_append, List.nil_append]
  after_results
theorem tail_v11 : StableHlo.after (tailOps (F := F)).flatten W (Proc.devRef .tc main_v11) = W (Proc.devRef .tc main_v11) := by
  simp only [tailOps, hostOps1, hostOps1_1, hostOps1_2, List.flatten_cons, List.flatten_nil, List.append_nil, List.cons_append, List.nil_append]
  after_results
theorem tail_v12 : StableHlo.after (tailOps (F := F)).flatten W (Proc.devRef .tc main_v12) = W (Proc.devRef .tc main_v12) := by
  simp only [tailOps, hostOps1, hostOps1_1, hostOps1_2, List.flatten_cons, List.flatten_nil, List.append_nil, List.cons_append, List.nil_append]
  after_results

end Kept

/-- The host operations after the region leave every window's array as the region left it. -/
theorem tail_keeps (c : Dev nD) : ∀ w : Fin cfg0.W,
    StableHlo.after (tailOps (F := F)).flatten (V1 m c) (Proc.devRef .tc (Pipeline.arrRef spec0 w)) = V1 m c (Proc.devRef .tc (Pipeline.arrRef spec0 w))
  | ⟨0, _⟩ => tail_arg2 (V1 m c)
  | ⟨1, _⟩ => tail_arg2 (V1 m c)
  | ⟨2, _⟩ => tail_arg3 (V1 m c)
  | ⟨3, _⟩ => tail_v11 (V1 m c)
  | ⟨4, _⟩ => tail_v12 (V1 m c)
  | ⟨_ + 5, h⟩ => absurd h (Nat.not_lt.2 (Nat.le_add_left _ _))

/-! ## The run -/

set_option backward.isDefEq.respectTransparency.types false in
/-- Every weakly fair execution of @main terminates, and every unscoped buffer ends at what the host operations after
    the region compute from the contents the region leaves. -/
theorem run_main : θ_run defs (onTc (τ := τ) (main (F := F))) (s₀ m ρ) (fun r => ∀ c : Dev nD, ∀ b : Ref sig .tc, b.isScoped = false →
      r.2.mem ((c.tc : Thread nD τ).loc b) = StableHlo.after (tailOps (F := F)).flatten (V1 m c) (Proc.devRef .tc b)) :=
  Cert.Lib.SharedLaunch.θ_run_around_track_shared cfgs (dats m) (0 : Fin 1) defs₀ Variants.none cellOf_inj winFacts₀0 block_pos0 arr_whole0 stage_whole0
    m ρ main (fun c => (body_obligation m c).loose) (fun _ _ => rfl) (V0 m) (V1 m) tailOps tail_sub tail_fresh (tail_keeps m)
    (hmain m Variants.none) (entry_split m) (exit_join m) (V1_rest m) (V1_arr m) (hin m) (hout m)

/-! ## The arguments end unchanged -/

section Pre
variable (M : Valuation τ sig (Elt F))
theorem pre_arg0 : StableHlo.after (List.flatten [hostOps0 (F := F)]) M (Proc.devRef .tc main_arg0) = M (Proc.devRef .tc main_arg0) := by
  simp only [hostOps0, List.flatten_cons, List.flatten_nil, List.append_nil, List.cons_append, List.nil_append]
  after_results
theorem pre_arg1 : StableHlo.after (List.flatten [hostOps0 (F := F)]) M (Proc.devRef .tc main_arg1) = M (Proc.devRef .tc main_arg1) := by
  simp only [hostOps0, List.flatten_cons, List.flatten_nil, List.append_nil, List.cons_append, List.nil_append]
  after_results
theorem pre_arg2 : StableHlo.after (List.flatten [hostOps0 (F := F)]) M (Proc.devRef .tc main_arg2) = M (Proc.devRef .tc main_arg2) := by
  simp only [hostOps0, List.flatten_cons, List.flatten_nil, List.append_nil, List.cons_append, List.nil_append]
  after_results
theorem pre_arg3 : StableHlo.after (List.flatten [hostOps0 (F := F)]) M (Proc.devRef .tc main_arg3) = M (Proc.devRef .tc main_arg3) := by
  simp only [hostOps0, List.flatten_cons, List.flatten_nil, List.append_nil, List.cons_append, List.nil_append]
  after_results
theorem pre_arg4 : StableHlo.after (List.flatten [hostOps0 (F := F)]) M (Proc.devRef .tc main_arg4) = M (Proc.devRef .tc main_arg4) := by
  simp only [hostOps0, List.flatten_cons, List.flatten_nil, List.append_nil, List.cons_append, List.nil_append]
  after_results
end Pre

/-- THE FRAME: @main runs to the end without a fault and its five argument arrays end as they began — no host
    operation writes one, and the region writes only its output array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 rfl).trans ((tail_arg0 (V1 m c)).trans ((V1_of_ne m c main_arg0 (by decide)).trans (pre_arg0 (fun b => m (c, b))))),
     (h c main_arg1 rfl).trans ((tail_arg1 (V1 m c)).trans ((V1_of_ne m c main_arg1 (by decide)).trans (pre_arg1 (fun b => m (c, b))))),
     (h c main_arg2 rfl).trans ((tail_arg2 (V1 m c)).trans ((V1_of_ne m c main_arg2 (by decide)).trans (pre_arg2 (fun b => m (c, b))))),
     (h c main_arg3 rfl).trans ((tail_arg3 (V1 m c)).trans ((V1_of_ne m c main_arg3 (by decide)).trans (pre_arg3 (fun b => m (c, b))))),
     (h c main_arg4 rfl).trans ((tail_arg4 (V1 m c)).trans ((V1_of_ne m c main_arg4 (by decide)).trans (pre_arg4 (fun b => m (c, b)))))⟩)
    (run_main m ρ)

end Cert.Kernel.Hand

end
-- ==== Proof.KI.Setup.lean ====
import proofs.«107422_j42563125903952_1_alg».proof.Proof.Gen.KernelIdeal.Launch
import proofs.«107422_j42563125903952_1_alg».proof.Proof.Gen.KernelIdeal.Skeleton
import proofs.«107422_j42563125903952_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region's entry contents and the windows' blocks -/

/-- buffer contents when the region is entered: after the 15 host operations before it -/
abbrev V0 (c : Dev nD) : Valuation τ sig (Elt F) := StableHlo.after (List.flatten [hostOps0]) (fun b => m (c, b))
/-- the same contents read at one TensorCore reference -/
abbrev V (c : Dev nD) (b : Ref sig .tc) : Buf (Elt F) ((c : Thread nD τ).loc b) := V0 m c (Proc.devRef .tc b)

/-- The block of window `w` that grid point `t` works on, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### An input's staging buffer holds its block at every point

The four inputs are never idle and their blocks tile their arrays, so whenever the body is called the current staging
buffer of an input holds the block of the point: a point that does not fetch (windows 0 and 3 are fetched once per
batch row, at `j = 0`) has the same block index as the point before it. This holds for any proof data whose array is
the entry contents and whose body leaves the block where it found it. -/

theorem held0_of {c : Dev nD} (dat : Dat τ (Elt F) Unit ℕ (UR sig nD τ) ℕ cfg0 c) (hA : dat.A 0 = V m c (Pipeline.arrRef spec0 0))
    (hkept : ∀ t, dat.after 0 t = iblk m c 0 t) (t : Fin cfg0.N) (d) : dat.before 0 t d = iblk m c 0 t :=
  (dat.before_in_eq_fetched 0 rfl (fun _ => rfl) (fun _ _ _ => rfl)
      (fun t => by rw [hkept]; unfold Dat.blockOf iblk; rw [hA]; try rfl) t d).trans
    (by unfold Dat.fetched Dat.blockOf iblk; rw [hA]; try rfl)

theorem held1_of {c : Dev nD} (dat : Dat τ (Elt F) Unit ℕ (UR sig nD τ) ℕ cfg0 c) (hA : dat.A 1 = V m c (Pipeline.arrRef spec0 1))
    (hkept : ∀ t, dat.after 1 t = iblk m c 1 t) (t : Fin cfg0.N) (d) : dat.before 1 t d = iblk m c 1 t :=
  (dat.before_in_eq_fetched 1 rfl (fun _ => rfl) (fun _ _ _ => rfl)
      (fun t => by rw [hkept]; unfold Dat.blockOf iblk; rw [hA]; try rfl) t d).trans
    (by unfold Dat.fetched Dat.blockOf iblk; rw [hA]; try rfl)

theorem held2_of {c : Dev nD} (dat : Dat τ (Elt F) Unit ℕ (UR sig nD τ) ℕ cfg0 c) (hA : dat.A 2 = V m c (Pipeline.arrRef spec0 2))
    (hkept : ∀ t, dat.after 2 t = iblk m c 2 t) (t : Fin cfg0.N) (d) : dat.before 2 t d = iblk m c 2 t :=
  (dat.before_in_eq_fetched 2 rfl (fun _ => rfl) (fun _ _ _ => rfl)
      (fun t => by rw [hkept]; unfold Dat.blockOf iblk; rw [hA]; try rfl) t d).trans
    (by unfold Dat.fetched Dat.blockOf iblk; rw [hA]; try rfl)

theorem held3_of {c : Dev nD} (dat : Dat τ (Elt F) Unit ℕ (UR sig nD τ) ℕ cfg0 c) (hA : dat.A 3 = V m c (Pipeline.arrRef spec0 3))
    (hkept : ∀ t, dat.after 3 t = iblk m c 3 t) (t : Fin cfg0.N) (d) : dat.before 3 t d = iblk m c 3 t :=
  (dat.before_in_eq_fetched 3 rfl (fun _ => rfl) (fun _ _ _ => rfl)
      (fun t => by rw [hkept]; unfold Dat.blockOf iblk; rw [hA]; try rfl) t d).trans
    (by unfold Dat.fetched Dat.blockOf iblk; rw [hA]; try rfl)

/-! ## The two conditions of the body, as functions of the grid point

The grid is `4 × 4`: point `t` has batch row `t / 4` and key tile `j = t % 4`. The body tests `j = 0` (reset the running
maxima) and `j = 3` (emit the distances). -/

/-- `j = 0`, spelt as the body computes it from the coordinates. -/
abbrev firstTile (i : grid0.Coords) : Prop :=
  (Scalar.cmpi .ne (Scalar.extui (Scalar.cmpi .eq (BitVec.ofNat 32 (i 1).val) 0#32)) 0#32) = 1#1
/-- It holds exactly at the points `≡ 0 (mod 4)`: checked at each of the 16 points. -/
theorem firstTile_iff : ∀ t : Fin cfg0.N, firstTile (grid0.coords t) ↔ t.val % 4 = 0 :=
  (by decide +kernel : ∀ t : Fin grid0.N, firstTile (grid0.coords t) ↔ t.val % 4 = 0)

/-- `j = 3`, the last key tile, spelt as the body computes it. -/
abbrev lastTile (i : grid0.Coords) : Prop := k0_cond2 i = 1#1
/-- It holds exactly at the points `≡ 3 (mod 4)`. -/
theorem lastTile_iff : ∀ t : Fin cfg0.N, lastTile (grid0.coords t) ↔ t.val % 4 = 3 :=
  (by decide +kernel : ∀ t : Fin grid0.N, lastTile (grid0.coords t) ↔ t.val % 4 = 3)

/-! ## Where a window is idle -/

/-- Input 0 is read at every point. -/
theorem live0 : ∀ t : Fin cfg0.N, cfg0.idle 0 (grid0.coords t) = false := by decide +kernel
/-- Input 1 is read at every point. -/
theorem live1 : ∀ t : Fin cfg0.N, cfg0.idle 1 (grid0.coords t) = false := by decide +kernel
/-- Input 2 is read at every point. -/
theorem live2 : ∀ t : Fin cfg0.N, cfg0.idle 2 (grid0.coords t) = false := by decide +kernel
/-- Input 3 is read at every point. -/
theorem live3 : ∀ t : Fin cfg0.N, cfg0.idle 3 (grid0.coords t) = false := by decide +kernel
/-- Away from the last key tile nothing is stored into the distances' buffer: the window is idle there, -/
theorem dist_idle : ∀ t : Fin cfg0.N, ¬lastTile (grid0.coords t) → cfg0.idle 4 (grid0.coords t) = true := by decide +kernel
/-- and its block is not written back there. -/
theorem dist_unflushed : ∀ t : Fin cfg0.N, ¬lastTile (grid0.coords t) → (cfg0.win 4).flush t = false := by decide +kernel
/-- At the last key tile the window is live: the body stores the whole block. -/
theorem dist_live : ∀ t : Fin cfg0.N, lastTile (grid0.coords t) → cfg0.idle 4 (grid0.coords t) = false := by decide +kernel

/-! ## The memrefs the body is called with at a point -/

/-- window 0's current staging memref at point `t`, and that it is a whole buffer -/
abbrev stg0 (t : Fin cfg0.N) : Memref sig .tc .vmem S1x3x2048 .f32 := win0_0.stage (cfg0.slots t 0)
abbrev stg0_whole (t : Fin cfg0.N) : (stg0 t).IsWhole := hstage0_0 ((cfg0.slots t 0).cast nbuf0_0)
/-- window 1's current staging memref at point `t`, and that it is a whole buffer -/
abbrev stg1 (t : Fin cfg0.N) : Memref sig .tc .vmem S1x3x512 .f32 := win0_1.stage (cfg0.slots t 1)
abbrev stg1_whole (t : Fin cfg0.N) : (stg1 t).IsWhole := hstage0_1 ((cfg0.slots t 1).cast nbuf0_1)
/-- window 2's current staging memref at point `t`, and that it is a whole buffer -/
abbrev stg2 (t : Fin cfg0.N) : Memref sig .tc .vmem S1x16x512 .f32 := win0_2.stage (cfg0.slots t 2)
abbrev stg2_whole (t : Fin cfg0.N) : (stg2 t).IsWhole := hstage0_2 ((cfg0.slots t 2).cast nbuf0_2)
/-- window 3's current staging memref at point `t`, and that it is a whole buffer -/
abbrev stg3 (t : Fin cfg0.N) : Memref sig .tc .vmem S1x1x16 .f32 := win0_3.stage (cfg0.slots t 3)
abbrev stg3_whole (t : Fin cfg0.N) : (stg3 t).IsWhole := hstage0_3 ((cfg0.slots t 3).cast nbuf0_3)
/-- window 4's current staging memref at point `t`, and that it is a whole buffer -/
abbrev stg4 (t : Fin cfg0.N) : Memref sig .tc .vmem S1x1x2048 .f32 := win0_4.stage (cfg0.slots t 4)
abbrev stg4_whole (t : Fin cfg0.N) : (stg4 t).IsWhole := hstage0_4 ((cfg0.slots t 4).cast nbuf0_4)
/-- The running maxima: a `16 × 2048` buffer of the kernel's own (row `g` for label group `g`), not staged by the
    pipeline and kept from one grid point to the next. -/
abbrev accM : Memref sig .tc .vmem S16x2048 .f32 := Memref.whole cc0_scratch0
/-- the view through which its contents are stated -/
abbrev accV : View sig .tc .vmem S16x2048 .f32 := accM.view
/-- A view of the distances' block shape, through which the contents of window 4's staging buffer are stated (both
    staging buffers read the same through their whole views). -/
abbrev distV : View sig .tc .vmem S1x1x2048 .f32 := (Memref.whole cc0_stg4_0 : Memref sig .tc .vmem S1x1x2048 .f32).view

/-- What the launch hands the region besides the windows: the running-maxima buffer, whole, at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunReset.lean ====
import proofs.«107422_j42563125903952_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT THE FIRST KEY TILE (`j = 0`: the reset condition holds, the emit condition does not). On whole memrefs —
    the four inputs at contents `xP xJ xL xA`, the distances' buffer at any contents `xD`, the running maxima at ANY
    contents — the body runs to a continuation that gets the inputs and the distances' buffer back as they were and the
    running maxima with one whole store of `-∞` and then 16 row stores written: row `g` becomes the maximum of `-∞` and
    the row maxima of the pairwise squared distances masked by label row `g` of this tile, so nothing of the contents
    found is left. The stores are the witness the symbolic run finds (the second component; the first, the stores into
    the distances' buffer, is empty). -/
noncomputable def runReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) :
    Σ' (LD : List (View.Piece (Elt F) S1x1x2048 .f32)), { LA : List (View.Piece (Elt F) S16x2048 .f32) //
      ∀ (xD : Vec F S1x1x2048 .f32) (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ d, owns (c : Thread nD τ) acc fullShare d)
            ∗ (iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨[], ?_, fun xD E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%fD, %hfD, HD⟩, ⟨%dAcc, %fAcc, -, HAcc⟩, Hk⟩
    obtain rfl := hpts.eq_unread hfP; obtain rfl := hptsJ.eq_unread hfJ; obtain rfl := hlab.eq_unread hfL
    obtain rfl := hact.eq_unread hfA; obtain rfl := hdist.eq_unread hfD
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]
    · iexists _; isplitr; · ipureintro; exact hdist.read_unread _
      iexact HD
    iexists _; iexact HAcc

end Cert.KernelIdeal.Hand

end
-- ==== Proof.KI.RunFold.lean ====
import proofs.«107422_j42563125903952_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT A MIDDLE KEY TILE (`j = 1, 2`: neither condition holds). On whole memrefs — the four inputs at contents
    `xP xJ xL xA`, the distances' buffer at any contents `xD`, the running maxima at the contents `xAcc` the point before
    left — the body runs to a continuation that gets the inputs and the distances' buffer back as they were and the running
    maxima with 16 row stores written: row `g` becomes the maximum of its old value and the row maxima of the pairwise
    squared distances masked by label row `g` of this tile. The stores are the witness the symbolic run finds (the second
    component; the first, the stores into the distances' buffer, is empty). -/
noncomputable def runFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) :
    Σ' (LD : List (View.Piece (Elt F) S1x1x2048 .f32)), { LA : List (View.Piece (Elt F) S16x2048 .f32) //
      ∀ (xD : Vec F S1x1x2048 .f32) (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ owns (c : Thread nD τ) acc fullShare xAcc
            ∗ (iprop(owns (c : Thread nD τ) pts fullShare xP ∗ owns (c : Thread nD τ) ptsJ fullShare xJ ∗ owns (c : Thread nD τ) lab fullShare xL ∗ owns (c : Thread nD τ) act fullShare xA ∗ owns (c : Thread nD τ) dist fullShare xD ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨[], ?_, fun xD E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%fD, %hfD, HD⟩, ⟨%fAcc, %hfAcc, HAcc⟩, Hk⟩
    obtain rfl := hpts.eq_unread hfP; obtain rfl := hptsJ.eq_unread hfJ; obtain rfl := hlab.eq_unread hfL
    obtain rfl := hact.eq_unread hfA; obtain rfl := hdist.eq_unread hfD; obtain rfl := hacc.eq_unread hfAcc
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]
    · iexists _; isplitr; · ipureintro; exact hdist.read_unread _
      iexact HD
    iexists _; iexact HAcc

end Cert.KernelIdeal.Hand

end
-- ==== Proof.KI.RunEmit.lean ====
import proofs.«107422_j42563125903952_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- THE BODY AT THE LAST KEY TILE (`j = 3`: the emit condition holds, the reset condition does not). On whole memrefs —
    the four inputs at contents `xP xJ xL xA`, the distances' buffer at ANY contents, the running maxima at the contents
    `xAcc` the point before left — the body runs to a continuation that gets the inputs back as they were, the running
    maxima with 16 row stores written (as at a middle tile) and the distances' buffer with ONE store of its whole block
    written: for each of the 2048 points the minimum over the 16 label groups of
    `(running maximum + 1e-4) / (active + 1e-8)`, read from the 16 rows just stored. Both lists of stores are the
    witnesses the symbolic run finds. -/
noncomputable def runEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) :
    Σ' (LD : List (View.Piece (Elt F) S1x1x2048 .f32)), { LA : List (View.Piece (Elt F) S16x2048 .f32) //
      ∀ (E : Set ℕ) (K : PUnit → sProp 𝕄),
        iprop(owns (c : Thread nD τ) pts fullShare xP ∗ owns (c : Thread nD τ) ptsJ fullShare xJ ∗ owns (c : Thread nD τ) lab fullShare xL ∗ owns (c : Thread nD τ) act fullShare xA ∗ (∃ d, owns (c : Thread nD τ) dist fullShare d) ∗ owns (c : Thread nD τ) acc fullShare xAcc
            ∗ (iprop(owns (c : Thread nD τ) pts fullShare xP ∗ owns (c : Thread nD τ) ptsJ fullShare xJ ∗ owns (c : Thread nD τ) lab fullShare xL ∗ owns (c : Thread nD τ) act fullShare xA ∗ (∃ f, dist.view.loc (c : Thread nD τ) ↦[dist.view.set]{fullShare} dist.view.writes (Elt F) f LD) ∗ (∃ f, acc.view.loc (c : Thread nD τ) ↦[acc.view.set]{fullShare} acc.view.writes (Elt F) f LA)) -∗ K ⟨⟩))
          ⊢ wp frame (wpE (defs₀ (F := F)) Variants.none c none) E (cc0__dist_kernel i pts hpts ptsJ hptsJ lab hlab act hact dist hdist acc hacc) K } := by
  refine ⟨?_, ?_, fun E K => ?run⟩
  case run =>
    simp only [cc0__dist_kernel_eq_skeleton]; unfold cc0__dist_kernel_skel
    unfold owns
    iintro ⟨⟨%fP, %hfP, HP⟩, ⟨%fJ, %hfJ, HJ⟩, ⟨%fL, %hfL, HL⟩, ⟨%fA, %hfA, HA⟩, ⟨%dD, %fD, -, HD⟩, ⟨%fAcc, %hfAcc, HAcc⟩, Hk⟩
    obtain rfl := hpts.eq_unread hfP; obtain rfl := hptsJ.eq_unread hfJ; obtain rfl := hlab.eq_unread hfL
    obtain rfl := hact.eq_unread hfA; obtain rfl := hacc.eq_unread hfAcc
    sl_exec (disch := first | exact hFirst | exact hLast)
    sl_step
    iapply Hk
    isplitl [HP]
    · iexists _; isplitr; · ipureintro; exact hpts.read_unread _
      iexact HP
    isplitl [HJ]
    · iexists _; isplitr; · ipureintro; exact hptsJ.read_unread _
      iexact HJ
    isplitl [HL]
    · iexists _; isplitr; · ipureintro; exact hlab.read_unread _
      iexact HL
    isplitl [HA]
    · iexists _; isplitr; · ipureintro; exact hact.read_unread _
      iexact HA
    isplitl [HD]; · iexists _; iexact HD
    iexists _; iexact HAcc

end Cert.KernelIdeal.Hand

end
-- ==== Proof.KI.Carried.lean ====
import proofs.«107422_j42563125903952_1_alg».proof.Proof.KI.RunReset
import proofs.«107422_j42563125903952_1_alg».proof.Proof.KI.RunFold
import proofs.«107422_j42563125903952_1_alg».proof.Proof.KI.RunEmit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the two buffers it may write

The running maxima are a `16 × 2048` buffer; every case ends with 16 stores of one row each (rows 0 … 15 in order), which
tile it, so what the buffer holds afterwards is those stores read back and does not depend on what it held before. The
distances' buffer is stored only at the last key tile, whole. -/

/-- The first key tile stores nothing into the distances' buffer; its empty list of stores read back is a value nothing
    consults (at these points the window is neither written back nor read at the next point). -/
def distReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) : Vec F S1x1x2048 .f32 :=
  distV.read (Elt F) (distV.writes (Elt F) distV.junk (runReset c i pts hpts ptsJ hptsJ lab hlab act hact dist hdist acc hacc hFirst hLast xP xJ xL xA).1)

/-- The 16 row stores of the first key tile (after its whole store of `-∞`) tile the running maxima: every index lies in one of them. -/
theorem accReset_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) (y : S16x2048.Idx) :
    ∃ pc ∈ (runReset c i pts hpts ptsJ hptsJ lab hlab act hact dist hdist acc hacc hFirst hLast xP xJ xL xA).2.1, y ∈ pc.1.set :=
  View.cover_of_tiledL (runReset c i pts hpts ptsJ hptsJ lab hlab act hact dist hdist acc hacc hFirst hLast xP xJ xL xA).2.1 S1x2048.size (by sl_kernel_rfl) y

/-- THE RUNNING MAXIMA after the first key tile: row `g` is `max(-∞, row maxima of this tile's masked distances)` — its stores read back. -/
def accReset (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : firstTile i) (hLast : ¬lastTile i)
    (xP : Vec F S1x3x2048 .f32) (xJ : Vec F S1x3x512 .f32) (xL : Vec F S1x16x512 .f32) (xA : Vec F S1x1x16 .f32) : Vec F S16x2048 .f32 :=
  accV.read (Elt F) (accV.writes (Elt F) accV.junk (runReset c i pts hpts ptsJ hptsJ lab hlab act hact dist hdist acc hacc hFirst hLast xP xJ xL xA).2.1)

/-- A middle key tile stores nothing into the distances' buffer; its empty list of stores read back is a value nothing
    consults (at these points the window is neither written back nor read at the next point). -/
def distFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) : Vec F S1x1x2048 .f32 :=
  distV.read (Elt F) (distV.writes (Elt F) distV.junk (runFold c i pts hpts ptsJ hptsJ lab hlab act hact dist hdist acc hacc hFirst hLast xP xJ xL xA xAcc).1)

/-- The 16 row stores of a middle key tile tile the running maxima: every index lies in one of them. -/
theorem accFold_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) (y : S16x2048.Idx) :
    ∃ pc ∈ (runFold c i pts hpts ptsJ hptsJ lab hlab act hact dist hdist acc hacc hFirst hLast xP xJ xL xA xAcc).2.1, y ∈ pc.1.set :=
  View.cover_of_tiledL (runFold c i pts hpts ptsJ hptsJ lab hlab act hact dist hdist acc hacc hFirst hLast xP xJ xL xA xAcc).2.1 S1x2048.size (by sl_kernel_rfl) y

/-- THE RUNNING MAXIMA after a middle key tile: row `g` is `max(xAcc row g, row maxima of this tile's masked distances)` — its stores read back. -/
def accFold (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : ¬lastTile i)
    (xP : Vec F S1x3x2048 .f32) (xJ : Vec F S1x3x512 .f32) (xL : Vec F S1x16x512 .f32) (xA : Vec F S1x1x16 .f32) (xAcc : Vec F S16x2048 .f32) : Vec F S16x2048 .f32 :=
  accV.read (Elt F) (accV.writes (Elt F) accV.junk (runFold c i pts hpts ptsJ hptsJ lab hlab act hact dist hdist acc hacc hFirst hLast xP xJ xL xA xAcc).2.1)

/-- At the last key tile the one store into the distances' buffer is of its whole block: it covers it. -/
theorem distEmit_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) (y : S1x1x2048.Idx) :
    ∃ pc ∈ (runEmit c i pts hpts ptsJ hptsJ lab hlab act hact dist hdist acc hacc hFirst hLast xP xJ xL xA xAcc).1, y ∈ pc.1.set :=
  View.cover_of_tiledL (runEmit c i pts hpts ptsJ hptsJ lab hlab act hact dist hdist acc hacc hFirst hLast xP xJ xL xA xAcc).1 S1x1x2048.size (by sl_kernel_rfl) y

/-- THE DISTANCES of a batch row, as the last key tile leaves them in the staging buffer: its store read back. -/
def distEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) : Vec F S1x1x2048 .f32 :=
  distV.read (Elt F) (distV.writes (Elt F) distV.junk (runEmit c i pts hpts ptsJ hptsJ lab hlab act hact dist hdist acc hacc hFirst hLast xP xJ xL xA xAcc).1)

/-- The 16 row stores of the last key tile tile the running maxima: every index lies in one of them. -/
theorem accEmit_cover (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) (y : S16x2048.Idx) :
    ∃ pc ∈ (runEmit c i pts hpts ptsJ hptsJ lab hlab act hact dist hdist acc hacc hFirst hLast xP xJ xL xA xAcc).2.1, y ∈ pc.1.set :=
  View.cover_of_tiledL (runEmit c i pts hpts ptsJ hptsJ lab hlab act hact dist hdist acc hacc hFirst hLast xP xJ xL xA xAcc).2.1 S1x2048.size (by sl_kernel_rfl) y

/-- THE RUNNING MAXIMA after the last key tile: updated as at a middle tile — its stores read back. -/
def accEmit (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬firstTile i) (hLast : lastTile i)
    (xP : Vec F S1x3x2048 .f32) (xJ : Vec F S1x3x512 .f32) (xL : Vec F S1x16x512 .f32) (xA : Vec F S1x1x16 .f32) (xAcc : Vec F S16x2048 .f32) : Vec F S16x2048 .f32 :=
  accV.read (Elt F) (accV.writes (Elt F) accV.junk (runEmit c i pts hpts ptsJ hptsJ lab hlab act hact dist hdist acc hacc hFirst hLast xP xJ xL xA xAcc).2.1)

/-! ## The two buffers after each grid point

Within a batch row the running maxima are reset at `j = 0` and folded over the four key tiles; the distances are emitted
at `j = 3`. Point by point: -/

/-- what point `t` leaves (distances' buffer, running maxima) when it is a first key tile -/
def leftReset (c : Dev nD) (t : Fin cfg0.N) (h0 : t.val % 4 = 0) : Vec F S1x1x2048 .f32 × Vec F S16x2048 .f32 :=
  (distReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t), accReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t))

/-- what point `t` leaves when it is a middle key tile and the point before left `xAcc` in the running maxima -/
def leftFold (c : Dev nD) (t : Fin cfg0.N) (h0 : ¬t.val % 4 = 0) (h3 : ¬t.val % 4 = 3) (xAcc : Vec F S16x2048 .f32) : Vec F S1x1x2048 .f32 × Vec F S16x2048 .f32 :=
  (distFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) xAcc, accFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) xAcc)

/-- what point `t` leaves when it is a last key tile and the point before left `xAcc` in the running maxima -/
def leftEmit (c : Dev nD) (t : Fin cfg0.N) (h3 : t.val % 4 = 3) (xAcc : Vec F S16x2048 .f32) : Vec F S1x1x2048 .f32 × Vec F S16x2048 .f32 :=
  (distEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) xAcc, accEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) xAcc)

/-- THE RECURSION OVER THE GRID. What the distances' staging buffer and the running maxima hold after the body at point
    `n`: at `n ≡ 0 (mod 4)` what the reset case leaves, whatever came before; otherwise the fold (or, at `n ≡ 3`, the
    emit) case run on what point `n - 1` left in the running maxima. -/
def carried (c : Dev nD) : (n : ℕ) → n < cfg0.N → Vec F S1x1x2048 .f32 × Vec F S16x2048 .f32
  | 0, hn => leftReset m c ⟨0, hn⟩ (Nat.zero_mod 4)
  | n + 1, hn =>
    if h0 : (n + 1) % 4 = 0 then leftReset m c ⟨n + 1, hn⟩ h0
    else if h3 : (n + 1) % 4 = 3 then leftEmit m c ⟨n + 1, hn⟩ h3 (carried c n (Nat.lt_of_succ_lt hn)).2
    else leftFold m c ⟨n + 1, hn⟩ h0 h3 (carried c n (Nat.lt_of_succ_lt hn)).2

/-- the recursion at a first key tile -/
theorem carried_reset (c : Dev nD) (t : Fin cfg0.N) (h0 : t.val % 4 = 0) : carried m c t.val t.isLt = leftReset m c t h0 := by
  obtain ⟨n, hn⟩ := t
  cases n with
  | zero => rfl
  | succ n => exact dif_pos h0

/-- the recursion at a middle key tile: the fold of what the point before left -/
theorem carried_fold (c : Dev nD) (t : Fin cfg0.N) (h0 : ¬t.val % 4 = 0) (h3 : ¬t.val % 4 = 3) :
    carried m c t.val t.isLt = leftFold m c t h0 h3 (carried m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

/-- the recursion at a last key tile: the emit case on what the point before left -/
theorem carried_emit (c : Dev nD) (t : Fin cfg0.N) (h3 : t.val % 4 = 3) :
    carried m c t.val t.isLt = leftEmit m c t h3 (carried m c (t.val - 1) (Nat.lt_of_le_of_lt (Nat.sub_le _ _) t.isLt)).2 := by
  obtain ⟨n, hn⟩ := t
  cases n with
  | zero => exact absurd (show (0 : ℕ) % 4 = 3 from h3) (by decide)
  | succ n =>
    have h0 : ¬(n + 1) % 4 = 0 := by have h3' : (n + 1) % 4 = 3 := h3; omega
    exact (dif_neg h0).trans ((dif_pos h3).trans rfl)

/-- The running maxima after a first key tile, -/
theorem carried_reset_acc (c : Dev nD) (t : Fin cfg0.N) (h0 : t.val % 4 = 0) :
    (carried m c t.val t.isLt).2 = accReset c (grid0.coords t) (stg0 t) (stg0_whole t) (stg1 t) (stg1_whole t) (stg2 t) (stg2_whole t) (stg3 t) (stg3_whole t) (stg4 t) (stg4_whole t) accM (Memref.isWhole_whole _) ((firstTile_iff t).mpr h0) (fun h => by have := (lastTile_iff t).mp h; omega) (iblk m c 0 t) (iblk m c 1 t) (iblk m c 2 t) (iblk m c 3 t) := by
  rw [carried_reset m c t h0]; unfold leftReset; (try dsimp only); first | done | rfl
/-- after a middle key tile, -/
theorem carried_fold_acc (c : Dev nD) (t : Fin cfg0.N) (h0 : ¬t.val % 4 = 0) (h3 : ¬t.val % 4 = 3) :
    (carried m c t.val t.isLt).2 = accFold c (grid0.coords t) (stg0 t) (stg0_whole t) (stg1 t) (stg1_whole t) (stg2 t) (stg2_whole t) (stg3 t) (stg3_whole t) (stg4 t) (stg4_whole t) accM (Memref.isWhole_whole _) (fun h => h0 ((firstTile_iff t).mp h)) (fun h => h3 ((lastTile_iff t).mp h)) (iblk m c 0 t) (iblk m c 1 t) (iblk m c 2 t) (iblk m c 3 t) (carried m c (t.val - 1) (Nat.lt_of_le_of_lt (Nat.sub_le _ _) t.isLt)).2 := by
  rw [carried_fold m c t h0 h3]; unfold leftFold; (try dsimp only); first | done | rfl
/-- after a last key tile, -/
theorem carried_emit_acc (c : Dev nD) (t : Fin cfg0.N) (h3 : t.val % 4 = 3) :
    (carried m c t.val t.isLt).2 = accEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) (carried m c (t.val - 1) (Nat.lt_of_le_of_lt (Nat.sub_le _ _) t.isLt)).2 := by
  rw [carried_emit m c t h3]; unfold leftEmit; (try dsimp only); first | done | rfl
/-- and the distances a last key tile emits. -/
theorem carried_emit_dist (c : Dev nD) (t : Fin cfg0.N) (h3 : t.val % 4 = 3) :
    (carried m c t.val t.isLt).1 = distEmit c (grid0.coords t) (stg0 t) (stg0_whole t) (stg1 t) (stg1_whole t) (stg2 t) (stg2_whole t) (stg3 t) (stg3_whole t) (stg4 t) (stg4_whole t) accM (Memref.isWhole_whole _) (fun h => by have := (firstTile_iff t).mp h; omega) ((lastTile_iff t).mpr h3) (iblk m c 0 t) (iblk m c 1 t) (iblk m c 2 t) (iblk m c 3 t) (carried m c (t.val - 1) (Nat.lt_of_le_of_lt (Nat.sub_le _ _) t.isLt)).2 := by
  rw [carried_emit m c t h3]; unfold leftEmit; (try dsimp only); first | done | rfl

end Cert.KernelIdeal.Hand

end
-- ==== Proof.KI.Body.lean ====
import proofs.«107422_j42563125903952_1_alg».proof.Proof.KI.Carried

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant between points -/

/-- What the region holds besides the windows before point `n`: before the first point what the launch hands over (the
    running maxima at anything); afterwards the running maxima at what point `n - 1` left, and the generator register at
    some state. -/
def Inv (c : Dev nD) : (n : ℕ) → n ≤ cfg0.N → sProp 𝕄
  | 0, _ => Pipeline.ΦA spec0 c
  | n + 1, hn => iprop(iprop(owns (c : Thread nD τ) accM fullShare ((carried m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare ((carried m c n hn).2)) ∗ (∃ r, prngReg c r)) := rfl

theorem Inv_pos (c : Dev nD) (n : ℕ) (h : n ≤ cfg0.N) (hz : n ≠ 0) :
    Inv m c n h = iprop(iprop(owns (c : Thread nD τ) accM fullShare ((carried m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer still at its block and the distances' buffer at the recursion's first component; between points the
    invariant above; nothing owed. Windows 0 and 1 read one array (the points), each through half of it; the other
    windows hold their arrays outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (carried m c t.val t.isLt).1
  Φ t := Inv m c t.val (Nat.le_of_lt_succ t.isLt)
  q := fun
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

/-- the invariant at a point's start, at the point's number -/
theorem Inv_castSucc (c : Dev nD) (t : Fin cfg0.N) :
    (dats m 0 c).Φ t.castSucc = Inv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_dist (c : Dev nD) (t : Fin cfg0.N) : (dats m 0 c).after 4 t = (carried m c t.val t.isLt).1 := by dsimp only [dats]

/-- input 0's current staging buffer holds the point's block -/
theorem held0 (c : Dev nD) (t : Fin cfg0.N) (d) : (dats m 0 c).before 0 t d = iblk m c 0 t :=
  held0_of m (dats m 0 c) (A_eq m c 0) (after_in0 m c) t d
/-- input 1's current staging buffer holds the point's block -/
theorem held1 (c : Dev nD) (t : Fin cfg0.N) (d) : (dats m 0 c).before 1 t d = iblk m c 1 t :=
  held1_of m (dats m 0 c) (A_eq m c 1) (after_in1 m c) t d
/-- input 2's current staging buffer holds the point's block -/
theorem held2 (c : Dev nD) (t : Fin cfg0.N) (d) : (dats m 0 c).before 2 t d = iblk m c 2 t :=
  held2_of m (dats m 0 c) (A_eq m c 2) (after_in2 m c) t d
/-- input 3's current staging buffer holds the point's block -/
theorem held3 (c : Dev nD) (t : Fin cfg0.N) (d) : (dats m 0 c).before 3 t d = iblk m c 3 t :=
  held3_of m (dats m 0 c) (A_eq m c 3) (after_in3 m c) t d

/-- input 0 is handed back holding its block -/
theorem leaves_in0 (c : Dev nD) (t : Fin cfg0.N) :
    (dats m 0 c).leavesExact 0 t = owns (c : Thread nD τ) (stg0 t) fullShare (iblk m c 0 t) := by
  unfold Dat.leavesExact; rw [live0 t]; (try dsimp only); rw [after_in0]
/-- input 1 is handed back holding its block -/
theorem leaves_in1 (c : Dev nD) (t : Fin cfg0.N) :
    (dats m 0 c).leavesExact 1 t = owns (c : Thread nD τ) (stg1 t) fullShare (iblk m c 1 t) := by
  unfold Dat.leavesExact; rw [live1 t]; (try dsimp only); rw [after_in1]
/-- input 2 is handed back holding its block -/
theorem leaves_in2 (c : Dev nD) (t : Fin cfg0.N) :
    (dats m 0 c).leavesExact 2 t = owns (c : Thread nD τ) (stg2 t) fullShare (iblk m c 2 t) := by
  unfold Dat.leavesExact; rw [live2 t]; (try dsimp only); rw [after_in2]
/-- input 3 is handed back holding its block -/
theorem leaves_in3 (c : Dev nD) (t : Fin cfg0.N) :
    (dats m 0 c).leavesExact 3 t = owns (c : Thread nD τ) (stg3 t) fullShare (iblk m c 3 t) := by
  unfold Dat.leavesExact; rw [live3 t]; (try dsimp only); rw [after_in3]

/-! ## The body obligation at a generic point -/

/-- what the body is called with at point `t`: the invariant, nothing owed, and the five windows' current staging
    buffers at what the pipeline left in them -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it must return -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- THE BODY AT ANY POINT. The inputs' buffers hold their blocks; `t % 4` says which of the three cases the point is in.
    At a first key tile the running maxima may hold anything (they are overwritten before being read for a value), so
    the invariant's buffer is passed as it is, named or not; at the other tiles the invariant names what the point
    before left, which is what the fold starts from. Each case's row stores tile the running maxima, so afterwards
    the buffer holds the recursion's second component; at the last key tile the whole-block store gives the distances'
    buffer the recursion's first component, elsewhere that buffer comes back untouched (idle, not written back). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3]
  rw [show (dats m 0 c).owesAt () t.succ = (dats m 0 c).owesAt () t.castSucc from rfl]
  rw [show (dats m 0 c).Φ t.succ = Inv m c (t.val + 1) t.isLt from rfl, Inv_succ]
  rw [leaves_in0, leaves_in1, leaves_in2, leaves_in3]
  have hN : t.val < 16 := lt_of_lt_of_eq t.isLt (show cfg0.N = 16 from N_0)
  by_cases h0 : t.val % 4 = 0
  · -- a first key tile
    have hF : firstTile (grid0.coords t) := (firstTile_iff t).mpr h0
    have hL : ¬lastTile (grid0.coords t) := fun h => by have := (lastTile_iff t).mp h; omega
    rw [Dat.leavesExact_idle (dats m 0 c) 4 t (dist_idle t hL) (dist_unflushed t hL)]
    rw [carried_reset_acc m c t h0]
    unfold accReset
    by_cases hz : t.val = 0
    · rw [Inv_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hF hL (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accReset_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hF hL (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accReset_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hF : ¬firstTile (grid0.coords t) := fun h => h0 ((firstTile_iff t).mp h)
    by_cases h3 : t.val % 4 = 3
    · -- a last key tile
      have hL : lastTile (grid0.coords t) := (lastTile_iff t).mpr h3
      rw [show (dats m 0 c).leavesExact 4 t = owns (c : Thread nD τ) (stg4 t) fullShare ((dats m 0 c).after 4 t) from by
        unfold Dat.leavesExact; rw [dist_live t hL], after_dist]
      rw [carried_emit_acc m c t h3, carried_emit_dist m c t h3]
      unfold accEmit distEmit
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runEmit c (grid0.coords t) _ _ _ _ _ _ _ _ _ _ _ _ hF hL (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accEmit_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (distEmit_cover c _ _ _ _ _ _ _ _ _ _ _ _ _ _ _ _ _ _ _ _)
    · -- a middle key tile
      have hL : ¬lastTile (grid0.coords t) := fun h => h3 ((lastTile_iff t).mp h)
      rw [Dat.leavesExact_idle (dats m 0 c) 4 t (dist_idle t hL) (dist_unflushed t hL)]
      rw [carried_fold_acc m c t h0 h3]
      unfold accFold
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩⟩
      iapply ((runFold c (grid0.coords t) _ _ _ _ _ _ _ _ _ _ _ _ hF hL (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accFold_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives back what the launch handed over: the name of the running maxima's contents is
    forgotten. -/
theorem Inv_forget (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA_eq]
  iintro ⟨HS, Hg⟩
  isplitl [HS]
  · iexists _; iexact HS
  iexact Hg

/-- in particular after the last point -/
theorem hout (c : Dev nD) : (dats m 0 c).Φ (Fin.last cfg0.N) ⊢ Pipeline.ΦA spec0 c :=
  Inv_forget m c _ (by rw [Fin.val_last]; have : cfg0.N = 16 := N_0; omega)

end Cert.KernelIdeal.Hand

end
-- ==== Proof.KI.Shares.lean ====
/-
  The five windows of the distance kernel stand on FOUR arrays: the whole-row window and the
  column-tile window both read the point array. At the region's entry the point array's buffer,
  held whole at the full share, is split into a left and a right half, one per window; when the
  region ends the halves — both still at the entry contents, an input being never written — are
  joined again. The other three arrays (labels, active flags, the output) are each held by one
  window at the full share.
-/
import proofs.«107422_j42563125903952_1_alg».proof.Proof.KI.Setup
import proofs.«107422_j42563125903952_1_alg».proof.Proof.LibSharedLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct arrays behind the windows: points, labels, active flags, the output. -/
theorem arrRefs_eq : Finset.univ.image (Pipeline.arrRef spec0)
    = ([main_arg2, main_arg3, main_v11, main_v12] : List (Ref sig .tc)).toFinset := by decide

/-- Those four buffers, each whole at the full share, one by one. -/
theorem arrBufs_chain (c : Dev nD) (W : (b : Ref sig .tc) → Buf (Elt F) ((c : Thread nD τ).loc b)) :
    (Pipeline.arrBufs spec0 c W : sProp 𝕄)
      = iprop((((c : Thread nD τ).loc main_arg2) ↦{fullShare} W main_arg2) ∗ (((c : Thread nD τ).loc main_arg3) ↦{fullShare} W main_arg3)
          ∗ (((c : Thread nD τ).loc main_v11) ↦{fullShare} W main_v11) ∗ (((c : Thread nD τ).loc main_v12) ↦{fullShare} W main_v12)) := by
  unfold Pipeline.arrBufs
  exact bigSep_eq_bigSepL_of_eq [main_arg2, main_arg3, main_v11, main_v12] arrRefs_eq (by decide) _

variable {c : Dev nD} (dat : Dat τ (Elt F) Unit ℕ (UR sig nD τ) ℕ cfg0 c)

/-- The windows' arrays of a proof datum, window by window, each whole at the window's share. -/
theorem arrays_chain (G : (w : Fin cfg0.W) → Buf (Elt F) ((cfg0.win w).arr.view.loc (c : Thread nD τ))) :
    (dat.arrays G : sProp 𝕄)
      = iprop((((c : Thread nD τ).loc main_arg2) ↦{dat.share 0} G 0) ∗ (((c : Thread nD τ).loc main_arg2) ↦{dat.share 1} G 1)
          ∗ (((c : Thread nD τ).loc main_arg3) ↦{dat.share 2} G 2) ∗ (((c : Thread nD τ).loc main_v11) ↦{dat.share 3} G 3)
          ∗ (((c : Thread nD τ).loc main_v12) ↦{dat.share 4} G 4)) := by
  unfold Pipeline.Dat.arrays
  rw [bigSep_W0, (arr_whole0 0).set_eq_univ, (arr_whole0 2).set_eq_univ, (arr_whole0 3).set_eq_univ, (arr_whole0 4).set_eq_univ]

/-- The proof datum's arrays at contents `G` ARE the four buffers whole at the full share at contents `W`, when the
    two windows on the point array hold its left and right halves, the other windows hold their arrays outright,
    and `G` is `W` window by window: the point array's halves join to the full share, and split back. -/
theorem arrays_iff_arrBufs (hs0 : dat.share 0 = fullShare.left) (hs1 : dat.share 1 = fullShare.right)
    (hs2 : dat.share 2 = fullShare) (hs3 : dat.share 3 = fullShare) (hs4 : dat.share 4 = fullShare)
    (G : (w : Fin cfg0.W) → Buf (Elt F) ((cfg0.win w).arr.view.loc (c : Thread nD τ)))
    (W : (b : Ref sig .tc) → Buf (Elt F) ((c : Thread nD τ).loc b))
    (h0 : G 0 = W main_arg2) (h1 : G 1 = W main_arg2) (h2 : G 2 = W main_arg3) (h3 : G 3 = W main_v11) (h4 : G 4 = W main_v12) :
    (dat.arrays G : sProp 𝕄) ⊣⊢ Pipeline.arrBufs spec0 c W := by
  rw [arrays_chain, arrBufs_chain, hs0, hs1, hs2, hs3, hs4, h0, h1, h2, h3, h4]
  have hsh : ((((c : Thread nD τ).loc main_arg2) ↦{fullShare} W main_arg2) : sProp 𝕄)
      ⊣⊢ iprop((((c : Thread nD τ).loc main_arg2) ↦{fullShare.left} W main_arg2) ∗ (((c : Thread nD τ).loc main_arg2) ↦{fullShare.right} W main_arg2)) :=
    pointsTo_share (PosShare.mem_left_op_right fullShare)
  have hsplit := hsh.1
  have hjoin := hsh.2
  constructor
  · iintro ⟨Hl, Hr, HR⟩
    isplitl [Hl Hr]
    · iapply hjoin
      isplitl [Hl]; · iexact Hl
      iexact Hr
    iexact HR
  · iintro ⟨H, HR⟩
    ihave H' := hsplit $$ H
    icases H' with ⟨Hl, Hr⟩
    isplitl [Hl]; · iexact Hl
    isplitl [Hr]; · iexact Hr
    iexact HR

end Cert.KernelIdeal.Hand

end
-- ==== Proof.KI.Run.lean ====
/-
  The run of the idealized distance program, assembled: the fifteen host operations before the
  region compute the windows' arrays; the region runs the kernel over its sixteen grid points, its
  body obligation discharged point by point; the host operations after the region read the output
  array. The launch is the one for windows that share an input array: the point array's buffer is
  split between the row window and the column-tile window at entry and joined at exit.

  The post says what EVERY unscoped buffer holds at the end: the host operations after the region
  applied to the contents the region leaves — the entry contents with the output array replaced by
  what the write-backs made of it.
-/
import proofs.«107422_j42563125903952_1_alg».proof.Proof.KI.Body
import proofs.«107422_j42563125903952_1_alg».proof.Proof.KI.Shares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The three stretches of host operations after the region (the middle one is the log-softmax). -/
abbrev tailOps : List (List (HloOp τ sig (Elt F))) := [hostOps1, hostOps1_1, hostOps1_2]

/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the region leaves -/

/-- The buffers' contents when the region ends: the entry contents, the output array at what the write-backs made of it. -/
def V1 (c : Dev nD) : Valuation τ sig (Elt F) :=
  Function.update (V0 m c) (Proc.devRef .tc main_v12) ((dats m 0 c).arrAt 4 cfg0.N)

theorem V1_out (c : Dev nD) : V1 m c (Proc.devRef .tc main_v12) = (dats m 0 c).arrAt 4 cfg0.N := Function.update_self ..

theorem V1_of_ne (c : Dev nD) (b : Ref sig .tc) (hb : b ≠ main_v12) : V1 m c (Proc.devRef .tc b) = V0 m c (Proc.devRef .tc b) :=
  Function.update_of_ne (fun e => hb (Proc.devRef_injective _ e)) _ _

/-- Every window's array at the end: an input as the region found it, the output as written back. -/
theorem V1_arr (c : Dev nD) : ∀ w : Fin cfg0.W, V1 m c (Proc.devRef .tc (Pipeline.arrRef spec0 w)) = (dats m 0 c).arrAt w cfg0.N
  | ⟨0, _⟩ => (V1_of_ne m c main_arg2 (by decide)).trans (((dats m 0 c).arrAt_in 0 rfl _).trans (A_eq m c 0)).symm
  | ⟨1, _⟩ => (V1_of_ne m c main_arg2 (by decide)).trans (((dats m 0 c).arrAt_in 1 rfl _).trans (A_eq m c 1)).symm
  | ⟨2, _⟩ => (V1_of_ne m c main_arg3 (by decide)).trans (((dats m 0 c).arrAt_in 2 rfl _).trans (A_eq m c 2)).symm
  | ⟨3, _⟩ => (V1_of_ne m c main_v11 (by decide)).trans (((dats m 0 c).arrAt_in 3 rfl _).trans (A_eq m c 3)).symm
  | ⟨4, _⟩ => V1_out m c
  | ⟨_ + 5, h⟩ => absurd h (Nat.not_lt.2 (Nat.le_add_left _ _))

theorem V1_rest (c : Dev nD) (b : Ref sig .tc) (hb : b ∈ Pipeline.restRefs sig spec0) : V1 m c (Proc.devRef .tc b) = V0 m c (Proc.devRef .tc b) :=
  V1_of_ne m c b fun e => (Finset.mem_sdiff.mp hb).2 (Finset.mem_image.mpr ⟨4, Finset.mem_univ _, e.symm⟩)

/-! ## The shares -/

theorem share_0 (c : Dev nD) : (dats m 0 c).share 0 = fullShare.left := by unfold Pipeline.Dat.share; rw [q_0]; rfl
theorem share_1 (c : Dev nD) : (dats m 0 c).share 1 = fullShare.right := by unfold Pipeline.Dat.share; rw [q_1]; rfl
theorem share_2 (c : Dev nD) : (dats m 0 c).share 2 = fullShare := by unfold Pipeline.Dat.share; rw [q_2]; rfl
theorem share_3 (c : Dev nD) : (dats m 0 c).share 3 = fullShare := by unfold Pipeline.Dat.share; rw [q_3]; rfl
theorem share_4 (c : Dev nD) : (dats m 0 c).share 4 = fullShare := rfl

/-- At entry the four buffers, whole, make the windows' arrays: the point array split between its two windows. -/
theorem entry_split (c : Dev nD) :
    (Pipeline.arrBufs spec0 c (fun b => V0 m c (Proc.devRef .tc b)) : sProp 𝕄) ⊢ (dats m 0 c).arrays ((dats m 0 c).arrAt · 0) :=
  (arrays_iff_arrBufs (dats m 0 c) (share_0 m c) (share_1 m c) (share_2 m c) (share_3 m c) (share_4 m c)
    (fun w => (dats m 0 c).arrAt w 0) (fun b => V0 m c (Proc.devRef .tc b))
    (A_eq m c 0) (A_eq m c 1) (A_eq m c 2) (A_eq m c 3) (A_eq m c 4)).2

/-- At exit the windows' arrays ARE the four buffers, whole, at the exit contents: the point array's halves joined. -/
theorem exit_join (c : Dev nD) :
    ((dats m 0 c).arrays ((dats m 0 c).arrAt · cfg0.N) : sProp 𝕄) ⊣⊢ Pipeline.arrBufs spec0 c (fun b => V1 m c (Proc.devRef .tc b)) :=
  arrays_iff_arrBufs (dats m 0 c) (share_0 m c) (share_1 m c) (share_2 m c) (share_3 m c) (share_4 m c)
    (fun w => (dats m 0 c).arrAt w cfg0.N) (fun b => V1 m c (Proc.devRef .tc b))
    (V1_arr m c 0).symm (V1_arr m c 1).symm (V1_arr m c 2).symm (V1_arr m c 3).symm (V1_arr m c 4).symm

/-! ## Buffers no host operation after the region writes -/

section Kept
variable (W : Valuation τ sig (Elt F))

theorem tail_arg0 : StableHlo.after (tailOps (F := F)).flatten W (Proc.devRef .tc main_arg0) = W (Proc.devRef .tc main_arg0) := by
  simp only [tailOps, hostOps1, hostOps1_1, hostOps1_2, List.flatten_cons, List.flatten_nil, List.append_nil, List.cons_append, List.nil_append]
  after_results
theorem tail_arg1 : StableHlo.after (tailOps (F := F)).flatten W (Proc.devRef .tc main_arg1) = W (Proc.devRef .tc main_arg1) := by
  simp only [tailOps, hostOps1, hostOps1_1, hostOps1_2, List.flatten_cons, List.flatten_nil, List.append_nil, List.cons_append, List.nil_append]
  after_results
theorem tail_arg2 : StableHlo.after (tailOps (F := F)).flatten W (Proc.devRef .tc main_arg2) = W (Proc.devRef .tc main_arg2) := by
  simp only [tailOps, hostOps1, hostOps1_1, hostOps1_2, List.flatten_cons, List.flatten_nil, List.append_nil, List.cons_append, List.nil_append]
  after_results
theorem tail_arg3 : StableHlo.after (tailOps (F := F)).flatten W (Proc.devRef .tc main_arg3) = W (Proc.devRef .tc main_arg3) := by
  simp only [tailOps, hostOps1, hostOps1_1, hostOps1_2, List.flatten_cons, List.flatten_nil, List.append_nil, List.cons_append, List.nil_append]
  after_results
theorem tail_arg4 : StableHlo.after (tailOps (F := F)).flatten W (Proc.devRef .tc main_arg4) = W (Proc.devRef .tc main_arg4) := by
  simp only [tailOps, hostOps1, hostOps1_1, hostOps1_2, List.flatten_cons, List.flatten_nil, List.append_nil, List.cons_append, List.nil_append]
  after_results
theorem tail_v11 : StableHlo.after (tailOps (F := F)).flatten W (Proc.devRef .tc main_v11) = W (Proc.devRef .tc main_v11) := by
  simp only [tailOps, hostOps1, hostOps1_1, hostOps1_2, List.flatten_cons, List.flatten_nil, List.append_nil, List.cons_append, List.nil_append]
  after_results
theorem tail_v12 : StableHlo.after (tailOps (F := F)).flatten W (Proc.devRef .tc main_v12) = W (Proc.devRef .tc main_v12) := by
  simp only [tailOps, hostOps1, hostOps1_1, hostOps1_2, List.flatten_cons, List.flatten_nil, List.append_nil, List.cons_append, List.nil_append]
  after_results

end Kept

/-- The host operations after the region leave every window's array as the region left it. -/
theorem tail_keeps (c : Dev nD) : ∀ w : Fin cfg0.W,
    StableHlo.after (tailOps (F := F)).flatten (V1 m c) (Proc.devRef .tc (Pipeline.arrRef spec0 w)) = V1 m c (Proc.devRef .tc (Pipeline.arrRef spec0 w))
  | ⟨0, _⟩ => tail_arg2 (V1 m c)
  | ⟨1, _⟩ => tail_arg2 (V1 m c)
  | ⟨2, _⟩ => tail_arg3 (V1 m c)
  | ⟨3, _⟩ => tail_v11 (V1 m c)
  | ⟨4, _⟩ => tail_v12 (V1 m c)
  | ⟨_ + 5, h⟩ => absurd h (Nat.not_lt.2 (Nat.le_add_left _ _))

/-! ## The run -/

set_option backward.isDefEq.respectTransparency.types false in
/-- Every weakly fair execution of @main terminates, and every unscoped buffer ends at what the host operations after
    the region compute from the contents the region leaves. -/
theorem run_main : θ_run defs (onTc (τ := τ) (main (F := F))) (s₀ m ρ) (fun r => ∀ c : Dev nD, ∀ b : Ref sig .tc, b.isScoped = false →
      r.2.mem ((c.tc : Thread nD τ).loc b) = StableHlo.after (tailOps (F := F)).flatten (V1 m c) (Proc.devRef .tc b)) :=
  Cert.Lib.SharedLaunch.θ_run_around_track_shared cfgs (dats m) (0 : Fin 1) defs₀ Variants.none cellOf_inj winFacts₀0 block_pos0 arr_whole0 stage_whole0
    m ρ main (fun c => (body_obligation m c).loose) (fun _ _ => rfl) (V0 m) (V1 m) tailOps tail_sub tail_fresh (tail_keeps m)
    (hmain m Variants.none) (entry_split m) (exit_join m) (V1_rest m) (V1_arr m) (hin m) (hout m)

/-! ## The arguments end unchanged -/

section Pre
variable (M : Valuation τ sig (Elt F))
theorem pre_arg0 : StableHlo.after (List.flatten [hostOps0 (F := F)]) M (Proc.devRef .tc main_arg0) = M (Proc.devRef .tc main_arg0) := by
  simp only [hostOps0, List.flatten_cons, List.flatten_nil, List.append_nil, List.cons_append, List.nil_append]
  after_results
theorem pre_arg1 : StableHlo.after (List.flatten [hostOps0 (F := F)]) M (Proc.devRef .tc main_arg1) = M (Proc.devRef .tc main_arg1) := by
  simp only [hostOps0, List.flatten_cons, List.flatten_nil, List.append_nil, List.cons_append, List.nil_append]
  after_results
theorem pre_arg2 : StableHlo.after (List.flatten [hostOps0 (F := F)]) M (Proc.devRef .tc main_arg2) = M (Proc.devRef .tc main_arg2) := by
  simp only [hostOps0, List.flatten_cons, List.flatten_nil, List.append_nil, List.cons_append, List.nil_append]
  after_results
theorem pre_arg3 : StableHlo.after (List.flatten [hostOps0 (F := F)]) M (Proc.devRef .tc main_arg3) = M (Proc.devRef .tc main_arg3) := by
  simp only [hostOps0, List.flatten_cons, List.flatten_nil, List.append_nil, List.cons_append, List.nil_append]
  after_results
theorem pre_arg4 : StableHlo.after (List.flatten [hostOps0 (F := F)]) M (Proc.devRef .tc main_arg4) = M (Proc.devRef .tc main_arg4) := by
  simp only [hostOps0, List.flatten_cons, List.flatten_nil, List.append_nil, List.cons_append, List.nil_append]
  after_results
end Pre

/-- THE FRAME: @main runs to the end without a fault and its five argument arrays end as they began — no host
    operation writes one, and the region writes only its output array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 rfl).trans ((tail_arg0 (V1 m c)).trans ((V1_of_ne m c main_arg0 (by decide)).trans (pre_arg0 (fun b => m (c, b))))),
     (h c main_arg1 rfl).trans ((tail_arg1 (V1 m c)).trans ((V1_of_ne m c main_arg1 (by decide)).trans (pre_arg1 (fun b => m (c, b))))),
     (h c main_arg2 rfl).trans ((tail_arg2 (V1 m c)).trans ((V1_of_ne m c main_arg2 (by decide)).trans (pre_arg2 (fun b => m (c, b))))),
     (h c main_arg3 rfl).trans ((tail_arg3 (V1 m c)).trans ((V1_of_ne m c main_arg3 (by decide)).trans (pre_arg3 (fun b => m (c, b))))),
     (h c main_arg4 rfl).trans ((tail_arg4 (V1 m c)).trans ((V1_of_ne m c main_arg4 (by decide)).trans (pre_arg4 (fun b => m (c, b)))))⟩)
    (run_main m ρ)

end Cert.KernelIdeal.Hand

end
-- ==== Proof.Ref.Stage.lean ====
/-
  The reference's computation cut at its distance stage.

  The reference first computes, from the points and the label masks alone, a distance per batch and point; everything
  after that stage is a function of the argument arrays and of that one array of distances. Here the stage and the
  remainder are named: `refDist` is the stage, `refActive` a mask's activity flag read at coordinates, and `refTail` the
  three results as one function of four argument arrays and the distances. Only the second result reads the distances
  (it averages the squared difference between the predicted radius and the distance, weighted by the largest unviewed
  label); the other two are functions of the arguments only.
-/
import proofs.«107422_j42563125903952_1_alg».proof.Proof.Ref.GenRun
import proofs.«107422_j42563125903952_1_alg».proof.Proof.Ref.GenRead

noncomputable section

namespace Cert.ReferenceIdeal.RefValue

open Cert.ReferenceIdeal Cert.ReferenceIdeal.Gen Cert.ReferenceIdeal.ReadP Idealize.ShloMosaic Idealize.ShloMosaic.ValueIdx

/-- The distance stage as one function of the points and label arrays. -/
def refDist (p : FVec Ideal S4x3x2048 .f32) (l : FVec Ideal S4x16x2048 .f32) : FVec Ideal S4x2048 .f32 :=
  val_main_v35 (F := Ideal) p l

/-- A mask's activity flag (one when the mask's labels sum to a positive number, else zero), at batch `b` and mask `g`. -/
def refActive (l : FVec Ideal S4x16x2048 .f32) : Fin 4 → Fin 16 → EReal :=
  fun b g => val_main_v28 (F := Ideal) l (ix3 b g (0 : Fin 1))

/-- The three results as one function of the mask-output, global-output, label and viewed arrays and of the distances:
    the proposal loss, the radius loss (the only one that reads the distances), the confidence loss. -/
def refTail (a0 : FVec Ideal S4x2x2048 .f32) (a1 : FVec Ideal S4x1 .f32) (a3 : FVec Ideal S4x16x2048 .f32)
    (a4 : FVec Ideal S4x1x2048 .f32) (dist : FVec Ideal S4x2048 .f32) :
    FVec Ideal S_ .f32 × FVec Ideal S_ .f32 × FVec Ideal S_ .f32 :=
  (val_main_v70 (F := Ideal) a0 a3 a4,
   Host.divf (F := Ideal)
     (Host.reduceAdd (F := Ideal)
       (mulf (mulf (subf (val_main_v3 (F := Ideal) a0) dist) (subf (val_main_v3 (F := Ideal) a0) dist))
         (val_main_v40 (F := Ideal) a3 a4))
       (val_main_cst_19 (F := Ideal)) reducesTo_S4x2048_S_d0_1 h_S_)
     (val_main_cst_20 (F := Ideal)),
   val_main_v68 (F := Ideal) a1 a3 a4)

/-- The radius loss as the reference's stages compose it is the tail at the distance stage. -/
theorem radius_eq (a0 : FVec Ideal S4x2x2048 .f32) (a1 : FVec Ideal S4x1 .f32) (a2 : FVec Ideal S4x3x2048 .f32)
    (a3 : FVec Ideal S4x16x2048 .f32) (a4 : FVec Ideal S4x1x2048 .f32) :
    val_main_v72 (F := Ideal) a0 a2 a3 a4 = (refTail a0 a1 a3 a4 (refDist a2 a3)).2.1 := by
  unfold refTail refDist val_main_v72 val_main_v71 val_main_v43 val_main_v42 val_main_v41
  rfl

end Cert.ReferenceIdeal.RefValue

end
-- ==== Proof.KI.Tail.lean ====
/-
  The host operations after the region, read at the three result buffers.

  After the region the program reshapes the output array to [4,2048] and applies the same loss
  arithmetic the reference applies to its own distance stage: the proposal loss and the confidence
  loss do not read the distances at all, and the radius loss reads them once. Each result buffer,
  opened operation by operation, is the reference's tail function at the argument arrays and at the
  reshaped output array.
-/
import proofs.«107422_j42563125903952_1_alg».proof.Proof.KI.Run
import proofs.«107422_j42563125903952_1_alg».proof.Proof.Ref.Stage

set_option maxRecDepth 65536
set_option maxHeartbeats 4000000

noncomputable section

namespace Cert.KernelIdeal.HandValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The output array reshaped to [4,2048], as the first host operation after the region reads it. -/
abbrev outDist : FVec Ideal S4x2048 .f32 :=
  shapeCast S4x2048 ((Hand.dats (F := Ideal) m 0 c).arrAt 4 cfg0.N) shapeCasts_S4x1x2048_S4x2048

/-- The radius loss: the reference's tail at the reshaped output array — the mean over the batch of the squared
    difference between the predicted radius and the distance, weighted by the largest unviewed label. -/
theorem tail_v50 :
    StableHlo.after (Hand.tailOps (F := Ideal)).flatten (Hand.V1 m c) (Proc.devRef .tc main_v50)
      = (Cert.ReferenceIdeal.RefValue.refTail (m ((c.tc : Thread nD τ).loc main_arg0)) (m ((c.tc : Thread nD τ).loc main_arg1))
          (m ((c.tc : Thread nD τ).loc main_arg3)) (m ((c.tc : Thread nD τ).loc main_arg4)) (outDist m c)).2.1 := by
  simp only [Hand.tailOps, hostOps1, hostOps1_1, hostOps1_2, List.flatten_cons, List.flatten_nil, List.append_nil, List.cons_append, List.nil_append]
  after_results
  rw [Hand.V1_of_ne m c main_v3 (by decide), Hand.V1_of_ne m c main_arg3 (by decide), Hand.V1_of_ne m c main_v6 (by decide), Hand.V1_out m c]
  simp only [Hand.V0, hostOps0, List.flatten_cons, List.flatten_nil, List.append_nil, List.cons_append, List.nil_append]
  after_results
  rfl

end Cert.KernelIdeal.HandValue

end
-- ==== Proof.KI.TailPlain.lean ====
/-
  The kernel program's host operations after its region, for the two results that do not read the distances.

  After the region the program computes, on the host, the same three averages as the reference. The proposal loss and
  the confidence loss are functions of the mask-output, global-output, label and viewed arrays only: composing the
  host operations after the region over the buffers the region leaves, and the host operations before the region over
  the argument arrays, gives term for term the reference's composition of the same operations.
-/
import proofs.«107422_j42563125903952_1_alg».proof.Proof.KI.Run
import proofs.«107422_j42563125903952_1_alg».proof.Proof.Ref.Stage
import Idealize.ShloMosaic.PureOps.Ideal

noncomputable section

namespace Cert.KernelIdeal.HandValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

set_option maxRecDepth 65536 in
set_option maxHeartbeats 8000000 in
/-- The confidence loss: the host operations after the region, over what the region leaves, give the reference's
    third result of the argument arrays, whatever the distances. -/
theorem tail_v46 (dist : FVec Ideal S4x2048 .f32) :
    StableHlo.after (Hand.tailOps (F := Ideal)).flatten (Hand.V1 m c) (Proc.devRef .tc main_v46)
      = (Cert.ReferenceIdeal.RefValue.refTail (m ((c.tc : Thread nD τ).loc main_arg0)) (m ((c.tc : Thread nD τ).loc main_arg1)) (m ((c.tc : Thread nD τ).loc main_arg3)) (m ((c.tc : Thread nD τ).loc main_arg4)) dist).2.2 := by
  simp only [Hand.tailOps, hostOps1, hostOps1_1, hostOps1_2, List.flatten_cons, List.flatten_nil, List.append_nil, List.cons_append, List.nil_append]
  after_results_simp
  rw [Hand.V1_of_ne m c main_arg1 (by decide), Hand.V1_of_ne m c main_arg3 (by decide), Hand.V1_of_ne m c main_v6 (by decide)]
  simp only [Hand.V0, hostOps0, List.flatten_cons, List.flatten_nil, List.append_nil, List.cons_append, List.nil_append]
  after_results_simp
  rfl

set_option maxRecDepth 65536 in
set_option maxHeartbeats 16000000 in
/-- The proposal loss: the host operations after the region, over what the region leaves, give the reference's first
    result of the argument arrays, whatever the distances. -/
theorem tail_v48 (dist : FVec Ideal S4x2048 .f32) :
    StableHlo.after (Hand.tailOps (F := Ideal)).flatten (Hand.V1 m c) (Proc.devRef .tc main_v48)
      = (Cert.ReferenceIdeal.RefValue.refTail (m ((c.tc : Thread nD τ).loc main_arg0)) (m ((c.tc : Thread nD τ).loc main_arg1)) (m ((c.tc : Thread nD τ).loc main_arg3)) (m ((c.tc : Thread nD τ).loc main_arg4)) dist).1 := by
  simp only [Hand.tailOps, hostOps1, hostOps1_1, hostOps1_2, List.flatten_cons, List.flatten_nil, List.append_nil, List.cons_append, List.nil_append]
  after_results_simp
  rw [Hand.V1_of_ne m c main_arg3 (by decide), Hand.V1_of_ne m c main_v6 (by decide), Hand.V1_of_ne m c main_v1 (by decide)]
  simp only [Hand.V0, hostOps0, List.flatten_cons, List.flatten_nil, List.append_nil, List.cons_append, List.nil_append]
  after_results_simp
  rfl

end Cert.KernelIdeal.HandValue

end
-- ==== Proof.KI.Active.lean ====
/-
  The activity flags the kernel's region reads. Before the region the host sums each label mask over
  its 2048 points, compares the sum with zero and writes the comparison as a float, in an array of
  shape [4,1,16]. Read at batch b and mask g, that array holds "the mask's labels sum to more than
  zero" as 0 or 1 — the same number the reference computes in its own layout.
-/
import proofs.«107422_j42563125903952_1_alg».proof.Proof.Gen.KernelIdeal.Launch
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen

/-- The host's sum of a [4,16,2048] array over its last axis, from zero, read at (b, g). -/
theorem host_sum_at (X : FVec Ideal S4x16x2048 .f32) (b : Fin 4) (g : Fin 16) :
    Host.reduceAdd (F := Ideal) X (constant (F := Ideal) S_ .f32 0x00000000#32) reducesTo_S4x16x2048_S4x16_d2 h_S_ (ix2 b g)
      = ∑ n : Fin 2048, (X (ix3 b g n) : EReal) := by
  simp only [Host.reduceAdd, Ideal.hostReduceAdd_def]
  rw [Ideal.hostReduceAdd_single reducesTo_S4x16x2048_S4x16_d2 (by decide)]
  have hz : (constant (F := Ideal) S_ .f32 0x00000000#32) (Shape.Idx.first h_S_) = (0 : EReal) := by
    show Ideal.ofBits .f32 0x00000000#32 = 0
    exact Ideal.ofBits_zero_f32
  rw [hz, zero_add]
  exact Finset.sum_congr rfl fun k _ => congrArg X (funext fun a => Fin.ext (by
    match a with | ⟨0, _⟩ => rfl | ⟨1, _⟩ => rfl | ⟨2, _⟩ => rfl))

/-- The zero scalar broadcast to [4,16], read anywhere, is zero. -/
theorem zero_bcast_at (b : Fin 4) (g : Fin 16) :
    broadcastInDim S4x16 ![] bcast_S_S4x16 (constant (F := Ideal) S_ .f32 0x00000000#32) (ix2 b g) = (0 : EReal) := by
  rw [broadcastInDim_apply _ bcast_S_S4x16 _ (ix2 b g) (fun a => a.elim0) (fun a => a.elim0)]
  show Ideal.ofBits .f32 0x00000000#32 = 0
  exact Ideal.ofBits_zero_f32

/-- The [4,1,16] array of activity flags after the host operations before the region, at batch `b` and mask `g`. -/
theorem active_at (M : Valuation τ sig (Elt Ideal)) (b : Fin 4) (g : Fin 16) :
    StableHlo.after (List.flatten [hostOps0 (F := Ideal)]) M (Proc.devRef .tc main_v11) (ix3 b (0 : Fin 1) g)
      = FloatOps.uitofp (F := Ideal) .f32 (FloatOps.cmpf (F := Ideal) (φ := .f32) .ogt
          (∑ n : Fin 2048, (M (Proc.devRef .tc main_arg3) (ix3 b g n) : EReal)) (0 : EReal)) := by
  simp only [hostOps0, List.flatten_cons, List.flatten_nil, List.append_nil, List.cons_append, List.nil_append]
  after_results
  show shapeCast S4x1x16 (uitofp (F := Ideal) .f32 (cmpf (F := Ideal) .ogt
      (Host.reduceAdd (F := Ideal) (M (Proc.devRef .tc main_arg3) : FVec Ideal S4x16x2048 .f32) (constant (F := Ideal) S_ .f32 0x00000000#32) reducesTo_S4x16x2048_S4x16_d2 h_S_)
      (broadcastInDim S4x16 ![] bcast_S_S4x16 (constant (F := Ideal) S_ .f32 0x00000000#32)))) shapeCasts_S4x16_S4x1x16 (ix3 b 0 g) = _
  rw [shapeCast_apply _ shapeCasts_S4x16_S4x1x16 (ix3 b 0 g) (ix2 b g) (by
    rw [Shape.rowMajor_val_two, Shape.rowMajor_val_three]
    show b.val * 16 + g.val = (b.val * 1 + 0) * 16 + g.val
    omega)]
  show FloatOps.uitofp (F := Ideal) .f32 (FloatOps.cmpf (F := Ideal) (φ := .f32) .ogt
      (Host.reduceAdd (F := Ideal) (M (Proc.devRef .tc main_arg3) : FVec Ideal S4x16x2048 .f32) (constant (F := Ideal) S_ .f32 0x00000000#32) reducesTo_S4x16x2048_S4x16_d2 h_S_ (ix2 b g))
      (broadcastInDim S4x16 ![] bcast_S_S4x16 (constant (F := Ideal) S_ .f32 0x00000000#32) (ix2 b g))) = _
  rw [host_sum_at, zero_bcast_at]

end Cert.KernelIdeal.HandValue

end
-- ==== Proof.Spec.lean ====
/-
  The masked farthest-point distance, stated once over plain coordinates on the extended reals.

  For a batch `b` of 2048 points in three coordinates, `d b i j` is the squared distance between points `i` and `j`
  written as |p_i|² + |p_j|² − 2⟨p_i, p_j⟩. For each of sixteen label masks `g` the distance is weighted by the mask's
  value at `j` and maximised over `j` (from −∞); the maximum, shifted by 1e-4 and divided by the mask's activity flag
  shifted by 1e-8, is then minimised over the sixteen masks (from +∞). Float literals stay as their bit patterns: both
  programs carry the same words, so they are never evaluated.
-/
import Idealize.ShloMosaic.PureOps.Ideal
import Idealize.ShloMosaic.PureOps.Ideal.Laws
import Idealize.ShloMosaic.Lib.ValueIdx

noncomputable section

namespace Cert.Spec

open Idealize.ShloMosaic

/-- −∞, the value a maximum starts from. -/
abbrev ninf : EReal := Ideal.ofBits .f32 0xFF800000#32
/-- +∞, the value a minimum starts from. -/
abbrev pinf : EReal := Ideal.ofBits .f32 0x7F800000#32
/-- The literal 2. -/
abbrev two : EReal := Ideal.ofBits .f32 0x40000000#32
/-- The literal nearest 1e-4. -/
abbrev e4 : EReal := Ideal.ofBits .f32 0x38D1B717#32
/-- The literal nearest 1e-8. -/
abbrev e8 : EReal := Ideal.ofBits .f32 0x322BCC77#32

variable (P : Fin 4 → Fin 3 → Fin 2048 → EReal) (L : Fin 4 → Fin 16 → Fin 2048 → EReal) (A : Fin 4 → Fin 16 → EReal)

/-- |p_i|²: the sum over the three coordinates of the squares. -/
def sq (b : Fin 4) (i : Fin 2048) : EReal := ∑ c : Fin 3, P b c i * P b c i

/-- ⟨p_i, p_j⟩: the sum over the three coordinates of the products. -/
def inner (b : Fin 4) (i j : Fin 2048) : EReal := ∑ c : Fin 3, P b c i * P b c j

/-- The squared distance between points `i` and `j` of batch `b`. -/
def d (b : Fin 4) (i j : Fin 2048) : EReal := (sq P b i + sq P b j) - two * inner P b i j

/-- The largest mask-weighted squared distance from point `i`, over all points `j`, for mask `g`. -/
def far (b : Fin 4) (g : Fin 16) (i : Fin 2048) : EReal :=
  (Finset.univ : Finset (Fin 2048)).fold max ninf (fun j => d P b i j * L b g j)

/-- The smallest, over the sixteen masks, of the shifted maximum divided by the shifted activity flag. -/
def dist (b : Fin 4) (i : Fin 2048) : EReal :=
  (Finset.univ : Finset (Fin 16)).fold min pinf (fun g => Ideal.div (far P L b g i + e4) (A b g + e8))

end Cert.Spec

end
-- ==== Proof.KI.ValueArray.lean ====
/-
  From the blocks the emit points write back to the output array.

  The kernel's one output is a 4 × 1 × 2048 array of distances. The pipeline visits the sixteen grid points in order; point
  t works on batch row t / 4 and key tile t % 4, and the output window's block at point t is row t / 4 of the array
  (block index (t / 4, 0, 0), block size 1 × 1 × 2048). The block is written back only at the last key tile of a row, the
  points t ≡ 3 (mod 4). So if what the body leaves in the window's buffer at such a point is row t / 4 of some table G,
  the array ends holding G: each write-back is a block of the one whole-array function (b, 0, i) ↦ G b i, and the four
  write-backs (at the points 3, 7, 11, 15) cover the four rows.
-/
import proofs.«107422_j42563125903952_1_alg».proof.Proof.KI.Body
import proofs.«107422_j42563125903952_1_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The whole array as one function, and where a block sits in it -/

/-- The 4 × 1 × 2048 array whose row b is G b: its entry at (b, 0, i) is G b i. -/
def rowsOf (G : Fin 4 → Fin 2048 → EReal) : S4x1x2048.Idx → EReal := fun idx => G (idx 0) (idx 2)

/-- at an index given by its coordinates -/
theorem rowsOf_ix3 (G : Fin 4 → Fin 2048 → EReal) (b : Fin 4) (z : Fin 1) (i : Fin 2048) : rowsOf G (ix3 b z i) = G b i := rfl

/-- The output window's index map over the sixteen points: point t works on block (t / 4, 0, 0). -/
theorem dist_index : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-! ## What a write-back writes -/

/-- WHAT POINT t WRITES BACK, at a point t ≡ 3 (mod 4), is block t of the array of rows G. The block has one row; its
    entry i sits in the array at (t / 4, 0, i): on each axis the block index times the block size plus the coordinate
    inside the block. -/
theorem flushed_eq (c : Dev nD) (G : Fin 4 → Fin 2048 → EReal)
    (hem : ∀ (t : Fin cfg0.N) (h3 : t.val % 4 = 3) (i : Fin 2048),
      (Hand.carried (F := Ideal) m c t.val t.isLt).1 (ix3 0 0 i) = G ⟨t.val / 4, by have := t.isLt; have : cfg0.N = 16 := N_0; omega⟩ i)
    (t : Fin cfg0.N) (hf : (cfg0.win 4).flush t = true) :
    (Hand.dats (F := Ideal) m 0 c).flushed 4 t = ((cfg0.win 4).blk t).view.read (Elt Ideal) (rowsOf G) := by
  have h3 : t.val % 4 = 3 := (flush0_4 t).mp hf
  show (cfg0.win 4).cut (grid0.coords t) ((Hand.dats (F := Ideal) m 0 c).after 4 t) = _
  rw [Hand.after_dist]
  funext y
  have hy0 : (y 0).val < 1 := (y 0).isLt
  have hy1 : (y 1).val < 1 := (y 1).isLt
  have hy2 : (y 2).val < 2048 := (y 2).isLt
  obtain ⟨e0, e1, e2⟩ := dist_index t
  have hN : t.val < 16 := lt_of_lt_of_eq t.isLt N_0
  have hx : (cfg0.win 4).xinj (grid0.coords t) y = ix3 (0 : Fin 1) (0 : Fin 1) (⟨(y 2).val, hy2⟩ : Fin 2048) := by
    funext a; apply Fin.ext
    match a with
    | ⟨0, _⟩ => show (y 0).val = 0; omega
    | ⟨1, _⟩ => show (y 1).val = 0; omega
    | ⟨2, _⟩ => rfl
  have he : ((cfg0.win 4).blk t).view.emb y = ix3 (⟨t.val / 4, by omega⟩ : Fin 4) (0 : Fin 1) (⟨(y 2).val, hy2⟩ : Fin 2048) := by
    funext a; apply Fin.ext
    match a with
    | ⟨0, _⟩ => show win0_4.index t (0 : Fin 3) * 1 + 1 * (y 0).val = t.val / 4; omega
    | ⟨1, _⟩ => show win0_4.index t (1 : Fin 3) * 1 + 1 * (y 1).val = 0; omega
    | ⟨2, _⟩ => show win0_4.index t (2 : Fin 3) * 2048 + 1 * (y 2).val = (y 2).val; omega
  show (Hand.carried (F := Ideal) m c t.val t.isLt).1 ((cfg0.win 4).xinj (grid0.coords t) y) = rowsOf G (((cfg0.win 4).blk t).view.emb y)
  rw [hx, he, hem t h3, rowsOf_ix3]

/-! ## The four write-backs cover the array -/

/-- An index of the array is in point t's block iff each coordinate is in the block's range on its axis. -/
theorem mem_blk (t : Fin cfg0.N) (i : S4x1x2048.Idx) :
    i ∈ ((cfg0.win 4).blk t).view.set ↔ ∀ a : Fin 3, win0_4.index t a * S1x1x2048.size a ≤ (i a).val
      ∧ (i a).val < win0_4.index t a * S1x1x2048.size a + S1x1x2048.size a := by
  show i ∈ ((View.whole main_v12).slice (win0_4.rect t)).set ↔ _
  rw [View.set_slice_whole, Rect.mem_set_unit]
  exact Iff.rfl

/-- Every index (b, 0, i) lies in the block of a point that writes back: the last key tile of row b, point 4 b + 3. -/
theorem covered (i : S4x1x2048.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 2048 := (i 2).isLt
  have hN : cfg0.N = 16 := N_0
  obtain ⟨t, ht⟩ : ∃ t : Fin cfg0.N, t.val = 4 * (i 0).val + 3 := ⟨⟨4 * (i 0).val + 3, by omega⟩, rfl⟩
  obtain ⟨e0, e1, e2⟩ := dist_index t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 2048 ≤ (i 2).val ∧ (i 2).val < win0_4.index t (2 : Fin 3) * 2048 + 2048; omega

/-! ## The array after the run -/

/-- The output array ends holding the rows G. -/
theorem dist_array (c : Dev nD) (G : Fin 4 → Fin 2048 → EReal)
    (hem : ∀ (t : Fin cfg0.N) (h3 : t.val % 4 = 3) (i : Fin 2048),
      (Hand.carried (F := Ideal) m c t.val t.isLt).1 (ix3 0 0 i) = G ⟨t.val / 4, by have := t.isLt; have : cfg0.N = 16 := N_0; omega⟩ i) :
    (Hand.dats (F := Ideal) m 0 c).arrAt 4 cfg0.N = rowsOf G :=
  (Hand.dats (F := Ideal) m 0 c).arrAt_eq_of_cover 4 (rowsOf G) (fun t hf => flushed_eq m c G hem t hf) covered

/-- the final output array, row by row, from what the emit points leave -/
theorem dist_value_of (m : (ℓ : Loc nD τ sig) → Buf (Elt Ideal) ℓ) (c : Dev nD)
    (G : Fin 4 → Fin 2048 → EReal)
    (hem : ∀ (t : Fin cfg0.N) (h3 : t.val % 4 = 3) (i : Fin 2048),
      (Hand.carried (F := Ideal) m c t.val t.isLt).1 (ValueIdx.ix3 0 0 i) = G ⟨t.val / 4, by have := t.isLt; have : cfg0.N = 16 := N_0; omega⟩ i)
    (b : Fin 4) (i : Fin 2048) :
    (Hand.dats (F := Ideal) m 0 c).arrAt 4 cfg0.N (ValueIdx.ix3 b 0 i) = G b i :=
  (congrFun (dist_array m c G hem) (ix3 b 0 i)).trans (rowsOf_ix3 G b 0 i)

end Cert.KernelIdeal.HandValue

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KI.ValuePay.lean ====
import proofs.«107422_j42563125903952_1_alg».proof.Proof.Gen.KernelIdeal.Skeleton
import proofs.«107422_j42563125903952_1_alg».proof.Proof.Spec
import proofs.«107422_j42563125903952_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## Reading the payloads at an index, on the extended reals -/

/-- A maximum along the 512 columns of a `2048 × 512` tile, at row `i`: the fold of `max` from `-∞` over the columns. -/
theorem rowMax_apply (src : FVec Ideal S2048x512 .f32) (h : S2048x512.Reduces [1] S2048) (hφ : FKind.Formats .f32)
    (hacc : (0xFF800000#32 : BitVec 32) = FKind.maximumf.neutral .f32 hφ) (i : Fin 2048) :
    multiReduction .maximumf [1] S2048 src 0xFF800000#32 h hφ hacc (ix1 i)
      = (Finset.univ : Finset (Fin 512)).fold max Spec.ninf (fun j => src (ix2 i j)) := by
  refine (Ideal.multiReduction_maximumf_single src _ h hφ hacc (ix1 i)).trans ?_
  show (Finset.univ : Finset (Fin 512)).fold max Spec.ninf (src ∘ h.lift (ix1 i)) = _
  refine congrArg (Finset.fold max Spec.ninf · Finset.univ) (funext fun j => congrArg src (funext fun a => ?_))
  match a with
  | ⟨0, _⟩ => exact Fin.ext rfl
  | ⟨1, _⟩ => exact Fin.ext rfl

/-- Label row `g` of the `16 × 512` label tile, laid over the 2048 rows of the distance tile: at `(i, j)` it is the
    label of group `g` at column `j`. -/
theorem labRow_apply (v23 : FVec Ideal S16x512 .f32) (g : ℕ) (hg : g < 16)
    (h1 : S16x512.Slices ![g, 0] S1x512) (h2 : S1x512.ShapeCasts S512) (h3 : S512.ShapeCasts S1x512)
    (h4 : S1x512.Broadcasts S2048x512) (i : Fin 2048) (j : Fin 512) :
    broadcastTo S2048x512 (shapeCast S1x512 (shapeCast S512 (extractStridedSlice S1x512 ![g, 0] v23 h1) h2) h3) h4 (ix2 i j)
      = v23 (ix2 (⟨g, hg⟩ : Fin 16) j) :=
  (broadcastTo_1b_ab_apply _ h4 i j).trans <|
  (shapeCast_a_1a_apply _ h3 0 j).trans <|
  (shapeCast_1a_a_apply _ h2 j).trans <|
  slice2_axis0_apply g v23 h1 0 j ⟨g, hg⟩ rfl

/-- THE ROW UPDATE. The new value, at point `i`, of the running maximum of label group `g`: the old value against the
    largest, over the tile's 512 columns `j`, of the squared distance `v21 (i, j)` weighted by the label `v23 (g, j)`. -/
def rowNew (v21 : FVec Ideal S2048x512 .f32) (v23 : FVec Ideal S16x512 .f32) (g : Fin 16) (old : EReal) (i : Fin 2048) : EReal :=
  max old ((Finset.univ : Finset (Fin 512)).fold max Spec.ninf (fun j => v21 (ix2 i j) * v23 (ix2 g j)))

/-- What a row store's payload is, whichever of the 16 rows: the row update of that row's group. -/
theorem rowPay_apply (v21 : FVec Ideal S2048x512 .f32) (v23 : FVec Ideal S16x512 .f32) (old : Vec Ideal S1x2048 .f32)
    (g : ℕ) (hg : g < 16)
    (h1 : S16x512.Slices ![g, 0] S1x512) (h2 : S1x512.ShapeCasts S512) (h3 : S512.ShapeCasts S1x512)
    (h4 : S1x512.Broadcasts S2048x512) (hR : S2048x512.Reduces [1] S2048) (hφ : FKind.Formats .f32)
    (hacc : (0xFF800000#32 : BitVec 32) = FKind.maximumf.neutral .f32 hφ)
    (hA : S1x2048.ShapeCasts S2048) (hB : S2048.ShapeCasts S1x2048) (i : Fin 2048) :
    shapeCast S1x2048 (maximumf (shapeCast S2048 old hA)
        (multiReduction .maximumf [1] S2048
          (mulf v21 (broadcastTo S2048x512 (shapeCast S1x512 (shapeCast S512 (extractStridedSlice S1x512 ![g, 0] v23 h1) h2) h3) h4))
          0xFF800000#32 hR hφ hacc)) hB (ix2 (0 : Fin 1) i)
      = rowNew v21 v23 ⟨g, hg⟩ (old (ix2 0 i)) i := by
  refine (shapeCast_a_1a_apply _ hB 0 i).trans ?_
  show max _ _ = max _ _
  refine congrArg₂ max (shapeCast_1a_a_apply old hA i) ?_
  refine (rowMax_apply _ hR hφ hacc i).trans ?_
  refine congrArg (Finset.fold max Spec.ninf · Finset.univ) (funext fun j => ?_)
  show _ * _ = _ * _
  exact congrArg (v21 (ix2 i j) * ·) (labRow_apply v23 g hg h1 h2 h3 h4 i j)

/-! ### The 16 printed row payloads are that update, row by row -/

theorem row0_apply (v3 : Vec Ideal S1x3x2048 .f32) (v5 : Vec Ideal S1x3x512 .f32) (v22 : Vec Ideal S1x16x512 .f32) (old : Vec Ideal S1x2048 .f32) (i : Fin 2048) :
    k0_pay7 v3 v5 v22 old (ix2 (0 : Fin 1) i) = rowNew (k0_pay5 v3 v5) (k0_pay6 v22) ⟨0, by decide⟩ (old (ix2 0 i)) i :=
  rowPay_apply (k0_pay5 v3 v5) (k0_pay6 v22) old 0 (by decide) _ _ _ _ _ _ _ _ _ i

theorem row1_apply (v21 : FVec Ideal S2048x512 .f32) (v23 : FVec Ideal S16x512 .f32) (old : Vec Ideal S1x2048 .f32) (i : Fin 2048) :
    k0_pay8 v21 v23 old (ix2 (0 : Fin 1) i) = rowNew v21 v23 ⟨1, by decide⟩ (old (ix2 0 i)) i :=
  rowPay_apply v21 v23 old 1 (by decide) _ _ _ _ _ _ _ _ _ i

theorem row2_apply (v21 : FVec Ideal S2048x512 .f32) (v23 : FVec Ideal S16x512 .f32) (old : Vec Ideal S1x2048 .f32) (i : Fin 2048) :
    k0_pay9 v21 v23 old (ix2 (0 : Fin 1) i) = rowNew v21 v23 ⟨2, by decide⟩ (old (ix2 0 i)) i :=
  rowPay_apply v21 v23 old 2 (by decide) _ _ _ _ _ _ _ _ _ i

theorem row3_apply (v21 : FVec Ideal S2048x512 .f32) (v23 : FVec Ideal S16x512 .f32) (old : Vec Ideal S1x2048 .f32) (i : Fin 2048) :
    k0_pay10 v21 v23 old (ix2 (0 : Fin 1) i) = rowNew v21 v23 ⟨3, by decide⟩ (old (ix2 0 i)) i :=
  rowPay_apply v21 v23 old 3 (by decide) _ _ _ _ _ _ _ _ _ i

theorem row4_apply (v21 : FVec Ideal S2048x512 .f32) (v23 : FVec Ideal S16x512 .f32) (old : Vec Ideal S1x2048 .f32) (i : Fin 2048) :
    k0_pay12 (k0_pay11 v21 v23) old (ix2 (0 : Fin 1) i) = rowNew v21 v23 ⟨4, by decide⟩ (old (ix2 0 i)) i :=
  rowPay_apply v21 v23 old 4 (by decide) _ _ _ _ _ _ _ _ _ i

theorem row5_apply (v21 : FVec Ideal S2048x512 .f32) (v23 : FVec Ideal S16x512 .f32) (old : Vec Ideal S1x2048 .f32) (i : Fin 2048) :
    k0_pay13 v21 v23 old (ix2 (0 : Fin 1) i) = rowNew v21 v23 ⟨5, by decide⟩ (old (ix2 0 i)) i :=
  rowPay_apply v21 v23 old 5 (by decide) _ _ _ _ _ _ _ _ _ i

theorem row6_apply (v21 : FVec Ideal S2048x512 .f32) (v23 : FVec Ideal S16x512 .f32) (old : Vec Ideal S1x2048 .f32) (i : Fin 2048) :
    k0_pay14 v21 v23 old (ix2 (0 : Fin 1) i) = rowNew v21 v23 ⟨6, by decide⟩ (old (ix2 0 i)) i :=
  rowPay_apply v21 v23 old 6 (by decide) _ _ _ _ _ _ _ _ _ i

theorem row7_apply (v21 : FVec Ideal S2048x512 .f32) (v23 : FVec Ideal S16x512 .f32) (old : Vec Ideal S1x2048 .f32) (i : Fin 2048) :
    k0_pay16 (k0_pay15 v21 v23 old) (ix2 (0 : Fin 1) i) = rowNew v21 v23 ⟨7, by decide⟩ (old (ix2 0 i)) i :=
  rowPay_apply v21 v23 old 7 (by decide) _ _ _ _ _ _ _ _ _ i

theorem row8_apply (v21 : FVec Ideal S2048x512 .f32) (v23 : FVec Ideal S16x512 .f32) (old : Vec Ideal S1x2048 .f32) (i : Fin 2048) :
    k0_pay17 v21 v23 old (ix2 (0 : Fin 1) i) = rowNew v21 v23 ⟨8, by decide⟩ (old (ix2 0 i)) i :=
  rowPay_apply v21 v23 old 8 (by decide) _ _ _ _ _ _ _ _ _ i

theorem row9_apply (v21 : FVec Ideal S2048x512 .f32) (v23 : FVec Ideal S16x512 .f32) (old : Vec Ideal S1x2048 .f32) (i : Fin 2048) :
    k0_pay18 v21 v23 old (ix2 (0 : Fin 1) i) = rowNew v21 v23 ⟨9, by decide⟩ (old (ix2 0 i)) i :=
  rowPay_apply v21 v23 old 9 (by decide) _ _ _ _ _ _ _ _ _ i

theorem row10_apply (v21 : FVec Ideal S2048x512 .f32) (v23 : FVec Ideal S16x512 .f32) (old : Vec Ideal S1x2048 .f32) (i : Fin 2048) :
    k0_pay19 v21 v23 old (ix2 (0 : Fin 1) i) = rowNew v21 v23 ⟨10, by decide⟩ (old (ix2 0 i)) i :=
  rowPay_apply v21 v23 old 10 (by decide) _ _ _ _ _ _ _ _ _ i

theorem row11_apply (v21 : FVec Ideal S2048x512 .f32) (v23 : FVec Ideal S16x512 .f32) (old : Vec Ideal S1x2048 .f32) (i : Fin 2048) :
    k0_pay20 v21 v23 old (ix2 (0 : Fin 1) i) = rowNew v21 v23 ⟨11, by decide⟩ (old (ix2 0 i)) i :=
  rowPay_apply v21 v23 old 11 (by decide) _ _ _ _ _ _ _ _ _ i

theorem row12_apply (v21 : FVec Ideal S2048x512 .f32) (v23 : FVec Ideal S16x512 .f32) (old : Vec Ideal S1x2048 .f32) (i : Fin 2048) :
    k0_pay21 v21 v23 old (ix2 (0 : Fin 1) i) = rowNew v21 v23 ⟨12, by decide⟩ (old (ix2 0 i)) i :=
  rowPay_apply v21 v23 old 12 (by decide) _ _ _ _ _ _ _ _ _ i

theorem row13_apply (v21 : FVec Ideal S2048x512 .f32) (v23 : FVec Ideal S16x512 .f32) (old : Vec Ideal S1x2048 .f32) (i : Fin 2048) :
    k0_pay22 v21 v23 old (ix2 (0 : Fin 1) i) = rowNew v21 v23 ⟨13, by decide⟩ (old (ix2 0 i)) i :=
  rowPay_apply v21 v23 old 13 (by decide) _ _ _ _ _ _ _ _ _ i

theorem row14_apply (v21 : FVec Ideal S2048x512 .f32) (v23 : FVec Ideal S16x512 .f32) (old : Vec Ideal S1x2048 .f32) (i : Fin 2048) :
    k0_pay1 (k0_pay23 v21 v23) old (ix2 (0 : Fin 1) i) = rowNew v21 v23 ⟨14, by decide⟩ (old (ix2 0 i)) i :=
  rowPay_apply v21 v23 old 14 (by decide) _ _ _ _ _ _ _ _ _ i

theorem row15_apply (v21 : FVec Ideal S2048x512 .f32) (v23 : FVec Ideal S16x512 .f32) (old : Vec Ideal S1x2048 .f32) (i : Fin 2048) :
    k0_pay2 v21 v23 old (ix2 (0 : Fin 1) i) = rowNew v21 v23 ⟨15, by decide⟩ (old (ix2 0 i)) i :=
  rowPay_apply v21 v23 old 15 (by decide) _ _ _ _ _ _ _ _ _ i

/-! ### The tile of squared distances and the label tile -/

/-- The label tile with its unit batch axis dropped. -/
theorem labTile_apply (v22 : Vec Ideal S1x16x512 .f32) (g : Fin 16) (j : Fin 512) :
    k0_pay6 v22 (ix2 g j) = v22 (ix3 (0 : Fin 1) g j) :=
  shapeCast_1ab_ab_apply v22 _ g j

/-- The product of the `3 × 2048` and `3 × 512` coordinate blocks contracted over the three coordinates, into zero: at
    `(i, j)` the inner product of point `i` with point `j` of the tile. -/
theorem inner_apply (v7 : FVec Ideal S3x2048 .bf16) (v8 : FVec Ideal S3x512 .bf16) (i : Fin 2048) (j : Fin 512) :
    matmul dot_S3x2048_S3x512_S2048x512_0_0_1_1_n_n none v7 v8 (constant S2048x512 .f32 0x00000000#32) (ix2 i j)
      = ∑ c : Fin 3, v7 (ix2 c i) * v8 (ix2 c j) := by
  refine (Ideal.matmul_constant_zero_apply dot_S3x2048_S3x512_S2048x512_0_0_1_1_n_n none v7 v8 (ix2 i j)).trans ?_
  refine Fintype.sum_equiv (contrEquiv1 dot_S3x2048_S3x512_S2048x512_0_0_1_1_n_n 3 rfl rfl) _ _ fun k => ?_
  refine congrArg₂ (· * ·) (congrArg v7 (funext fun a => Fin.ext ?_)) (congrArg v8 (funext fun a => Fin.ext ?_))
  · match a with
    | ⟨0, _⟩ => rfl
    | ⟨1, _⟩ => rfl
  · match a with
    | ⟨0, _⟩ => rfl
    | ⟨1, _⟩ => rfl

/-- THE DISTANCE TILE. At `(i, j)`: `|p_i|² + |q_j|² − 2 ⟨p_i, q_j⟩`, `p` the batch row's 2048 points and `q` the 512 points
    of the key tile, each sum over the three coordinates. -/
theorem tile_apply (v3 : Vec Ideal S1x3x2048 .f32) (v5 : Vec Ideal S1x3x512 .f32) (i : Fin 2048) (j : Fin 512) :
    k0_pay5 v3 v5 (ix2 i j)
      = ((∑ c : Fin 3, v3 (ix3 (0 : Fin 1) c i) * v3 (ix3 (0 : Fin 1) c i)) + ∑ c : Fin 3, v5 (ix3 (0 : Fin 1) c j) * v5 (ix3 (0 : Fin 1) c j))
        - Spec.two * ∑ c : Fin 3, v3 (ix3 (0 : Fin 1) c i) * v5 (ix3 (0 : Fin 1) c j) := by
  unfold k0_pay5
  show (_ + _) - _ * _ = _
  refine congrArg₂ (· - ·) (congrArg₂ (· + ·) ?_ ?_) (congrArg (Spec.two * ·) ?_)
  · refine (LibKeepdims.broadcastTo_a1_ab_apply _ _ i j).trans ?_
    refine (LibKeepdims.shapeCast_a_a1_apply _ _ i 0).trans ?_
    refine (LibKeepdims.add_axis0_apply _ _ _ _ _ i).trans ?_
    refine Finset.sum_congr rfl fun c _ => ?_
    show _ * _ = _
    rw [shapeCast_1ab_ab_apply v3 _ c i]
  · refine (broadcastTo_1b_ab_apply _ _ i j).trans ?_
    refine (shapeCast_a_1a_apply _ _ 0 j).trans ?_
    refine (LibKeepdims.add_axis0_apply _ _ _ _ _ j).trans ?_
    refine Finset.sum_congr rfl fun c _ => ?_
    show _ * _ = _
    rw [shapeCast_1ab_ab_apply v5 _ c j]
  · refine (inner_apply _ _ i j).trans ?_
    refine Finset.sum_congr rfl fun c _ => ?_
    exact congrArg₂ (· * ·) (shapeCast_1ab_ab_apply v3 _ c i) (shapeCast_1ab_ab_apply v5 _ c j)

/-! ### The emitted distances -/

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; omega)

/-- THE EMITTED DISTANCES. At point `i`: the smallest, over the 16 label groups `g`, of the running maximum of the group
    shifted by `1e-4` over the group's activity flag shifted by `1e-8`. -/
theorem emitPay_apply (v219 : Vec Ideal S1x1x16 .f32) (v221 : Vec Ideal S16x2048 .f32) (i : Fin 2048) :
    k0_pay3 v219 v221 (ix3 (0 : Fin 1) (0 : Fin 1) i)
      = (Finset.univ : Finset (Fin 16)).fold min Spec.pinf
          (fun g => Ideal.div (v221 (ix2 g i) + Spec.e4) (v219 (ix3 (0 : Fin 1) (0 : Fin 1) g) + Spec.e8)) := by
  unfold k0_pay3
  refine (shapeCast_a_11a_apply _ _ 0 0 i).trans ?_
  refine (LibKeepdims.min_axis0_apply _ _ _ _ _ i).trans ?_
  refine Finset.fold_congr fun g _ => ?_
  show Ideal.div (_ + _) _ = Ideal.div (_ + _) (_ + _)
  refine congrArg (Ideal.div (v221 (ix2 g i) + Spec.e4) ·) ?_
  refine (LibKeepdims.broadcastTo_a1_ab_apply _ _ g i).trans ?_
  show _ + _ = _ + _
  refine congrArg (· + Spec.e8) ?_
  refine (LibKeepdims.shapeCast_a_a1_apply _ _ g 0).trans ?_
  exact shapeCast_11a_a_apply v219 _ g

end Cert.KernelIdeal.HandValue

end
-- ==== Proof.KI.ValueCase.lean ====
import proofs.«107422_j42563125903952_1_alg».proof.Proof.KI.Carried
import proofs.«107422_j42563125903952_1_alg».proof.Proof.KI.ValuePay

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Tactic

/-! ## What each case leaves, read at an index -/

/-- Row `g` of the running maxima as a rectangle, placed in the `16 × 2048` buffer: its element `(u, q)` is `(g, q)`. -/
theorem rowRect_emb (g : ℕ) (hg : g < 16) (inb : ∀ a, (![g, 0] : Fin S16x2048.rank → ℕ) a + S1x2048.size a ≤ S16x2048.size a)
    (u : Fin 1) (q : Fin 2048) :
    (Rect.unit (s := S16x2048) ![g, 0] S1x2048.size inb).emb (ix2 u q) = ix2 (⟨g, hg⟩ : Fin 16) q := by
  funext a; apply Fin.ext
  match a with
  | ⟨0, _⟩ => show g + 1 * u.val = g; omega
  | ⟨1, _⟩ => show 0 + 1 * q.val = q.val; omega

/-- The running maxima after the 16 row updates, as ONE function of the index `y = (g, i)`, given what row updates start
    from (`prev`): the update of group `g` at point `i`. -/
def rowG (v21 : FVec Ideal S2048x512 .f32) (v23 : FVec Ideal S16x512 .f32) (prev : S16x2048.Idx → EReal) (y : S16x2048.Idx) : EReal :=
  rowNew v21 v23 (y 0) (prev y) (y 1)

/-- One row store agrees with that function on its row, when its payload is the row update of its group and the row it
    loaded is `prev`'s. -/
theorem piece_ok (v21 : FVec Ideal S2048x512 .f32) (v23 : FVec Ideal S16x512 .f32) (prev : S16x2048.Idx → EReal)
    (g : ℕ) (hg : g < 16) (inb : ∀ a, (![g, 0] : Fin S16x2048.rank → ℕ) a + S1x2048.size a ≤ S16x2048.size a)
    (pay : Vec Ideal S1x2048 .f32 → FVec Ideal S1x2048 .f32)
    (hpay : ∀ old q, pay old (ix2 (0 : Fin 1) q) = rowNew v21 v23 ⟨g, hg⟩ (old (ix2 0 q)) q)
    (old : Vec Ideal S1x2048 .f32) (hold : ∀ q, old (ix2 (0 : Fin 1) q) = prev (ix2 (⟨g, hg⟩ : Fin 16) q))
    (x : (Rect.unit (s := S16x2048) ![g, 0] S1x2048.size inb).shape.Idx) :
    pay old x = rowG v21 v23 prev ((Rect.unit (s := S16x2048) ![g, 0] S1x2048.size inb).emb x) := by
  obtain ⟨u, q, rfl⟩ : ∃ (u : Fin 1) (q : Fin 2048), x = ix2 u q := ⟨x 0, x 1, eq_ix2 x⟩
  obtain rfl : u = 0 := Subsingleton.elim _ _
  rw [rowRect_emb g hg inb 0 q, hpay old q, hold q]
  rfl

theorem zeros3 : (![0, 0, 0] : Fin 3 → ℕ) = fun _ => 0 := funext fun a => by fin_cases a <;> rfl
theorem zeros2 : (![0, 0] : Fin 2 → ℕ) = fun _ => 0 := funext fun a => by fin_cases a <;> rfl

/-- A row of a whole buffer's contents, loaded: element `(0, q)` is the contents at `(g, q)`. -/
theorem rowLoad_apply (xAcc : Vec Ideal S16x2048 .f32) (g : ℕ) (hg : g < 16)
    (inb : ∀ a, (![g, 0] : Fin S16x2048.rank → ℕ) a + S1x2048.size a ≤ S16x2048.size a) (q : Fin 2048) :
    View.ld (Val := Elt Ideal) (e' := .f32) xAcc (Rect.unit (s := S16x2048) ![g, 0] S1x2048.size inb) (ix2 (0 : Fin 1) q)
      = xAcc (ix2 (⟨g, hg⟩ : Fin 16) q) :=
  congrArg xAcc (rowRect_emb g hg inb 0 q)

/-- A row store whose row is not `g` leaves row `g` as the earlier stores left it. -/
theorem canon_skip_row (k g : ℕ) (hg : g < 16) (hk : (k == g) = false)
    (inb : ∀ a, (![k, 0] : Fin S16x2048.rank → ℕ) a + S1x2048.size a ≤ S16x2048.size a)
    (w : (Rect.unit (s := S16x2048) ![k, 0] S1x2048.size inb).shape.Idx → Elt Ideal .f32)
    (L : List (View.Piece (Elt Ideal) S16x2048 .f32)) (q : Fin 2048) :
    View.canon (⟨Rect.unit (s := S16x2048) ![k, 0] S1x2048.size inb, w⟩ :: L) (ix2 (⟨g, hg⟩ : Fin 16) q)
      = View.canon L (ix2 (⟨g, hg⟩ : Fin 16) q) := by
  refine View.canon_cons_of_not_mem _ _ ?_
  rw [Rect.mem_set_unit]
  intro h
  have h0 := h ⟨0, by decide⟩
  have hkg : k ≠ g := by intro e; subst e; simp at hk
  have h1 : k ≤ g ∧ g < k + 1 := h0
  omega

/-- The value the running maxima are reset to. -/
theorem resetPay_apply (y : S16x2048.Idx) : (k0_pay4 (F := Ideal)) y = Spec.ninf := by
  unfold k0_pay4
  rw [shapeCast_self]
  rfl

/-- The contents a list of stores leaves at an index covered by its EARLIER-LISTED part `L` (the later stores), all of
    whose pieces are tiles of one function `G`: `G` there, whatever the stores `L'` made before them were. -/
theorem canon_prefix (G : S16x2048.Idx → Elt Ideal .f32) :
    ∀ (L L' : List (View.Piece (Elt Ideal) S16x2048 .f32))
      (_ : ∀ p ∈ L, ∀ x : p.1.shape.Idx, p.2 x = G (p.1.emb x)) (y : S16x2048.Idx)
      (_ : ∃ p ∈ L, y ∈ p.1.set), View.canon (L ++ L') y = G y
  | [], _, _, _, hy => by obtain ⟨p, hp, _⟩ := hy; simp at hp
  | p :: L, L', hL, y, hy => by
    show View.canon (p :: (L ++ L')) y = G y
    by_cases hm : y ∈ p.1.set
    · obtain ⟨r, w⟩ := p
      obtain ⟨x, rfl⟩ : ∃ x, r.emb x = y := r.exists_idx_of_mem hm
      rw [View.canon_cons_emb]
      exact hL ⟨r, w⟩ (by simp) x
    · rw [View.canon_cons_of_not_mem _ _ hm]
      refine canon_prefix G L L' (fun q hq => hL q (by simp [hq])) y ?_
      obtain ⟨q, hq, hyq⟩ := hy
      rcases List.mem_cons.mp hq with rfl | hq'
      · exact absurd hyq hm
      · exact ⟨q, hq', hyq⟩

/-- The same with the list given whole: all its stores but the FIRST-MADE one (the last listed) are tiles of `G` and
    cover the index. -/
theorem canon_init (G : S16x2048.Idx → Elt Ideal .f32) (L : List (View.Piece (Elt Ideal) S16x2048 .f32))
    (hL : ∀ p ∈ L.dropLast, ∀ x : p.1.shape.Idx, p.2 x = G (p.1.emb x)) (y : S16x2048.Idx)
    (hy : ∃ p ∈ L.dropLast, y ∈ p.1.set) : View.canon L y = G y := by
  have hne : L ≠ [] := by
    rintro rfl
    obtain ⟨p, hp, _⟩ := hy
    simp at hp
  rw [← List.dropLast_append_getLast hne]
  exact canon_prefix G _ _ hL y hy

end Cert.KernelIdeal.HandValue

end
-- ==== Proof.KI.ValueFoldCase.lean ====
import proofs.«107422_j42563125903952_1_alg».proof.Proof.KI.ValueCase

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Tactic

/-- A MIDDLE KEY TILE, read at an index: row `g` at point `p` becomes the row update of what it held. -/
theorem accFold_apply (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬Hand.firstTile i) (hLast : ¬Hand.lastTile i)
    (xP : Vec Ideal S1x3x2048 .f32) (xJ : Vec Ideal S1x3x512 .f32) (xL : Vec Ideal S1x16x512 .f32) (xA : Vec Ideal S1x1x16 .f32) (xAcc : Vec Ideal S16x2048 .f32) (y : S16x2048.Idx) :
    Hand.accFold c i pts hpts ptsJ hptsJ lab hlab act hact dist hdist acc hacc hFirst hLast xP xJ xL xA xAcc y = rowG (k0_pay5 xP xJ) (k0_pay6 xL) xAcc y := by
  unfold Hand.accFold
  rw [View.read_writes_junk_eq_canon]
  refine View.canon_apply_of_pieces (rowG (k0_pay5 xP xJ) (k0_pay6 xL) xAcc) _ ?_ y (Hand.accFold_cover c i pts hpts ptsJ hptsJ lab hlab act hact dist hdist acc hacc hFirst hLast xP xJ xL xA xAcc y)
  unfold Hand.runFold
  dsimp only
  sl_unfold_run_names
  simp only [View.readAt_eq_ld, hpts.read_unread, hptsJ.read_unread, hlab.read_unread, hacc.read_unread,
    View.ld_unit_zero (S := S1x3x2048) zeros3, View.ld_unit_zero (S := S1x3x512) zeros3, View.ld_unit_zero (S := S1x16x512) zeros3]
  intro pc hpc
  simp only [List.mem_cons, List.mem_nil_iff, or_false] at hpc
  rcases hpc with rfl | rfl | rfl | rfl | rfl | rfl | rfl | rfl | rfl | rfl | rfl | rfl | rfl | rfl | rfl | rfl
  · exact piece_ok (k0_pay5 xP xJ) (k0_pay6 xL) xAcc 15 (by decide) inb_S16x2048_S1x2048_15_0 (fun old => k0_pay2 (k0_pay5 xP xJ) (k0_pay6 xL) old) (row15_apply (k0_pay5 xP xJ) (k0_pay6 xL)) _ (rowLoad_apply xAcc 15 (by decide) inb_S16x2048_S1x2048_15_0)
  · exact piece_ok (k0_pay5 xP xJ) (k0_pay6 xL) xAcc 14 (by decide) inb_S16x2048_S1x2048_14_0 (fun old => k0_pay1 (k0_pay23 (k0_pay5 xP xJ) (k0_pay6 xL)) old) (row14_apply (k0_pay5 xP xJ) (k0_pay6 xL)) _ (rowLoad_apply xAcc 14 (by decide) inb_S16x2048_S1x2048_14_0)
  · exact piece_ok (k0_pay5 xP xJ) (k0_pay6 xL) xAcc 13 (by decide) inb_S16x2048_S1x2048_13_0 (fun old => k0_pay22 (k0_pay5 xP xJ) (k0_pay6 xL) old) (row13_apply (k0_pay5 xP xJ) (k0_pay6 xL)) _ (rowLoad_apply xAcc 13 (by decide) inb_S16x2048_S1x2048_13_0)
  · exact piece_ok (k0_pay5 xP xJ) (k0_pay6 xL) xAcc 12 (by decide) inb_S16x2048_S1x2048_12_0 (fun old => k0_pay21 (k0_pay5 xP xJ) (k0_pay6 xL) old) (row12_apply (k0_pay5 xP xJ) (k0_pay6 xL)) _ (rowLoad_apply xAcc 12 (by decide) inb_S16x2048_S1x2048_12_0)
  · exact piece_ok (k0_pay5 xP xJ) (k0_pay6 xL) xAcc 11 (by decide) inb_S16x2048_S1x2048_11_0 (fun old => k0_pay20 (k0_pay5 xP xJ) (k0_pay6 xL) old) (row11_apply (k0_pay5 xP xJ) (k0_pay6 xL)) _ (rowLoad_apply xAcc 11 (by decide) inb_S16x2048_S1x2048_11_0)
  · exact piece_ok (k0_pay5 xP xJ) (k0_pay6 xL) xAcc 10 (by decide) inb_S16x2048_S1x2048_10_0 (fun old => k0_pay19 (k0_pay5 xP xJ) (k0_pay6 xL) old) (row10_apply (k0_pay5 xP xJ) (k0_pay6 xL)) _ (rowLoad_apply xAcc 10 (by decide) inb_S16x2048_S1x2048_10_0)
  · exact piece_ok (k0_pay5 xP xJ) (k0_pay6 xL) xAcc 9 (by decide) inb_S16x2048_S1x2048_9_0 (fun old => k0_pay18 (k0_pay5 xP xJ) (k0_pay6 xL) old) (row9_apply (k0_pay5 xP xJ) (k0_pay6 xL)) _ (rowLoad_apply xAcc 9 (by decide) inb_S16x2048_S1x2048_9_0)
  · exact piece_ok (k0_pay5 xP xJ) (k0_pay6 xL) xAcc 8 (by decide) inb_S16x2048_S1x2048_8_0 (fun old => k0_pay17 (k0_pay5 xP xJ) (k0_pay6 xL) old) (row8_apply (k0_pay5 xP xJ) (k0_pay6 xL)) _ (rowLoad_apply xAcc 8 (by decide) inb_S16x2048_S1x2048_8_0)
  · exact piece_ok (k0_pay5 xP xJ) (k0_pay6 xL) xAcc 7 (by decide) inb_S16x2048_S1x2048_7_0 (fun old => k0_pay16 (k0_pay15 (k0_pay5 xP xJ) (k0_pay6 xL) old)) (row7_apply (k0_pay5 xP xJ) (k0_pay6 xL)) _ (rowLoad_apply xAcc 7 (by decide) inb_S16x2048_S1x2048_7_0)
  · exact piece_ok (k0_pay5 xP xJ) (k0_pay6 xL) xAcc 6 (by decide) inb_S16x2048_S1x2048_6_0 (fun old => k0_pay14 (k0_pay5 xP xJ) (k0_pay6 xL) old) (row6_apply (k0_pay5 xP xJ) (k0_pay6 xL)) _ (rowLoad_apply xAcc 6 (by decide) inb_S16x2048_S1x2048_6_0)
  · exact piece_ok (k0_pay5 xP xJ) (k0_pay6 xL) xAcc 5 (by decide) inb_S16x2048_S1x2048_5_0 (fun old => k0_pay13 (k0_pay5 xP xJ) (k0_pay6 xL) old) (row5_apply (k0_pay5 xP xJ) (k0_pay6 xL)) _ (rowLoad_apply xAcc 5 (by decide) inb_S16x2048_S1x2048_5_0)
  · exact piece_ok (k0_pay5 xP xJ) (k0_pay6 xL) xAcc 4 (by decide) inb_S16x2048_S1x2048_4_0 (fun old => k0_pay12 (k0_pay11 (k0_pay5 xP xJ) (k0_pay6 xL)) old) (row4_apply (k0_pay5 xP xJ) (k0_pay6 xL)) _ (rowLoad_apply xAcc 4 (by decide) inb_S16x2048_S1x2048_4_0)
  · exact piece_ok (k0_pay5 xP xJ) (k0_pay6 xL) xAcc 3 (by decide) inb_S16x2048_S1x2048_3_0 (fun old => k0_pay10 (k0_pay5 xP xJ) (k0_pay6 xL) old) (row3_apply (k0_pay5 xP xJ) (k0_pay6 xL)) _ (rowLoad_apply xAcc 3 (by decide) inb_S16x2048_S1x2048_3_0)
  · exact piece_ok (k0_pay5 xP xJ) (k0_pay6 xL) xAcc 2 (by decide) inb_S16x2048_S1x2048_2_0 (fun old => k0_pay9 (k0_pay5 xP xJ) (k0_pay6 xL) old) (row2_apply (k0_pay5 xP xJ) (k0_pay6 xL)) _ (rowLoad_apply xAcc 2 (by decide) inb_S16x2048_S1x2048_2_0)
  · exact piece_ok (k0_pay5 xP xJ) (k0_pay6 xL) xAcc 1 (by decide) inb_S16x2048_S1x2048_1_0 (fun old => k0_pay8 (k0_pay5 xP xJ) (k0_pay6 xL) old) (row1_apply (k0_pay5 xP xJ) (k0_pay6 xL)) _ (rowLoad_apply xAcc 1 (by decide) inb_S16x2048_S1x2048_1_0)
  · exact piece_ok (k0_pay5 xP xJ) (k0_pay6 xL) xAcc 0 (by decide) inb_S16x2048_S1x2048_0_0 (fun old => k0_pay7 xP xJ xL old) (row0_apply xP xJ xL) _ (rowLoad_apply xAcc 0 (by decide) inb_S16x2048_S1x2048_0_0)

end Cert.KernelIdeal.HandValue

end
-- ==== Proof.KI.ValueEmitCase.lean ====
import proofs.«107422_j42563125903952_1_alg».proof.Proof.KI.ValueCase

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Tactic

/-- THE LAST KEY TILE, the running maxima read at an index: updated as at a middle tile. -/
theorem accEmit_apply (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬Hand.firstTile i) (hLast : Hand.lastTile i)
    (xP : Vec Ideal S1x3x2048 .f32) (xJ : Vec Ideal S1x3x512 .f32) (xL : Vec Ideal S1x16x512 .f32) (xA : Vec Ideal S1x1x16 .f32) (xAcc : Vec Ideal S16x2048 .f32) (y : S16x2048.Idx) :
    Hand.accEmit c i pts hpts ptsJ hptsJ lab hlab act hact dist hdist acc hacc hFirst hLast xP xJ xL xA xAcc y = rowG (k0_pay5 xP xJ) (k0_pay6 xL) xAcc y := by
  unfold Hand.accEmit
  rw [View.read_writes_junk_eq_canon]
  refine View.canon_apply_of_pieces (rowG (k0_pay5 xP xJ) (k0_pay6 xL) xAcc) _ ?_ y (Hand.accEmit_cover c i pts hpts ptsJ hptsJ lab hlab act hact dist hdist acc hacc hFirst hLast xP xJ xL xA xAcc y)
  unfold Hand.runEmit
  dsimp only
  sl_unfold_run_names
  simp only [View.readAt_eq_ld, hpts.read_unread, hptsJ.read_unread, hlab.read_unread, hacc.read_unread,
    View.ld_unit_zero (S := S1x3x2048) zeros3, View.ld_unit_zero (S := S1x3x512) zeros3, View.ld_unit_zero (S := S1x16x512) zeros3]
  intro pc hpc
  simp only [List.mem_cons, List.mem_nil_iff, or_false] at hpc
  rcases hpc with rfl | rfl | rfl | rfl | rfl | rfl | rfl | rfl | rfl | rfl | rfl | rfl | rfl | rfl | rfl | rfl
  · exact piece_ok (k0_pay5 xP xJ) (k0_pay6 xL) xAcc 15 (by decide) inb_S16x2048_S1x2048_15_0 (fun old => k0_pay2 (k0_pay5 xP xJ) (k0_pay6 xL) old) (row15_apply (k0_pay5 xP xJ) (k0_pay6 xL)) _ (rowLoad_apply xAcc 15 (by decide) inb_S16x2048_S1x2048_15_0)
  · exact piece_ok (k0_pay5 xP xJ) (k0_pay6 xL) xAcc 14 (by decide) inb_S16x2048_S1x2048_14_0 (fun old => k0_pay1 (k0_pay23 (k0_pay5 xP xJ) (k0_pay6 xL)) old) (row14_apply (k0_pay5 xP xJ) (k0_pay6 xL)) _ (rowLoad_apply xAcc 14 (by decide) inb_S16x2048_S1x2048_14_0)
  · exact piece_ok (k0_pay5 xP xJ) (k0_pay6 xL) xAcc 13 (by decide) inb_S16x2048_S1x2048_13_0 (fun old => k0_pay22 (k0_pay5 xP xJ) (k0_pay6 xL) old) (row13_apply (k0_pay5 xP xJ) (k0_pay6 xL)) _ (rowLoad_apply xAcc 13 (by decide) inb_S16x2048_S1x2048_13_0)
  · exact piece_ok (k0_pay5 xP xJ) (k0_pay6 xL) xAcc 12 (by decide) inb_S16x2048_S1x2048_12_0 (fun old => k0_pay21 (k0_pay5 xP xJ) (k0_pay6 xL) old) (row12_apply (k0_pay5 xP xJ) (k0_pay6 xL)) _ (rowLoad_apply xAcc 12 (by decide) inb_S16x2048_S1x2048_12_0)
  · exact piece_ok (k0_pay5 xP xJ) (k0_pay6 xL) xAcc 11 (by decide) inb_S16x2048_S1x2048_11_0 (fun old => k0_pay20 (k0_pay5 xP xJ) (k0_pay6 xL) old) (row11_apply (k0_pay5 xP xJ) (k0_pay6 xL)) _ (rowLoad_apply xAcc 11 (by decide) inb_S16x2048_S1x2048_11_0)
  · exact piece_ok (k0_pay5 xP xJ) (k0_pay6 xL) xAcc 10 (by decide) inb_S16x2048_S1x2048_10_0 (fun old => k0_pay19 (k0_pay5 xP xJ) (k0_pay6 xL) old) (row10_apply (k0_pay5 xP xJ) (k0_pay6 xL)) _ (rowLoad_apply xAcc 10 (by decide) inb_S16x2048_S1x2048_10_0)
  · exact piece_ok (k0_pay5 xP xJ) (k0_pay6 xL) xAcc 9 (by decide) inb_S16x2048_S1x2048_9_0 (fun old => k0_pay18 (k0_pay5 xP xJ) (k0_pay6 xL) old) (row9_apply (k0_pay5 xP xJ) (k0_pay6 xL)) _ (rowLoad_apply xAcc 9 (by decide) inb_S16x2048_S1x2048_9_0)
  · exact piece_ok (k0_pay5 xP xJ) (k0_pay6 xL) xAcc 8 (by decide) inb_S16x2048_S1x2048_8_0 (fun old => k0_pay17 (k0_pay5 xP xJ) (k0_pay6 xL) old) (row8_apply (k0_pay5 xP xJ) (k0_pay6 xL)) _ (rowLoad_apply xAcc 8 (by decide) inb_S16x2048_S1x2048_8_0)
  · exact piece_ok (k0_pay5 xP xJ) (k0_pay6 xL) xAcc 7 (by decide) inb_S16x2048_S1x2048_7_0 (fun old => k0_pay16 (k0_pay15 (k0_pay5 xP xJ) (k0_pay6 xL) old)) (row7_apply (k0_pay5 xP xJ) (k0_pay6 xL)) _ (rowLoad_apply xAcc 7 (by decide) inb_S16x2048_S1x2048_7_0)
  · exact piece_ok (k0_pay5 xP xJ) (k0_pay6 xL) xAcc 6 (by decide) inb_S16x2048_S1x2048_6_0 (fun old => k0_pay14 (k0_pay5 xP xJ) (k0_pay6 xL) old) (row6_apply (k0_pay5 xP xJ) (k0_pay6 xL)) _ (rowLoad_apply xAcc 6 (by decide) inb_S16x2048_S1x2048_6_0)
  · exact piece_ok (k0_pay5 xP xJ) (k0_pay6 xL) xAcc 5 (by decide) inb_S16x2048_S1x2048_5_0 (fun old => k0_pay13 (k0_pay5 xP xJ) (k0_pay6 xL) old) (row5_apply (k0_pay5 xP xJ) (k0_pay6 xL)) _ (rowLoad_apply xAcc 5 (by decide) inb_S16x2048_S1x2048_5_0)
  · exact piece_ok (k0_pay5 xP xJ) (k0_pay6 xL) xAcc 4 (by decide) inb_S16x2048_S1x2048_4_0 (fun old => k0_pay12 (k0_pay11 (k0_pay5 xP xJ) (k0_pay6 xL)) old) (row4_apply (k0_pay5 xP xJ) (k0_pay6 xL)) _ (rowLoad_apply xAcc 4 (by decide) inb_S16x2048_S1x2048_4_0)
  · exact piece_ok (k0_pay5 xP xJ) (k0_pay6 xL) xAcc 3 (by decide) inb_S16x2048_S1x2048_3_0 (fun old => k0_pay10 (k0_pay5 xP xJ) (k0_pay6 xL) old) (row3_apply (k0_pay5 xP xJ) (k0_pay6 xL)) _ (rowLoad_apply xAcc 3 (by decide) inb_S16x2048_S1x2048_3_0)
  · exact piece_ok (k0_pay5 xP xJ) (k0_pay6 xL) xAcc 2 (by decide) inb_S16x2048_S1x2048_2_0 (fun old => k0_pay9 (k0_pay5 xP xJ) (k0_pay6 xL) old) (row2_apply (k0_pay5 xP xJ) (k0_pay6 xL)) _ (rowLoad_apply xAcc 2 (by decide) inb_S16x2048_S1x2048_2_0)
  · exact piece_ok (k0_pay5 xP xJ) (k0_pay6 xL) xAcc 1 (by decide) inb_S16x2048_S1x2048_1_0 (fun old => k0_pay8 (k0_pay5 xP xJ) (k0_pay6 xL) old) (row1_apply (k0_pay5 xP xJ) (k0_pay6 xL)) _ (rowLoad_apply xAcc 1 (by decide) inb_S16x2048_S1x2048_1_0)
  · exact piece_ok (k0_pay5 xP xJ) (k0_pay6 xL) xAcc 0 (by decide) inb_S16x2048_S1x2048_0_0 (fun old => k0_pay7 xP xJ xL old) (row0_apply xP xJ xL) _ (rowLoad_apply xAcc 0 (by decide) inb_S16x2048_S1x2048_0_0)

/-- THE LAST KEY TILE, the distances read at an index: the smallest over the 16 groups of the updated running maximum
    shifted by `1e-4` over the group's activity flag shifted by `1e-8` — the maxima being the ones this same point left. -/
theorem distEmit_apply (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : ¬Hand.firstTile i) (hLast : Hand.lastTile i)
    (xP : Vec Ideal S1x3x2048 .f32) (xJ : Vec Ideal S1x3x512 .f32) (xL : Vec Ideal S1x16x512 .f32) (xA : Vec Ideal S1x1x16 .f32) (xAcc : Vec Ideal S16x2048 .f32) (p : Fin 2048) :
    Hand.distEmit c i pts hpts ptsJ hptsJ lab hlab act hact dist hdist acc hacc hFirst hLast xP xJ xL xA xAcc (ix3 (0 : Fin 1) (0 : Fin 1) p)
      = (Finset.univ : Finset (Fin 16)).fold min Spec.pinf (fun g =>
          Ideal.div (Hand.accEmit c i pts hpts ptsJ hptsJ lab hlab act hact dist hdist acc hacc hFirst hLast xP xJ xL xA xAcc (ix2 g p) + Spec.e4) (xA (ix3 (0 : Fin 1) (0 : Fin 1) g) + Spec.e8)) := by
  unfold Hand.distEmit Hand.accEmit
  simp only [View.read_writes_junk_eq_canon]
  unfold Hand.runEmit
  dsimp only
  rw [View.canon_unit_zero zeros3]
  refine (emitPay_apply _ _ p).trans ?_
  refine Finset.fold_congr fun g _ => ?_
  refine congrArg₂ Ideal.div (congrArg (· + Spec.e4) ?_) (congrArg (· + Spec.e8) ?_)
  · unfold Hand.runEmit.sl.v221
    rw [View.readCov_eq_canon']
    refine congrArg (View.canon _) (funext fun a => Fin.ext ?_)
    match a with
    | ⟨0, _⟩ => show 0 + 1 * g.val = g.val; omega
    | ⟨1, _⟩ => show 0 + 1 * p.val = p.val; omega
  · rw [View.readAt_eq_ld, hact.read_unread, View.ld_unit_zero (S := S1x1x16) zeros3]

end Cert.KernelIdeal.HandValue

end
-- ==== Proof.KI.ValueResetCase.lean ====
import proofs.«107422_j42563125903952_1_alg».proof.Proof.KI.ValueCase

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Tactic

set_option maxHeartbeats 1600000 in
/-- THE FIRST KEY TILE, read at an index: every row was just reset to `-∞` when it is loaded, so row `g` at point `p`
    becomes the row update of `-∞`, whatever the buffer held before the point. -/
theorem accReset_apply (c : Dev nD) (i : grid0.Coords) (pts : Memref sig .tc .vmem S1x3x2048 .f32) (hpts : pts.IsWhole) (ptsJ : Memref sig .tc .vmem S1x3x512 .f32) (hptsJ : ptsJ.IsWhole) (lab : Memref sig .tc .vmem S1x16x512 .f32) (hlab : lab.IsWhole) (act : Memref sig .tc .vmem S1x1x16 .f32) (hact : act.IsWhole) (dist : Memref sig .tc .vmem S1x1x2048 .f32) (hdist : dist.IsWhole) (acc : Memref sig .tc .vmem S16x2048 .f32) (hacc : acc.IsWhole) (hFirst : Hand.firstTile i) (hLast : ¬Hand.lastTile i)
    (xP : Vec Ideal S1x3x2048 .f32) (xJ : Vec Ideal S1x3x512 .f32) (xL : Vec Ideal S1x16x512 .f32) (xA : Vec Ideal S1x1x16 .f32) (y : S16x2048.Idx) :
    Hand.accReset c i pts hpts ptsJ hptsJ lab hlab act hact dist hdist acc hacc hFirst hLast xP xJ xL xA y = rowG (k0_pay5 xP xJ) (k0_pay6 xL) (fun _ => Spec.ninf) y := by
  unfold Hand.accReset
  rw [View.read_writes_junk_eq_canon]
  unfold Hand.runReset
  dsimp only
  sl_unfold_run_names
  simp only [View.readAt_eq_ld, hpts.read_unread, hptsJ.read_unread, hlab.read_unread,
    View.ld_unit_zero (S := S1x3x2048) zeros3, View.ld_unit_zero (S := S1x3x512) zeros3, View.ld_unit_zero (S := S1x16x512) zeros3]
  refine canon_init (rowG (k0_pay5 xP xJ) (k0_pay6 xL) (fun _ => Spec.ninf)) _ ?_ y
    (View.cover_of_tiledL (s := S16x2048) (e := .f32) (Val := Elt Ideal) (List.dropLast _) S1x2048.size (by sl_kernel_rfl) y)
  intro pc hpc
  simp only [List.dropLast, List.mem_cons, List.mem_nil_iff, or_false] at hpc
  rcases hpc with rfl | rfl | rfl | rfl | rfl | rfl | rfl | rfl | rfl | rfl | rfl | rfl | rfl | rfl | rfl | rfl
  · exact piece_ok (k0_pay5 xP xJ) (k0_pay6 xL) (fun _ => Spec.ninf) 15 (by decide) inb_S16x2048_S1x2048_15_0 (fun old => k0_pay2 (k0_pay5 xP xJ) (k0_pay6 xL) old) (row15_apply (k0_pay5 xP xJ) (k0_pay6 xL)) _ (fun q => by
      rw [View.readCov_eq_canon']
      refine (congrArg (View.canon _) (rowRect_emb 15 (by decide) inb_S16x2048_S1x2048_15_0 0 q)).trans ?_
      rw [canon_skip_row 14 15 (by decide) rfl, canon_skip_row 13 15 (by decide) rfl, canon_skip_row 12 15 (by decide) rfl, canon_skip_row 11 15 (by decide) rfl, canon_skip_row 10 15 (by decide) rfl, canon_skip_row 9 15 (by decide) rfl, canon_skip_row 8 15 (by decide) rfl, canon_skip_row 7 15 (by decide) rfl, canon_skip_row 6 15 (by decide) rfl, canon_skip_row 5 15 (by decide) rfl, canon_skip_row 4 15 (by decide) rfl, canon_skip_row 3 15 (by decide) rfl, canon_skip_row 2 15 (by decide) rfl, canon_skip_row 1 15 (by decide) rfl, canon_skip_row 0 15 (by decide) rfl]
      rw [View.canon_unit_zero zeros2, resetPay_apply])
  · exact piece_ok (k0_pay5 xP xJ) (k0_pay6 xL) (fun _ => Spec.ninf) 14 (by decide) inb_S16x2048_S1x2048_14_0 (fun old => k0_pay1 (k0_pay23 (k0_pay5 xP xJ) (k0_pay6 xL)) old) (row14_apply (k0_pay5 xP xJ) (k0_pay6 xL)) _ (fun q => by
      rw [View.readCov_eq_canon']
      refine (congrArg (View.canon _) (rowRect_emb 14 (by decide) inb_S16x2048_S1x2048_14_0 0 q)).trans ?_
      rw [canon_skip_row 13 14 (by decide) rfl, canon_skip_row 12 14 (by decide) rfl, canon_skip_row 11 14 (by decide) rfl, canon_skip_row 10 14 (by decide) rfl, canon_skip_row 9 14 (by decide) rfl, canon_skip_row 8 14 (by decide) rfl, canon_skip_row 7 14 (by decide) rfl, canon_skip_row 6 14 (by decide) rfl, canon_skip_row 5 14 (by decide) rfl, canon_skip_row 4 14 (by decide) rfl, canon_skip_row 3 14 (by decide) rfl, canon_skip_row 2 14 (by decide) rfl, canon_skip_row 1 14 (by decide) rfl, canon_skip_row 0 14 (by decide) rfl]
      rw [View.canon_unit_zero zeros2, resetPay_apply])
  · exact piece_ok (k0_pay5 xP xJ) (k0_pay6 xL) (fun _ => Spec.ninf) 13 (by decide) inb_S16x2048_S1x2048_13_0 (fun old => k0_pay22 (k0_pay5 xP xJ) (k0_pay6 xL) old) (row13_apply (k0_pay5 xP xJ) (k0_pay6 xL)) _ (fun q => by
      rw [View.readCov_eq_canon']
      refine (congrArg (View.canon _) (rowRect_emb 13 (by decide) inb_S16x2048_S1x2048_13_0 0 q)).trans ?_
      rw [canon_skip_row 12 13 (by decide) rfl, canon_skip_row 11 13 (by decide) rfl, canon_skip_row 10 13 (by decide) rfl, canon_skip_row 9 13 (by decide) rfl, canon_skip_row 8 13 (by decide) rfl, canon_skip_row 7 13 (by decide) rfl, canon_skip_row 6 13 (by decide) rfl, canon_skip_row 5 13 (by decide) rfl, canon_skip_row 4 13 (by decide) rfl, canon_skip_row 3 13 (by decide) rfl, canon_skip_row 2 13 (by decide) rfl, canon_skip_row 1 13 (by decide) rfl, canon_skip_row 0 13 (by decide) rfl]
      rw [View.canon_unit_zero zeros2, resetPay_apply])
  · exact piece_ok (k0_pay5 xP xJ) (k0_pay6 xL) (fun _ => Spec.ninf) 12 (by decide) inb_S16x2048_S1x2048_12_0 (fun old => k0_pay21 (k0_pay5 xP xJ) (k0_pay6 xL) old) (row12_apply (k0_pay5 xP xJ) (k0_pay6 xL)) _ (fun q => by
      rw [View.readCov_eq_canon']
      refine (congrArg (View.canon _) (rowRect_emb 12 (by decide) inb_S16x2048_S1x2048_12_0 0 q)).trans ?_
      rw [canon_skip_row 11 12 (by decide) rfl, canon_skip_row 10 12 (by decide) rfl, canon_skip_row 9 12 (by decide) rfl, canon_skip_row 8 12 (by decide) rfl, canon_skip_row 7 12 (by decide) rfl, canon_skip_row 6 12 (by decide) rfl, canon_skip_row 5 12 (by decide) rfl, canon_skip_row 4 12 (by decide) rfl, canon_skip_row 3 12 (by decide) rfl, canon_skip_row 2 12 (by decide) rfl, canon_skip_row 1 12 (by decide) rfl, canon_skip_row 0 12 (by decide) rfl]
      rw [View.canon_unit_zero zeros2, resetPay_apply])
  · exact piece_ok (k0_pay5 xP xJ) (k0_pay6 xL) (fun _ => Spec.ninf) 11 (by decide) inb_S16x2048_S1x2048_11_0 (fun old => k0_pay20 (k0_pay5 xP xJ) (k0_pay6 xL) old) (row11_apply (k0_pay5 xP xJ) (k0_pay6 xL)) _ (fun q => by
      rw [View.readCov_eq_canon']
      refine (congrArg (View.canon _) (rowRect_emb 11 (by decide) inb_S16x2048_S1x2048_11_0 0 q)).trans ?_
      rw [canon_skip_row 10 11 (by decide) rfl, canon_skip_row 9 11 (by decide) rfl, canon_skip_row 8 11 (by decide) rfl, canon_skip_row 7 11 (by decide) rfl, canon_skip_row 6 11 (by decide) rfl, canon_skip_row 5 11 (by decide) rfl, canon_skip_row 4 11 (by decide) rfl, canon_skip_row 3 11 (by decide) rfl, canon_skip_row 2 11 (by decide) rfl, canon_skip_row 1 11 (by decide) rfl, canon_skip_row 0 11 (by decide) rfl]
      rw [View.canon_unit_zero zeros2, resetPay_apply])
  · exact piece_ok (k0_pay5 xP xJ) (k0_pay6 xL) (fun _ => Spec.ninf) 10 (by decide) inb_S16x2048_S1x2048_10_0 (fun old => k0_pay19 (k0_pay5 xP xJ) (k0_pay6 xL) old) (row10_apply (k0_pay5 xP xJ) (k0_pay6 xL)) _ (fun q => by
      rw [View.readCov_eq_canon']
      refine (congrArg (View.canon _) (rowRect_emb 10 (by decide) inb_S16x2048_S1x2048_10_0 0 q)).trans ?_
      rw [canon_skip_row 9 10 (by decide) rfl, canon_skip_row 8 10 (by decide) rfl, canon_skip_row 7 10 (by decide) rfl, canon_skip_row 6 10 (by decide) rfl, canon_skip_row 5 10 (by decide) rfl, canon_skip_row 4 10 (by decide) rfl, canon_skip_row 3 10 (by decide) rfl, canon_skip_row 2 10 (by decide) rfl, canon_skip_row 1 10 (by decide) rfl, canon_skip_row 0 10 (by decide) rfl]
      rw [View.canon_unit_zero zeros2, resetPay_apply])
  · exact piece_ok (k0_pay5 xP xJ) (k0_pay6 xL) (fun _ => Spec.ninf) 9 (by decide) inb_S16x2048_S1x2048_9_0 (fun old => k0_pay18 (k0_pay5 xP xJ) (k0_pay6 xL) old) (row9_apply (k0_pay5 xP xJ) (k0_pay6 xL)) _ (fun q => by
      rw [View.readCov_eq_canon']
      refine (congrArg (View.canon _) (rowRect_emb 9 (by decide) inb_S16x2048_S1x2048_9_0 0 q)).trans ?_
      rw [canon_skip_row 8 9 (by decide) rfl, canon_skip_row 7 9 (by decide) rfl, canon_skip_row 6 9 (by decide) rfl, canon_skip_row 5 9 (by decide) rfl, canon_skip_row 4 9 (by decide) rfl, canon_skip_row 3 9 (by decide) rfl, canon_skip_row 2 9 (by decide) rfl, canon_skip_row 1 9 (by decide) rfl, canon_skip_row 0 9 (by decide) rfl]
      rw [View.canon_unit_zero zeros2, resetPay_apply])
  · exact piece_ok (k0_pay5 xP xJ) (k0_pay6 xL) (fun _ => Spec.ninf) 8 (by decide) inb_S16x2048_S1x2048_8_0 (fun old => k0_pay17 (k0_pay5 xP xJ) (k0_pay6 xL) old) (row8_apply (k0_pay5 xP xJ) (k0_pay6 xL)) _ (fun q => by
      rw [View.readCov_eq_canon']
      refine (congrArg (View.canon _) (rowRect_emb 8 (by decide) inb_S16x2048_S1x2048_8_0 0 q)).trans ?_
      rw [canon_skip_row 7 8 (by decide) rfl, canon_skip_row 6 8 (by decide) rfl, canon_skip_row 5 8 (by decide) rfl, canon_skip_row 4 8 (by decide) rfl, canon_skip_row 3 8 (by decide) rfl, canon_skip_row 2 8 (by decide) rfl, canon_skip_row 1 8 (by decide) rfl, canon_skip_row 0 8 (by decide) rfl]
      rw [View.canon_unit_zero zeros2, resetPay_apply])
  · exact piece_ok (k0_pay5 xP xJ) (k0_pay6 xL) (fun _ => Spec.ninf) 7 (by decide) inb_S16x2048_S1x2048_7_0 (fun old => k0_pay16 (k0_pay15 (k0_pay5 xP xJ) (k0_pay6 xL) old)) (row7_apply (k0_pay5 xP xJ) (k0_pay6 xL)) _ (fun q => by
      rw [View.readCov_eq_canon']
      refine (congrArg (View.canon _) (rowRect_emb 7 (by decide) inb_S16x2048_S1x2048_7_0 0 q)).trans ?_
      rw [canon_skip_row 6 7 (by decide) rfl, canon_skip_row 5 7 (by decide) rfl, canon_skip_row 4 7 (by decide) rfl, canon_skip_row 3 7 (by decide) rfl, canon_skip_row 2 7 (by decide) rfl, canon_skip_row 1 7 (by decide) rfl, canon_skip_row 0 7 (by decide) rfl]
      rw [View.canon_unit_zero zeros2, resetPay_apply])
  · exact piece_ok (k0_pay5 xP xJ) (k0_pay6 xL) (fun _ => Spec.ninf) 6 (by decide) inb_S16x2048_S1x2048_6_0 (fun old => k0_pay14 (k0_pay5 xP xJ) (k0_pay6 xL) old) (row6_apply (k0_pay5 xP xJ) (k0_pay6 xL)) _ (fun q => by
      rw [View.readCov_eq_canon']
      refine (congrArg (View.canon _) (rowRect_emb 6 (by decide) inb_S16x2048_S1x2048_6_0 0 q)).trans ?_
      rw [canon_skip_row 5 6 (by decide) rfl, canon_skip_row 4 6 (by decide) rfl, canon_skip_row 3 6 (by decide) rfl, canon_skip_row 2 6 (by decide) rfl, canon_skip_row 1 6 (by decide) rfl, canon_skip_row 0 6 (by decide) rfl]
      rw [View.canon_unit_zero zeros2, resetPay_apply])
  · exact piece_ok (k0_pay5 xP xJ) (k0_pay6 xL) (fun _ => Spec.ninf) 5 (by decide) inb_S16x2048_S1x2048_5_0 (fun old => k0_pay13 (k0_pay5 xP xJ) (k0_pay6 xL) old) (row5_apply (k0_pay5 xP xJ) (k0_pay6 xL)) _ (fun q => by
      rw [View.readCov_eq_canon']
      refine (congrArg (View.canon _) (rowRect_emb 5 (by decide) inb_S16x2048_S1x2048_5_0 0 q)).trans ?_
      rw [canon_skip_row 4 5 (by decide) rfl, canon_skip_row 3 5 (by decide) rfl, canon_skip_row 2 5 (by decide) rfl, canon_skip_row 1 5 (by decide) rfl, canon_skip_row 0 5 (by decide) rfl]
      rw [View.canon_unit_zero zeros2, resetPay_apply])
  · exact piece_ok (k0_pay5 xP xJ) (k0_pay6 xL) (fun _ => Spec.ninf) 4 (by decide) inb_S16x2048_S1x2048_4_0 (fun old => k0_pay12 (k0_pay11 (k0_pay5 xP xJ) (k0_pay6 xL)) old) (row4_apply (k0_pay5 xP xJ) (k0_pay6 xL)) _ (fun q => by
      rw [View.readCov_eq_canon']
      refine (congrArg (View.canon _) (rowRect_emb 4 (by decide) inb_S16x2048_S1x2048_4_0 0 q)).trans ?_
      rw [canon_skip_row 3 4 (by decide) rfl, canon_skip_row 2 4 (by decide) rfl, canon_skip_row 1 4 (by decide) rfl, canon_skip_row 0 4 (by decide) rfl]
      rw [View.canon_unit_zero zeros2, resetPay_apply])
  · exact piece_ok (k0_pay5 xP xJ) (k0_pay6 xL) (fun _ => Spec.ninf) 3 (by decide) inb_S16x2048_S1x2048_3_0 (fun old => k0_pay10 (k0_pay5 xP xJ) (k0_pay6 xL) old) (row3_apply (k0_pay5 xP xJ) (k0_pay6 xL)) _ (fun q => by
      rw [View.readCov_eq_canon']
      refine (congrArg (View.canon _) (rowRect_emb 3 (by decide) inb_S16x2048_S1x2048_3_0 0 q)).trans ?_
      rw [canon_skip_row 2 3 (by decide) rfl, canon_skip_row 1 3 (by decide) rfl, canon_skip_row 0 3 (by decide) rfl]
      rw [View.canon_unit_zero zeros2, resetPay_apply])
  · exact piece_ok (k0_pay5 xP xJ) (k0_pay6 xL) (fun _ => Spec.ninf) 2 (by decide) inb_S16x2048_S1x2048_2_0 (fun old => k0_pay9 (k0_pay5 xP xJ) (k0_pay6 xL) old) (row2_apply (k0_pay5 xP xJ) (k0_pay6 xL)) _ (fun q => by
      rw [View.readCov_eq_canon']
      refine (congrArg (View.canon _) (rowRect_emb 2 (by decide) inb_S16x2048_S1x2048_2_0 0 q)).trans ?_
      rw [canon_skip_row 1 2 (by decide) rfl, canon_skip_row 0 2 (by decide) rfl]
      rw [View.canon_unit_zero zeros2, resetPay_apply])
  · exact piece_ok (k0_pay5 xP xJ) (k0_pay6 xL) (fun _ => Spec.ninf) 1 (by decide) inb_S16x2048_S1x2048_1_0 (fun old => k0_pay8 (k0_pay5 xP xJ) (k0_pay6 xL) old) (row1_apply (k0_pay5 xP xJ) (k0_pay6 xL)) _ (fun q => by
      rw [View.readCov_eq_canon']
      refine (congrArg (View.canon _) (rowRect_emb 1 (by decide) inb_S16x2048_S1x2048_1_0 0 q)).trans ?_
      rw [canon_skip_row 0 1 (by decide) rfl]
      rw [View.canon_unit_zero zeros2, resetPay_apply])
  · exact piece_ok (k0_pay5 xP xJ) (k0_pay6 xL) (fun _ => Spec.ninf) 0 (by decide) inb_S16x2048_S1x2048_0_0 (fun old => k0_pay7 xP xJ xL old) (row0_apply xP xJ xL) _ (fun q => by
      rw [View.readCov_eq_canon']
      refine (congrArg (View.canon _) (rowRect_emb 0 (by decide) inb_S16x2048_S1x2048_0_0 0 q)).trans ?_

      rw [View.canon_unit_zero zeros2, resetPay_apply])

end Cert.KernelIdeal.HandValue

end
-- ==== Proof.KI.ValueTiles.lean ====
/-
  Columns in tiles. The kernel sweeps the 2048 key columns in four tiles of 512; a running maximum
  that has absorbed the tiles below `j` is the maximum over the columns below `512·j`, and after
  the last tile it is the maximum over all columns.
-/
import Mathlib.Data.Finset.Fold
import Mathlib.Data.Fintype.Basic
import Mathlib.Order.Lattice
import Mathlib.Data.Finset.Lattice.Fold
import Mathlib.Tactic

namespace Cert.KernelIdeal.HandValue

/-- Column `jj` of tile `j`, as a column of the whole row. -/
def tileCol (j : ℕ) (hj : j < 4) (jj : Fin 512) : Fin 2048 := ⟨512 * j + jj.val, by omega⟩

/-- The columns below `n`. -/
def upTo (n : ℕ) : Finset (Fin 2048) := Finset.univ.filter (fun col => col.val < n)

theorem tileCol_injective (j : ℕ) (hj : j < 4) : Function.Injective (tileCol j hj) := fun a b h => by
  have h' := congrArg Fin.val h
  simp only [tileCol] at h'
  exact Fin.ext (by omega)

/-- The columns below `512·(j+1)` are the columns below `512·j` and the columns of tile `j`. -/
theorem upTo_succ (j : ℕ) (hj : j < 4) :
    upTo (512 * (j + 1)) = upTo (512 * j) ∪ Finset.univ.map ⟨tileCol j hj, tileCol_injective j hj⟩ := by
  ext col
  simp only [upTo, Finset.mem_filter, Finset.mem_univ, true_and, Finset.mem_union, Finset.mem_map, Function.Embedding.coeFn_mk]
  constructor
  · intro h
    by_cases h' : col.val < 512 * j
    · exact Or.inl h'
    · refine Or.inr ⟨⟨col.val - 512 * j, by omega⟩, ?_⟩
      apply Fin.ext
      simp only [tileCol]
      omega
  · rintro (h | ⟨jj, rfl⟩)
    · omega
    · simp only [tileCol]
      have := jj.isLt
      omega

/-- No column of tile `j` lies below `512·j`. -/
theorem upTo_disjoint (j : ℕ) (hj : j < 4) :
    Disjoint (upTo (512 * j)) (Finset.univ.map ⟨tileCol j hj, tileCol_injective j hj⟩) := by
  rw [Finset.disjoint_left]
  intro col h1 h2
  simp only [upTo, Finset.mem_filter, Finset.mem_univ, true_and] at h1
  obtain ⟨jj, -, rfl⟩ := Finset.mem_map.mp h2
  simp only [Function.Embedding.coeFn_mk, tileCol] at h1
  omega

/-- Before any tile the running maximum is its starting value. -/
theorem fold_upTo_zero {β : Type*} [LinearOrder β] (z : β) (f : Fin 2048 → β) : (upTo 0).fold max z f = z := by
  have h : upTo 0 = ∅ := by
    unfold upTo
    ext col
    simp
  rw [h, Finset.fold_empty]

/-- Absorbing tile `j` into a running maximum over the columns below `512·j` gives the maximum over the columns
    below `512·(j+1)`. -/
theorem fold_upTo_tile {β : Type*} [LinearOrder β] (z : β) (f : Fin 2048 → β) (j : ℕ) (hj : j < 4) :
    max ((upTo (512 * j)).fold max z f) ((Finset.univ : Finset (Fin 512)).fold max z (fun jj => f (tileCol j hj jj)))
      = (upTo (512 * (j + 1))).fold max z f := by
  rw [upTo_succ j hj]
  have h := Finset.fold_union_inter (op := max) (f := f) (s₁ := upTo (512 * j))
    (s₂ := Finset.univ.map ⟨tileCol j hj, tileCol_injective j hj⟩) (b₁ := z) (b₂ := z)
  rw [Finset.disjoint_iff_inter_eq_empty.mp (upTo_disjoint j hj), Finset.fold_empty, Finset.fold_map] at h
  have hz : z ≤ (upTo (512 * j) ∪ Finset.univ.map ⟨tileCol j hj, tileCol_injective j hj⟩).fold max z f :=
    (Finset.le_fold_max z).mpr (Or.inl le_rfl)
  rw [max_eq_left hz] at h
  exact h.symm

/-- After the fourth tile every column has been absorbed. -/
theorem upTo_all : upTo 2048 = Finset.univ := by
  unfold upTo
  ext col
  simp [col.isLt]

end Cert.KernelIdeal.HandValue
-- ==== Proof.KI.ValueBlocks.lean ====
/-
  The input blocks read at their coordinates.

  The grid has sixteen points; point t works on batch row t / 4 and key tile t % 4. Each of the four input windows stages, at
  point t, one block of its array: the whole 3 × 2048 point set of the batch row; the 3 × 512 tile of it whose columns
  are 512 (t % 4) … 512 (t % 4) + 511; the 16 × 512 tile of the batch row's masks over the same columns; and the batch row's
  sixteen activity flags. An entry of a block sits in the array, on each axis, at the block index times the block size
  plus the coordinate inside the block; the block indices are read off the index maps once, over the sixteen points.
-/
import proofs.«107422_j42563125903952_1_alg».proof.Proof.KI.Setup
import proofs.«107422_j42563125903952_1_alg».proof.Proof.KI.ValueTiles
import Idealize.ShloMosaic.Lib.Pipeline.Value
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-- the batch row of a point is one of the four -/
theorem hb (t : Fin cfg0.N) : t.val / 4 < 4 := by
  have := t.isLt; have : cfg0.N = 16 := N_0; omega

/-! ## The block indices over the sixteen points -/

/-- The whole point set of the batch row: block (t / 4, 0, 0). -/
theorem index_pts : ∀ t : Fin cfg0.N, win0_0.index t (0 : Fin 3) = t.val / 4 ∧ win0_0.index t (1 : Fin 3) = 0
    ∧ win0_0.index t (2 : Fin 3) = 0 :=
  (by decide +kernel : ∀ t : Fin grid0.N, _)

/-- The key tile of the point set: block (t / 4, 0, t % 4). -/
theorem index_ptsTile : ∀ t : Fin cfg0.N, win0_1.index t (0 : Fin 3) = t.val / 4 ∧ win0_1.index t (1 : Fin 3) = 0
    ∧ win0_1.index t (2 : Fin 3) = t.val % 4 :=
  (by decide +kernel : ∀ t : Fin grid0.N, _)

/-- The key tile of the masks: block (t / 4, 0, t % 4). -/
theorem index_masks : ∀ t : Fin cfg0.N, win0_2.index t (0 : Fin 3) = t.val / 4 ∧ win0_2.index t (1 : Fin 3) = 0
    ∧ win0_2.index t (2 : Fin 3) = t.val % 4 :=
  (by decide +kernel : ∀ t : Fin grid0.N, _)

/-- The activity flags of the batch row: block (t / 4, 0, 0). -/
theorem index_flags : ∀ t : Fin cfg0.N, win0_3.index t (0 : Fin 3) = t.val / 4 ∧ win0_3.index t (1 : Fin 3) = 0
    ∧ win0_3.index t (2 : Fin 3) = 0 :=
  (by decide +kernel : ∀ t : Fin grid0.N, _)

variable (m : (ℓ : Loc nD τ sig) → Buf (Elt Ideal) ℓ)

/-! ## The blocks -/

/-- The point set's block at point t: coordinate k of point i of batch row t / 4. -/
theorem iblk0_apply (c : Dev nD) (t : Fin cfg0.N) (k : Fin 3) (i : Fin 2048) :
    Hand.iblk (F := Ideal) m c 0 t (ValueIdx.ix3 (0 : Fin 1) k i) = Hand.V m c main_arg2 (ValueIdx.ix3 (⟨t.val / 4, hb t⟩ : Fin 4) k i) := by
  obtain ⟨e0, e1, e2⟩ := index_pts t
  unfold Hand.iblk
  rw [View.read_apply]
  show Hand.V m c main_arg2 _ = Hand.V m c main_arg2 _
  refine congrArg (Hand.V m c main_arg2) (funext fun a => Fin.ext ?_)
  match a with
  | ⟨0, _⟩ => show win0_0.index t (0 : Fin 3) * 1 + 1 * 0 = t.val / 4; omega
  | ⟨1, _⟩ => show win0_0.index t (1 : Fin 3) * 3 + 1 * k.val = k.val; omega
  | ⟨2, _⟩ => show win0_0.index t (2 : Fin 3) * 2048 + 1 * i.val = i.val; omega

/-- The key tile of the point set at point t: coordinate k of point 512 (t % 4) + jj of batch row t / 4. -/
theorem iblk1_apply (c : Dev nD) (t : Fin cfg0.N) (k : Fin 3) (jj : Fin 512) :
    Hand.iblk (F := Ideal) m c 1 t (ValueIdx.ix3 (0 : Fin 1) k jj) = Hand.V m c main_arg2 (ValueIdx.ix3 (⟨t.val / 4, hb t⟩ : Fin 4) k (tileCol (t.val % 4) (Nat.mod_lt _ (by decide)) jj)) := by
  obtain ⟨e0, e1, e2⟩ := index_ptsTile t
  unfold Hand.iblk
  rw [View.read_apply]
  show Hand.V m c main_arg2 _ = Hand.V m c main_arg2 _
  refine congrArg (Hand.V m c main_arg2) (funext fun a => Fin.ext ?_)
  match a with
  | ⟨0, _⟩ => show win0_1.index t (0 : Fin 3) * 1 + 1 * 0 = t.val / 4; omega
  | ⟨1, _⟩ => show win0_1.index t (1 : Fin 3) * 3 + 1 * k.val = k.val; omega
  | ⟨2, _⟩ => show win0_1.index t (2 : Fin 3) * 512 + 1 * jj.val = 512 * (t.val % 4) + jj.val; omega

/-- The masks' key tile at point t: mask g at point 512 (t % 4) + jj of batch row t / 4. -/
theorem iblk2_apply (c : Dev nD) (t : Fin cfg0.N) (g : Fin 16) (jj : Fin 512) :
    Hand.iblk (F := Ideal) m c 2 t (ValueIdx.ix3 (0 : Fin 1) g jj) = Hand.V m c main_arg3 (ValueIdx.ix3 (⟨t.val / 4, hb t⟩ : Fin 4) g (tileCol (t.val % 4) (Nat.mod_lt _ (by decide)) jj)) := by
  obtain ⟨e0, e1, e2⟩ := index_masks t
  unfold Hand.iblk
  rw [View.read_apply]
  show Hand.V m c main_arg3 _ = Hand.V m c main_arg3 _
  refine congrArg (Hand.V m c main_arg3) (funext fun a => Fin.ext ?_)
  match a with
  | ⟨0, _⟩ => show win0_2.index t (0 : Fin 3) * 1 + 1 * 0 = t.val / 4; omega
  | ⟨1, _⟩ => show win0_2.index t (1 : Fin 3) * 16 + 1 * g.val = g.val; omega
  | ⟨2, _⟩ => show win0_2.index t (2 : Fin 3) * 512 + 1 * jj.val = 512 * (t.val % 4) + jj.val; omega

/-- The flags' block at point t: the activity flag of mask g of batch row t / 4. -/
theorem iblk3_apply (c : Dev nD) (t : Fin cfg0.N) (g : Fin 16) :
    Hand.iblk (F := Ideal) m c 3 t (ValueIdx.ix3 (0 : Fin 1) (0 : Fin 1) g) = Hand.V m c main_v11 (ValueIdx.ix3 (⟨t.val / 4, hb t⟩ : Fin 4) (0 : Fin 1) g) := by
  obtain ⟨e0, e1, e2⟩ := index_flags t
  unfold Hand.iblk
  rw [View.read_apply]
  show Hand.V m c main_v11 _ = Hand.V m c main_v11 _
  refine congrArg (Hand.V m c main_v11) (funext fun a => Fin.ext ?_)
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 16 + 1 * g.val = g.val; omega

end Cert.KernelIdeal.HandValue

end
-- ==== Proof.KI.ValueFold.lean ====
import proofs.«107422_j42563125903952_1_alg».proof.Proof.KI.ValueFoldCase
import proofs.«107422_j42563125903952_1_alg».proof.Proof.KI.ValueEmitCase
import proofs.«107422_j42563125903952_1_alg».proof.Proof.KI.ValueResetCase
import proofs.«107422_j42563125903952_1_alg».proof.Proof.KI.ValueBlocks
import proofs.«107422_j42563125903952_1_alg».proof.Proof.KI.ValueTiles

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The arrays the region finds, by coordinates -/

/-- the points: batch row, coordinate, point -/
abbrev pointsArr : Fin 4 → Fin 3 → Fin 2048 → EReal := fun b k i => Hand.V m c main_arg2 (ix3 b k i)
/-- the label masks: batch row, group, point -/
abbrev labelsArr : Fin 4 → Fin 16 → Fin 2048 → EReal := fun b g j => Hand.V m c main_arg3 (ix3 b g j)
/-- the groups' activity flags: batch row, group -/
abbrev activeArr : Fin 4 → Fin 16 → EReal := fun b g => Hand.V m c main_v11 (ix3 b (0 : Fin 1) g)

/-- The squared distance from point `i` to point `col` of batch row `b`, weighted by group `g`'s label at `col`: what the
    running maximum of group `g` at point `i` ranges over. -/
abbrev weighted (b : Fin 4) (g : Fin 16) (i : Fin 2048) (col : Fin 2048) : EReal :=
  Spec.d (pointsArr m c) b i col * labelsArr m c b g col

/-! ## A grid point's tile, read at array coordinates

Point `t` works on batch row `t / 4` and on the key tile `t % 4`, whose column `jj` is column `512 · (t % 4) + jj`. -/

theorem tileAt (t : Fin cfg0.N) (i : Fin 2048) (jj : Fin 512) :
    k0_pay5 (F := Ideal) (Hand.iblk m c 0 t) (Hand.iblk m c 1 t) (ix2 i jj)
      = Spec.d (pointsArr m c) ⟨t.val / 4, hb t⟩ i (tileCol (t.val % 4) (Nat.mod_lt _ (by decide)) jj) := by
  refine (tile_apply _ _ i jj).trans ?_
  simp only [iblk0_apply, iblk1_apply]
  rfl

theorem labAt (t : Fin cfg0.N) (g : Fin 16) (jj : Fin 512) :
    k0_pay6 (F := Ideal) (Hand.iblk m c 2 t) (ix2 g jj)
      = labelsArr m c ⟨t.val / 4, hb t⟩ g (tileCol (t.val % 4) (Nat.mod_lt _ (by decide)) jj) :=
  (labTile_apply _ g jj).trans (iblk2_apply m c t g jj)

/-- The row update at point `t = 4 b + j`: the old value against the largest weighted distance over key tile `j`. -/
theorem rowNew_at (t : Fin cfg0.N) (b j : ℕ) (hb' : b < 4) (hj : j < 4) (ht : t.val = 4 * b + j)
    (g : Fin 16) (old : EReal) (i : Fin 2048) :
    rowNew (k0_pay5 (F := Ideal) (Hand.iblk m c 0 t) (Hand.iblk m c 1 t)) (k0_pay6 (F := Ideal) (Hand.iblk m c 2 t)) g old i
      = max old ((Finset.univ : Finset (Fin 512)).fold max Spec.ninf (fun jj => weighted m c ⟨b, hb'⟩ g i (tileCol j hj jj))) := by
  have e1 : (⟨t.val / 4, hb t⟩ : Fin 4) = ⟨b, hb'⟩ := Fin.ext (by show t.val / 4 = b; omega)
  have e2 : ∀ jj, tileCol (t.val % 4) (Nat.mod_lt _ (by decide)) jj = tileCol j hj jj := fun jj =>
    Fin.ext (by show 512 * (t.val % 4) + jj.val = 512 * j + jj.val; have : t.val % 4 = j := by omega
                rw [this])
  unfold rowNew
  refine congrArg (max old) (Finset.fold_congr fun jj _ => ?_)
  rw [tileAt, labAt, e1, e2]

theorem carried_congr (n n' : ℕ) (h : n = n') (hn : n < cfg0.N) (hn' : n' < cfg0.N) :
    Hand.carried m c n hn = Hand.carried m c n' hn' := by
  subst h; rfl

/-! ## The running maxima after each point of a batch row -/

/-- THE INVARIANT. After key tile `j` of batch row `b` (grid point `4 b + j`) the running maximum of group `g` at point `i` is
    the largest weighted distance over the columns below `512 (j + 1)`, from `-∞`: by induction on the tile — the first
    tile starts from `-∞`, each later one from what the tile before left. -/
theorem acc_inv (b : ℕ) (hb' : b < 4) : ∀ (j : ℕ) (hj : j < 4) (hn : 4 * b + j < cfg0.N) (g : Fin 16) (i : Fin 2048),
    (Hand.carried m c (4 * b + j) hn).2 (ix2 g i)
      = (upTo (512 * (j + 1))).fold max Spec.ninf (weighted m c ⟨b, hb'⟩ g i)
  | 0, hj, hn, g, i => by
    have h0 : (⟨4 * b + 0, hn⟩ : Fin cfg0.N).val % 4 = 0 := by show (4 * b + 0) % 4 = 0; omega
    rw [Hand.carried_reset_acc m c ⟨4 * b + 0, hn⟩ h0, accReset_apply]
    show rowNew _ _ g Spec.ninf i = _
    rw [rowNew_at m c ⟨4 * b + 0, hn⟩ b 0 hb' hj rfl, ← fold_upTo_tile Spec.ninf (weighted m c ⟨b, hb'⟩ g i) 0 hj]
    rw [show 512 * 0 = 0 from rfl, fold_upTo_zero]
  | j + 1, hj, hn, g, i => by
    have hN : cfg0.N = 16 := N_0
    have h0 : ¬(⟨4 * b + (j + 1), hn⟩ : Fin cfg0.N).val % 4 = 0 := by show ¬(4 * b + (j + 1)) % 4 = 0; omega
    have ih := acc_inv b hb' j (by omega) (by omega) g i
    by_cases h3 : (⟨4 * b + (j + 1), hn⟩ : Fin cfg0.N).val % 4 = 3
    · rw [Hand.carried_emit_acc m c ⟨4 * b + (j + 1), hn⟩ h3, accEmit_apply]
      show rowNew _ _ g ((Hand.carried m c (4 * b + j) _).2 (ix2 g i)) i = _
      rw [ih, rowNew_at m c ⟨4 * b + (j + 1), hn⟩ b (j + 1) hb' hj rfl]
      exact fold_upTo_tile Spec.ninf (weighted m c ⟨b, hb'⟩ g i) (j + 1) hj
    · rw [Hand.carried_fold_acc m c ⟨4 * b + (j + 1), hn⟩ h0 h3, accFold_apply]
      show rowNew _ _ g ((Hand.carried m c (4 * b + j) _).2 (ix2 g i)) i = _
      rw [ih, rowNew_at m c ⟨4 * b + (j + 1), hn⟩ b (j + 1) hb' hj rfl]
      exact fold_upTo_tile Spec.ninf (weighted m c ⟨b, hb'⟩ g i) (j + 1) hj

/-! ## What a last key tile emits -/

/-- THE EMITTED BLOCK. At the last key tile of batch row `b = t / 4` the distances' staging buffer holds, at point `i`, the
    specified distance of batch row `b`: the running maxima are by then the maxima over all 2048 columns. -/
theorem emitted (t : Fin cfg0.N) (h3 : t.val % 4 = 3) (i : Fin 2048) :
    (Hand.carried (F := Ideal) m c t.val t.isLt).1 (ix3 (0 : Fin 1) (0 : Fin 1) i)
      = Cert.Spec.dist (fun b c' i => Hand.V m c main_arg2 (ix3 b c' i)) (fun b g j => Hand.V m c main_arg3 (ix3 b g j))
          (fun b g => Hand.V m c main_v11 (ix3 b (0 : Fin 1) g))
          ⟨t.val / 4, by have := t.isLt; have : cfg0.N = 16 := N_0; omega⟩ i := by
  have hN : cfg0.N = 16 := N_0
  have hlt := t.isLt
  have hb' : t.val / 4 < 4 := by omega
  have ht : t.val = 4 * (t.val / 4) + 3 := by omega
  have hn' : 4 * (t.val / 4) + 3 < cfg0.N := by omega
  rw [Hand.carried_emit_dist m c t h3, distEmit_apply]
  unfold Cert.Spec.dist
  refine Finset.fold_congr fun g _ => ?_
  refine congrArg₂ Ideal.div (congrArg (· + Spec.e4) ?_) (congrArg (· + Spec.e8) ?_)
  · rw [← Hand.carried_emit_acc m c t h3, carried_congr m c t.val _ ht t.isLt hn',
      acc_inv m c (t.val / 4) hb' 3 (by decide) hn' g i]
    show (upTo 2048).fold max Spec.ninf _ = _
    rw [upTo_all]
    rfl
  · exact iblk3_apply m c t g

end Cert.KernelIdeal.HandValue

end
-- ==== Proof.Ref.Dist.lean ====
/-
  The reference's distance stage, read at coordinates.

  The reference builds the squared pairwise distances of a batch's points from the points' squared norms and their
  inner products, weights them by each label mask, takes the maximum over the second point, shifts and divides by
  the mask's shifted activity flag, and takes the minimum over the masks. Each stage is read at one index from its
  operands at one index; the two order reductions are read as folds of `max` / `min` over the reduced axis. The
  composition is the specification's `dist` of the coordinate functions of the two argument arrays.
-/
import proofs.«107422_j42563125903952_1_alg».proof.Proof.Ref.Stage
import proofs.«107422_j42563125903952_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The squared norm of point `i`: the host sum over the three coordinates from a zero start. -/
theorem sq_at (p : FVec Ideal S4x3x2048 .f32) (b : Fin 4) (i : Fin 2048) :
    val_main_v8 (F := Ideal) p (ix2 b i) = Cert.Spec.sq (fun b c i => p (ix3 b c i)) b i := by
  rw [val_main_v8_apply]
  have e : ∀ k : Fin 3, idx_main_v8 (ix2 b i) k = ix3 b k i := fun k => funext fun a => Fin.ext (by
    match a with | ⟨0, _⟩ => rfl | ⟨1, _⟩ => rfl | ⟨2, _⟩ => rfl)
  simp only [e, val_main_v7_apply, val_main_cst_0_apply, Ideal.ofBits_def, Ideal.mulf_def, Ideal.ofBits_zero_f32, zero_add]
  rfl

/-- The inner product of points `i` and `j`: the contraction over the three coordinates. -/
theorem inner_at (p : FVec Ideal S4x3x2048 .f32) (b : Fin 4) (i j : Fin 2048) :
    val_main_v9 (F := Ideal) p (ix3 b i j) = Cert.Spec.inner (fun b c i => p (ix3 b c i)) b i j := by
  rw [val_main_v9_apply]
  have el : ∀ k : Fin 3, lidx_main_v9 (ix3 b i j) k = ix3 b k i := fun k => funext fun a => Fin.ext (by
    match a with | ⟨0, _⟩ => rfl | ⟨1, _⟩ => rfl | ⟨2, _⟩ => rfl)
  have er : ∀ k : Fin 3, ridx_main_v9 (ix3 b i j) k = ix3 b k j := fun k => funext fun a => Fin.ext (by
    match a with | ⟨0, _⟩ => rfl | ⟨1, _⟩ => rfl | ⟨2, _⟩ => rfl)
  simp only [el, er]
  rfl

/-- The squared distance between points `i` and `j`: the two norms broadcast along rows and columns, minus twice the
    inner product. -/
theorem d_at (p : FVec Ideal S4x3x2048 .f32) (b : Fin 4) (i j : Fin 2048) :
    val_main_v17 (F := Ideal) p (ix3 b i j) = Cert.Spec.d (fun b c i => p (ix3 b c i)) b i j := by
  rw [val_main_v17_apply, val_main_v14_apply, val_main_v16_apply, val_main_v12_apply, val_main_v13_apply,
    val_main_v10_apply, val_main_v11_apply, val_main_v15_apply, val_main_cst_1_apply]
  have e1 : idx_main_v10 (idx_main_v12 (ix3 b i j)) = ix2 b i := funext fun a => Fin.ext (by
    match a with | ⟨0, _⟩ => rfl | ⟨1, _⟩ => rfl)
  have e2 : idx_main_v11 (idx_main_v13 (ix3 b i j)) = ix2 b j := funext fun a => Fin.ext (by
    match a with | ⟨0, _⟩ => rfl | ⟨1, _⟩ => rfl)
  rw [e1, e2, sq_at, sq_at, inner_at]
  rfl

/-- The distance weighted by mask `g`'s label at the second point. -/
theorem weighted_at (p : FVec Ideal S4x3x2048 .f32) (l : FVec Ideal S4x16x2048 .f32) (b : Fin 4) (g : Fin 16) (i j : Fin 2048) :
    val_main_v22 (F := Ideal) p l (ix4 b g i j) = Cert.Spec.d (fun b c i => p (ix3 b c i)) b i j * l (ix3 b g j) := by
  rw [val_main_v22_apply, val_main_v20_apply, val_main_v18_apply, val_main_v21_apply, val_main_v19_apply]
  have e1 : idx_main_v18 (idx_main_v20 (ix4 b g i j)) = ix3 b i j := funext fun a => Fin.ext (by
    match a with | ⟨0, _⟩ => rfl | ⟨1, _⟩ => rfl | ⟨2, _⟩ => rfl)
  have e2 : idx_main_v19 (idx_main_v21 (ix4 b g i j)) = ix3 b g j := funext fun a => Fin.ext (by
    match a with | ⟨0, _⟩ => rfl | ⟨1, _⟩ => rfl | ⟨2, _⟩ => rfl)
  rw [e1, e2, d_at]
  rfl

/-- Putting the second point `j` back on the reduced last axis of (b, g, i) gives (b, g, i, j). -/
theorem lift_last (h : S4x16x2048x2048.Reduces [3] S4x16x2048) (b : Fin 4) (g : Fin 16) (i : Fin 2048)
    (k : Fin (S4x16x2048x2048.size 3)) : h.lift (ix3 b g i) k = ix4 b g i (⟨k.val, k.isLt⟩ : Fin 2048) := by
  funext c; apply Fin.ext
  fin_cases c <;> rfl

/-- A maximum over the last axis of a (batch, mask, point, point) array, read at (b, g, i): the fold of `max`, from the
    initial value, over the last coordinate. -/
theorem max_last (y : FVec Ideal S4x16x2048x2048 .f32) (init : FVec Ideal S_ .f32) (b : Fin 4) (g : Fin 16) (i : Fin 2048) :
    Host.reduce FloatOps.maximumf y init reducesTo_S4x16x2048x2048_S4x16x2048_d3 h_S_ (ix3 b g i)
      = (Finset.univ : Finset (Fin 2048)).fold max (init (Shape.Idx.first h_S_)) (fun j => y (ix4 b g i j)) := by
  have hR : S4x16x2048x2048.Reduces [3] S4x16x2048 := by decide
  refine (Host.reduce_eq_fold_single FloatOps.maximumf y _ reducesTo_S4x16x2048x2048_S4x16x2048_d3 hR h_S_ (ix3 b g i)).trans ?_
  have hf : (y ∘ hR.lift (ix3 b g i)) = fun j : Fin 2048 => y (ix4 b g i j) :=
    funext fun k => congrArg y (lift_last hR b g i k)
  exact congrArg (fun f => Finset.fold max (init (Shape.Idx.first h_S_)) f (Finset.univ : Finset (Fin 2048))) hf

/-- The maximum over the second point, from −∞, is the fold of `max` over that point's coordinate. -/
theorem far_at (p : FVec Ideal S4x3x2048 .f32) (l : FVec Ideal S4x16x2048 .f32) (b : Fin 4) (g : Fin 16) (i : Fin 2048) :
    val_main_v23 (F := Ideal) p l (ix3 b g i)
      = Cert.Spec.far (fun b c i => p (ix3 b c i)) (fun b g j => l (ix3 b g j)) b g i := by
  unfold val_main_v23
  refine (max_last (val_main_v22 (F := Ideal) p l) (val_main_cst_2 (F := Ideal)) b g i).trans ?_
  unfold Cert.Spec.far
  exact congrArg (fun f => Finset.fold max Cert.Spec.ninf f (Finset.univ : Finset (Fin 2048)))
    (funext fun j => weighted_at p l b g i j)

/-- The shifted maximum over the shifted activity flag. -/
theorem ratio_at (p : FVec Ideal S4x3x2048 .f32) (l : FVec Ideal S4x16x2048 .f32) (b : Fin 4) (g : Fin 16) (i : Fin 2048) :
    val_main_v34 (F := Ideal) p l (ix3 b g i)
      = Ideal.div (Cert.Spec.far (fun b c i => p (ix3 b c i)) (fun b g j => l (ix3 b g j)) b g i + Cert.Spec.e4)
          (refActive l b g + Cert.Spec.e8) := by
  rw [val_main_v34_apply, val_main_v30_apply, val_main_v33_apply, val_main_v32_apply, val_main_v29_apply,
    val_main_v31_apply, val_main_cst_5_apply, val_main_cst_6_apply, far_at]
  have e : idx_main_v33 (ix3 b g i) = ix3 b g (0 : Fin 1) := funext fun a => Fin.ext (by
    match a with | ⟨0, _⟩ => rfl | ⟨1, _⟩ => rfl | ⟨2, _⟩ => rfl)
  rw [e]
  rfl

/-- Putting mask `g` back on the reduced middle axis of (b, i) gives (b, g, i). -/
theorem lift_mid (h : S4x16x2048.Reduces [1] S4x2048) (b : Fin 4) (i : Fin 2048)
    (k : Fin (S4x16x2048.size 1)) : h.lift (ix2 b i) k = ix3 b (⟨k.val, k.isLt⟩ : Fin 16) i := by
  funext c; apply Fin.ext
  fin_cases c <;> rfl

/-- A minimum over the middle axis of a (batch, mask, point) array, read at (b, i): the fold of `min`, from the initial
    value, over the mask's coordinate. -/
theorem min_mid (y : FVec Ideal S4x16x2048 .f32) (init : FVec Ideal S_ .f32) (b : Fin 4) (i : Fin 2048) :
    Host.reduce FloatOps.minimumf y init reducesTo_S4x16x2048_S4x2048_d1 h_S_ (ix2 b i)
      = (Finset.univ : Finset (Fin 16)).fold min (init (Shape.Idx.first h_S_)) (fun g => y (ix3 b g i)) := by
  have hR : S4x16x2048.Reduces [1] S4x2048 := by decide
  refine (Host.reduce_eq_fold_single FloatOps.minimumf y _ reducesTo_S4x16x2048_S4x2048_d1 hR h_S_ (ix2 b i)).trans ?_
  have hf : (y ∘ hR.lift (ix2 b i)) = fun g : Fin 16 => y (ix3 b g i) :=
    funext fun k => congrArg y (lift_mid hR b i k)
  exact congrArg (fun f => Finset.fold min (init (Shape.Idx.first h_S_)) f (Finset.univ : Finset (Fin 16))) hf

/-- The reference's distance stage at (b, i) is the specification's `dist` of the arrays' coordinate functions: the
    minimum over the masks, from +∞, is the fold of `min` over the mask's coordinate. -/
theorem refDist_apply (p : FVec Ideal S4x3x2048 .f32) (l : FVec Ideal S4x16x2048 .f32) (b : Fin 4) (i : Fin 2048) :
    refDist p l (ix2 b i)
      = Cert.Spec.dist (fun b c i => p (ix3 b c i)) (fun b g j => l (ix3 b g j)) (refActive l) b i := by
  unfold refDist val_main_v35
  refine (min_mid (val_main_v34 (F := Ideal) p l) (val_main_cst_7 (F := Ideal)) b i).trans ?_
  unfold Cert.Spec.dist
  exact congrArg (fun f => Finset.fold min Cert.Spec.pinf f (Finset.univ : Finset (Fin 16)))
    (funext fun g => ratio_at p l b g i)

/-- The activity flag at coordinates: the comparison "the mask's labels sum to more than zero", as a float. -/
theorem refActive_eq (l : FVec Ideal S4x16x2048 .f32) (b : Fin 4) (g : Fin 16) :
    refActive l b g
      = FloatOps.uitofp (F := Ideal) .f32 (FloatOps.cmpf (F := Ideal) .ogt (∑ n : Fin 2048, l (ix3 b g n)) 0) := by
  unfold refActive
  rw [val_main_v28_apply, val_main_v27_apply, val_main_v25_apply, val_main_v26_apply, val_main_v24_apply,
    val_main_cst_3_apply, val_main_cst_4_apply]
  have e : ∀ k : Fin 2048, idx_main_v24 (idx_main_v25 (ix3 b g (0 : Fin 1))) k = ix3 b g k := fun k =>
    funext fun a => Fin.ext (by match a with | ⟨0, _⟩ => rfl | ⟨1, _⟩ => rfl | ⟨2, _⟩ => rfl)
  simp only [e, Ideal.ofBits_def, Ideal.ofBits_zero_f32, zero_add]

end Cert.ReferenceIdeal.RefValue

end
-- ==== Proof.KI.Results.lean ====
/-
  The output array is the reference's distance stage.

  Row b of the output array is written back once, at the last tile of batch b, with what the body
  computed from the running maxima: the specification's distance at (b, i). Reshaped to [4,2048]
  it is therefore, index by index, the reference's distance stage of the same points and labels —
  the two programs' activity flags being the same comparison read in two layouts.
-/
import proofs.«107422_j42563125903952_1_alg».proof.Proof.KI.Tail
import proofs.«107422_j42563125903952_1_alg».proof.Proof.KI.TailPlain
import proofs.«107422_j42563125903952_1_alg».proof.Proof.KI.Active
import proofs.«107422_j42563125903952_1_alg».proof.Proof.KI.ValueArray
import proofs.«107422_j42563125903952_1_alg».proof.Proof.KI.ValueFold
import proofs.«107422_j42563125903952_1_alg».proof.Proof.Ref.Dist

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The output array at (b, 0, i): the specification's distance of the arrays the region finds. -/
theorem dist_value (b : Fin 4) (i : Fin 2048) :
    (Hand.dats (F := Ideal) m 0 c).arrAt 4 cfg0.N (ix3 b (0 : Fin 1) i)
      = Cert.Spec.dist (fun b c' i => Hand.V m c main_arg2 (ix3 b c' i)) (fun b g j => Hand.V m c main_arg3 (ix3 b g j))
          (fun b g => Hand.V m c main_v11 (ix3 b (0 : Fin 1) g)) b i :=
  dist_value_of m c _ (fun t h3 i => emitted m c t h3 i) b i

/-- The points the region finds are the argument array: no host operation before the region writes it. -/
theorem points_eq : (fun (b : Fin 4) (c' : Fin 3) (i : Fin 2048) => Hand.V m c main_arg2 (ix3 b c' i))
    = fun b c' i => (m ((c.tc : Thread nD τ).loc main_arg2) : FVec Ideal S4x3x2048 .f32) (ix3 b c' i) := by
  funext b c' i
  exact congrFun (Hand.pre_arg2 (F := Ideal) (fun b => m (c, b))) _

/-- So are the labels. -/
theorem labels_eq : (fun (b : Fin 4) (g : Fin 16) (j : Fin 2048) => Hand.V m c main_arg3 (ix3 b g j))
    = fun b g j => (m ((c.tc : Thread nD τ).loc main_arg3) : FVec Ideal S4x16x2048 .f32) (ix3 b g j) := by
  funext b g j
  exact congrFun (Hand.pre_arg3 (F := Ideal) (fun b => m (c, b))) _

/-- The activity flags the region finds are the reference's. -/
theorem active_eq : (fun (b : Fin 4) (g : Fin 16) => Hand.V m c main_v11 (ix3 b (0 : Fin 1) g))
    = Cert.ReferenceIdeal.RefValue.refActive (m ((c.tc : Thread nD τ).loc main_arg3)) := by
  funext b g
  exact (active_at (fun b => m (c, b)) b g).trans (Cert.ReferenceIdeal.RefValue.refActive_eq _ b g).symm

/-- The reshaped output array IS the reference's distance stage of the same points and labels. -/
theorem outDist_eq :
    outDist m c = Cert.ReferenceIdeal.RefValue.refDist (m ((c.tc : Thread nD τ).loc main_arg2)) (m ((c.tc : Thread nD τ).loc main_arg3)) := by
  funext j
  obtain ⟨b, i, rfl⟩ : ∃ (b : Fin 4) (i : Fin 2048), j = ix2 b i := ⟨j 0, j 1, eq_ix2 j⟩
  show shapeCast S4x2048 ((Hand.dats (F := Ideal) m 0 c).arrAt 4 cfg0.N) shapeCasts_S4x1x2048_S4x2048 (ix2 b i) = _
  rw [shapeCast_apply _ shapeCasts_S4x1x2048_S4x2048 (ix2 b i) (ix3 b (0 : Fin 1) i) (by
    rw [Shape.rowMajor_val_three, Shape.rowMajor_val_two]
    show (b.val * 1 + 0) * 2048 + i.val = b.val * 2048 + i.val
    omega)]
  rw [dist_value, Cert.ReferenceIdeal.RefValue.refDist_apply, points_eq, labels_eq, active_eq]

/-- The idealized kernel program's run, with its three results named: each is the reference's tail function at the
    argument arrays and at the reference's distance stage of the points and labels; the arguments end unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = (Cert.ReferenceIdeal.RefValue.refTail (m ((c.tc : Thread nD τ).loc main_arg0)) (m ((c.tc : Thread nD τ).loc main_arg1)) (m ((c.tc : Thread nD τ).loc main_arg3)) (m ((c.tc : Thread nD τ).loc main_arg4)) (Cert.ReferenceIdeal.RefValue.refDist (m ((c.tc : Thread nD τ).loc main_arg2)) (m ((c.tc : Thread nD τ).loc main_arg3)))).1
      ∧ r.2.mem ((c.tc : Thread nD τ).loc main_v50) = (Cert.ReferenceIdeal.RefValue.refTail (m ((c.tc : Thread nD τ).loc main_arg0)) (m ((c.tc : Thread nD τ).loc main_arg1)) (m ((c.tc : Thread nD τ).loc main_arg3)) (m ((c.tc : Thread nD τ).loc main_arg4)) (Cert.ReferenceIdeal.RefValue.refDist (m ((c.tc : Thread nD τ).loc main_arg2)) (m ((c.tc : Thread nD τ).loc main_arg3)))).2.1
      ∧ r.2.mem ((c.tc : Thread nD τ).loc main_v46) = (Cert.ReferenceIdeal.RefValue.refTail (m ((c.tc : Thread nD τ).loc main_arg0)) (m ((c.tc : Thread nD τ).loc main_arg1)) (m ((c.tc : Thread nD τ).loc main_arg3)) (m ((c.tc : Thread nD τ).loc main_arg4)) (Cert.ReferenceIdeal.RefValue.refDist (m ((c.tc : Thread nD τ).loc main_arg2)) (m ((c.tc : Thread nD τ).loc main_arg3)))).2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h c main_v48 rfl).trans (tail_v48 m c _),
     (h c main_v50 rfl).trans ((tail_v50 m c).trans (by rw [outDist_eq])),
     (h c main_v46 rfl).trans (tail_v46 m c _),
     (h c main_arg0 rfl).trans ((Hand.tail_arg0 (Hand.V1 m c)).trans ((Hand.V1_of_ne m c main_arg0 (by decide)).trans (Hand.pre_arg0 (fun b => m (c, b))))),
     (h c main_arg1 rfl).trans ((Hand.tail_arg1 (Hand.V1 m c)).trans ((Hand.V1_of_ne m c main_arg1 (by decide)).trans (Hand.pre_arg1 (fun b => m (c, b))))),
     (h c main_arg2 rfl).trans ((Hand.tail_arg2 (Hand.V1 m c)).trans ((Hand.V1_of_ne m c main_arg2 (by decide)).trans (Hand.pre_arg2 (fun b => m (c, b))))),
     (h c main_arg3 rfl).trans ((Hand.tail_arg3 (Hand.V1 m c)).trans ((Hand.V1_of_ne m c main_arg3 (by decide)).trans (Hand.pre_arg3 (fun b => m (c, b))))),
     (h c main_arg4 rfl).trans ((Hand.tail_arg4 (Hand.V1 m c)).trans ((Hand.V1_of_ne m c main_arg4 (by decide)).trans (Hand.pre_arg4 (fun b => m (c, b)))))⟩)
    (Hand.run_main (F := Ideal) m ρ)

end Cert.KernelIdeal.HandValue

end
-- ==== Proof.Ref.RefRun.lean ====
/-
  The reference's run, stated over the cut at the distance stage.

  Every weakly fair execution of the reference terminates, faults nowhere, leaves the five argument arrays as they
  were, and leaves each of the three results at the tail function of the argument arrays and of the distance stage of
  the points and labels. Dropping the results gives the frame claim.
-/
import proofs.«107422_j42563125903952_1_alg».proof.Defs
import proofs.«107422_j42563125903952_1_alg».proof.Proof.Gen.Pre_finite_inputs
import proofs.«107422_j42563125903952_1_alg».proof.Proof.Ref.Stage

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

/-- The reference runs to the end with each result at the tail of the arguments and the distance stage, the arguments
    unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v70) = (refTail (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
          (refDist (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)))).1
        ∧ r.2.mem ((c.tc : Thread Cert.ReferenceIdeal.nD Cert.ReferenceIdeal.τ).loc Cert.ReferenceIdeal.main_v72) = (refTail (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
          (refDist (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)))).2.1
        ∧ r.2.mem ((c.tc : Thread Cert.ReferenceIdeal.nD Cert.ReferenceIdeal.τ).loc Cert.ReferenceIdeal.main_v68) = (refTail (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
          (refDist (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)))).2.2
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c =>
    ⟨(h c).1.trans (val_main_v70_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))),
     (h c).2.1.trans ((val_main_v72_eq (F := Ideal) m c).trans
       (radius_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))),
     (h c).2.2.1.trans (val_main_v68_eq (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))),
     (h c).2.2.2⟩)
    (Cert.ReferenceIdeal.ValueP.run (F := Ideal) m ρ)

/-- The reference runs to the end, faults nowhere and leaves its argument arrays unchanged: its run with the results
    dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

end Cert.ReferenceIdeal.RefValue

end
-- ==== Proof.lean ====
/-
  The distance kernel against its reference.

  Both programs compute, for every batch b and point i, the squared distance from i to the farthest
  point of each label mask (a maximum over the 2048 key points of d(i,j)·label(j)), shift and divide
  it by the mask's activity flag, and take the minimum over the sixteen masks; three scalar losses
  are then computed from that array of distances and the other arguments by the same host
  arithmetic in both programs. The kernel sweeps the key points in four tiles of 512, keeping a
  running maximum per mask in a scratch buffer that starts from -∞ at the first tile; a maximum
  taken tile by tile from the lattice's bottom is the maximum over all columns, so the array the
  kernel writes back is, index by index, the reference's distance stage. Nothing here needs the
  inputs to be finite: only associativity and commutativity of max are used, and both programs
  apply the same operations to the same numbers everywhere else.

  The frames: the kernel's two input windows on the point array share one buffer, split into a
  left and a right half for the region and joined afterwards; the body is run case by case (first
  tile, middle tiles, last tile) over the carried scratch. The word-level program's frame is the
  same text at the word-level instance. The reference has no kernel: its frame is its run with the
  results dropped. The idealization rewrote nothing, so there is nothing to preserve.
-/
import proofs.«107422_j42563125903952_1_alg».proof.Defs
import proofs.«107422_j42563125903952_1_alg».proof.Proof.Gen.Kernel
import proofs.«107422_j42563125903952_1_alg».proof.Proof.Gen.KernelIdeal
import proofs.«107422_j42563125903952_1_alg».proof.Proof.Gen.ReferenceIdeal
import proofs.«107422_j42563125903952_1_alg».proof.Proof.Gen.Pre_finite_inputs
import proofs.«107422_j42563125903952_1_alg».proof.Proof.K.Run
import proofs.«107422_j42563125903952_1_alg».proof.Proof.KI.Run
import proofs.«107422_j42563125903952_1_alg».proof.Proof.KI.Results
import proofs.«107422_j42563125903952_1_alg».proof.Proof.Ref.RefRun
import Idealize.ShloMosaic.Adequacy
import Idealize.ShloMosaic.Init

noncomputable section

namespace Cert.Proof

open Idealize.ShloMosaic Idealize.SL.Sem

/-- The word-level program runs to the end, faults nowhere, and leaves its arguments unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The idealization rewrote no operation. -/
theorem preserves : Cert.preserves_Kernel_KernelIdeal := trivial

/-- From memories agreeing on the arguments both idealized programs run to the end with equal results: each result is the
    reference's tail at the arguments and at the reference's distance stage, which the kernel's output array is. -/
theorem algebraic : Cert.algebraic_KernelIdeal_ReferenceIdeal := by
  intro m ρ m' ρ' _ hagree
  refine ⟨fun c => (Cert.ReferenceIdeal.RefValue.refTail (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.ReferenceIdeal.RefValue.refDist (m ((c.tc : Thread Cert.KernelIdeal.nD Cert.KernelIdeal.τ).loc Cert.KernelIdeal.main_arg2)) (m ((c.tc : Thread Cert.KernelIdeal.nD Cert.KernelIdeal.τ).loc Cert.KernelIdeal.main_arg3)))).1, fun c => (Cert.ReferenceIdeal.RefValue.refTail (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.ReferenceIdeal.RefValue.refDist (m ((c.tc : Thread Cert.KernelIdeal.nD Cert.KernelIdeal.τ).loc Cert.KernelIdeal.main_arg2)) (m ((c.tc : Thread Cert.KernelIdeal.nD Cert.KernelIdeal.τ).loc Cert.KernelIdeal.main_arg3)))).2.1, fun c => (Cert.ReferenceIdeal.RefValue.refTail (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.ReferenceIdeal.RefValue.refDist (m ((c.tc : Thread Cert.KernelIdeal.nD Cert.KernelIdeal.τ).loc Cert.KernelIdeal.main_arg2)) (m ((c.tc : Thread Cert.KernelIdeal.nD Cert.KernelIdeal.τ).loc Cert.KernelIdeal.main_arg3)))).2.2,
    Cert.KernelIdeal.HandValue.run_value m ρ, ?_⟩
  refine (θ_run Cert.ReferenceIdeal.defs _ _).mono (fun r h c => ?_) (Cert.ReferenceIdeal.RefValue.ref_run m' ρ')
  obtain ⟨e0, e1, e2, e3, e4⟩ := hagree c
  obtain ⟨h70, h72, h68, hargs⟩ := h c
  exact ⟨h70.trans (by rw [e0, e1, e2, e3, e4]), h72.trans (by rw [e0, e1, e2, e3, e4]), h68.trans (by rw [e0, e1, e2, e3, e4]), hargs⟩

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
